-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v111)) (v1 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_v115) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x16x256x256 : Shape := ⟨4, ![2, 16, 256, 256]⟩
abbrev S2x16x256 : Shape := ⟨3, ![2, 16, 256]⟩
abbrev S8x256 : Shape := ⟨2, ![8, 256]⟩
abbrev S512x20000 : Shape := ⟨2, ![512, 20000]⟩
abbrev S20000 : Shape := ⟨1, ![20000]⟩
abbrev S2048 : Shape := ⟨1, ![2048]⟩
abbrev S500000 : Shape := ⟨1, ![500000]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S2x16x256x256 : S_.BroadcastsInDim S2x16x256x256 (![] : Fin 0 → Fin S2x16x256x256.rank)
  reducesTo_S2x16x256x256_S_d0_1_2_3 : S2x16x256x256.ReducesTo [0, 1, 2, 3] S_
  bcast_S_S2x16x256 : S_.BroadcastsInDim S2x16x256 (![] : Fin 0 → Fin S2x16x256.rank)
  reducesTo_S2x16x256_S_d0_1_2 : S2x16x256.ReducesTo [0, 1, 2] S_
  bcast_S_S8x256 : S_.BroadcastsInDim S8x256 (![] : Fin 0 → Fin S8x256.rank)
  reducesTo_S8x256_S_d0_1 : S8x256.ReducesTo [0, 1] S_
  bcast_S_S512x20000 : S_.BroadcastsInDim S512x20000 (![] : Fin 0 → Fin S512x20000.rank)
  reducesTo_S512x20000_S_d0_1 : S512x20000.ReducesTo [0, 1] S_
  bcast_S_S20000 : S_.BroadcastsInDim S20000 (![] : Fin 0 → Fin S20000.rank)
  reducesTo_S20000_S_d0 : S20000.ReducesTo [0] S_

variable [Facts]

def fn_part2 {F : FTy → Type} [FloatOps F] (main_arg7 : FVec F S512x20000 .f32) (main_arg8 : FVec F S20000 .f32) (main_v33 : IVec S_ 1) : IVec S_ 1 :=
  let main_v34 : FVec F S512x20000 .f32 := Host.absf main_arg7
  let main_cst_12 : FVec F S_ .f32 := constant S_ .f32 0x7F800000#32
  let main_v35 : FVec F S512x20000 .f32 := broadcastInDim S512x20000 ![] bcast_S_S512x20000 main_cst_12
  let main_v36 : IVec S512x20000 1 := cmpf .olt main_v34 main_v35
  let main_c_13 : IVec S_ 1 := constantI S_ 1 1#1
  let main_v37 : IVec S_ 1 := (fun x v => Host.reduce IntOp.andi x v reducesTo_S512x20000_S_d0_1 h_S_) main_v36 main_c_13
  let main_v38 : IVec S_ 1 := andi main_v33 main_v37
  let main_v39 : FVec F S20000 .f32 := Host.absf main_arg8
  let main_cst_14 : FVec F S_ .f32 := constant S_ .f32 0x7F800000#32
  let main_v40 : FVec F S20000 .f32 := broadcastInDim S20000 ![] bcast_S_S20000 main_cst_14
  let main_v41 : IVec S20000 1 := cmpf .olt main_v39 main_v40
  let main_c_15 : IVec S_ 1 := constantI S_ 1 1#1
  let main_v42 : IVec S_ 1 := (fun x v => Host.reduce IntOp.andi x v reducesTo_S20000_S_d0 h_S_) main_v41 main_c_15
  let main_v43 : IVec S_ 1 := andi main_v38 main_v42
  main_v43

def fn_part1 {F : FTy → Type} [FloatOps F] (main_arg4 : FVec F S8x256 .f32) (main_arg5 : FVec F S512x20000 .f32) (main_arg6 : FVec F S20000 .f32) (main_arg7 : FVec F S512x20000 .f32) (main_arg8 : FVec F S20000 .f32) (main_v13 : IVec S_ 1) (main_v16 : IVec S8x256 1) : IVec S_ 1 :=
  let main_c_5 : IVec S_ 1 := constantI S_ 1 1#1
  let main_v17 : IVec S_ 1 := (fun x v => Host.reduce IntOp.andi x v reducesTo_S8x256_S_d0_1 h_S_) main_v16 main_c_5
  let main_v18 : IVec S_ 1 := andi main_v13 main_v17
  let main_v19 : FVec F S8x256 .f32 := Host.absf main_arg4
  let main_cst_6 : FVec F S_ .f32 := constant S_ .f32 0x7F800000#32
  let main_v20 : FVec F S8x256 .f32 := broadcastInDim S8x256 ![] bcast_S_S8x256 main_cst_6
  let main_v21 : IVec S8x256 1 := cmpf .olt main_v19 main_v20
  let main_c_7 : IVec S_ 1 := constantI S_ 1 1#1
  let main_v22 : IVec S_ 1 := (fun x v => Host.reduce IntOp.andi x v reducesTo_S8x256_S_d0_1 h_S_) main_v21 main_c_7
  let main_v23 : IVec S_ 1 := andi main_v18 main_v22
  let main_v24 : FVec F S512x20000 .f32 := Host.absf main_arg5
  let main_cst_8 : FVec F S_ .f32 := constant S_ .f32 0x7F800000#32
  let main_v25 : FVec F S512x20000 .f32 := broadcastInDim S512x20000 ![] bcast_S_S512x20000 main_cst_8
  let main_v26 : IVec S512x20000 1 := cmpf .olt main_v24 main_v25
  let main_c_9 : IVec S_ 1 := constantI S_ 1 1#1
  let main_v27 : IVec S_ 1 := (fun x v => Host.reduce IntOp.andi x v reducesTo_S512x20000_S_d0_1 h_S_) main_v26 main_c_9
  let main_v28 : IVec S_ 1 := andi main_v23 main_v27
  let main_v29 : FVec F S20000 .f32 := Host.absf main_arg6
  let main_cst_10 : FVec F S_ .f32 := constant S_ .f32 0x7F800000#32
  let main_v30 : FVec F S20000 .f32 := broadcastInDim S20000 ![] bcast_S_S20000 main_cst_10
  let main_v31 : IVec S20000 1 := cmpf .olt main_v29 main_v30
  let main_c_11 : IVec S_ 1 := constantI S_ 1 1#1
  let main_v32 : IVec S_ 1 := (fun x v => Host.reduce IntOp.andi x v reducesTo_S20000_S_d0 h_S_) main_v31 main_c_11
  let main_v33 : IVec S_ 1 := andi main_v28 main_v32
  fn_part2 (F := F) main_arg7 main_arg8 main_v33

def fn {F : FTy → Type} [FloatOps F] (main_arg0 : FVec F S20000x256 .f32) (main_arg1 : FVec F S2x16x256x256 .f32) (main_arg2 : FVec F S2x16x256 .f32) (main_arg3 : FVec F S8x256 .f32) (main_arg4 : FVec F S8x256 .f32) (main_arg5 : FVec F S512x20000 .f32) (main_arg6 : FVec F S20000 .f32) (main_arg7 : FVec F S512x20000 .f32) (main_arg8 : FVec F S20000 .f32) (main_arg9 : IVec S2048 32) (main_arg10 : IVec S2048 32) (main_arg11 : IVec S2048 32) (main_arg12 : IVec S500000 32) (main_arg13 : IVec S500000 32) (main_arg14 : IVec S500000 32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S2x16x256x256 .f32 := Host.absf main_arg1
  let main_cst_0 : FVec F S_ .f32 := constant S_ .f32 0x7F800000#32
  let main_v5 : FVec F S2x16x256x256 .f32 := broadcastInDim S2x16x256x256 ![] bcast_S_S2x16x256x256 main_cst_0
  let main_v6 : IVec S2x16x256x256 1 := cmpf .olt main_v4 main_v5
  let main_c_1 : IVec S_ 1 := constantI S_ 1 1#1
  let main_v7 : IVec S_ 1 := (fun x v => Host.reduce IntOp.andi x v reducesTo_S2x16x256x256_S_d0_1_2_3 h_S_) main_v6 main_c_1
  let main_v8 : IVec S_ 1 := andi main_v3 main_v7
  let main_v9 : FVec F S2x16x256 .f32 := Host.absf main_arg2
  let main_cst_2 : FVec F S_ .f32 := constant S_ .f32 0x7F800000#32
  let main_v10 : FVec F S2x16x256 .f32 := broadcastInDim S2x16x256 ![] bcast_S_S2x16x256 main_cst_2
  let main_v11 : IVec S2x16x256 1 := cmpf .olt main_v9 main_v10
  let main_c_3 : IVec S_ 1 := constantI S_ 1 1#1
  let main_v12 : IVec S_ 1 := (fun x v => Host.reduce IntOp.andi x v reducesTo_S2x16x256_S_d0_1_2 h_S_) main_v11 main_c_3
  let main_v13 : IVec S_ 1 := andi main_v8 main_v12
  let main_v14 : FVec F S8x256 .f32 := Host.absf main_arg3
  let main_cst_4 : FVec F S_ .f32 := constant S_ .f32 0x7F800000#32
  let main_v15 : FVec F S8x256 .f32 := broadcastInDim S8x256 ![] bcast_S_S8x256 main_cst_4
  let main_v16 : IVec S8x256 1 := cmpf .olt main_v14 main_v15
  fn_part1 (F := F) main_arg4 main_arg5 main_arg6 main_arg7 main_arg8 main_v13 main_v16
-- ==== Kernel.lean ====
abbrev S20000x256 : Shape := ⟨2, ![20000, 256]⟩
abbrev S2x16x256x256 : Shape := ⟨4, ![2, 16, 256, 256]⟩
abbrev S2x16x256 : Shape := ⟨3, ![2, 16, 256]⟩
abbrev S8x256 : Shape := ⟨2, ![8, 256]⟩
abbrev S512x20000 : Shape := ⟨2, ![512, 20000]⟩
abbrev S20000 : Shape := ⟨1, ![20000]⟩
abbrev S2048 : Shape := ⟨1, ![2048]⟩
abbrev S500000 : Shape := ⟨1, ![500000]⟩
abbrev S1000000 : Shape := ⟨1, ![1000000]⟩
abbrev S_ : Shape := ⟨0, ![]⟩
abbrev S320000 : Shape := ⟨1, ![320000]⟩
abbrev S1000000x1 : Shape := ⟨2, ![1000000, 1]⟩
abbrev S1000000x256 : Shape := ⟨2, ![1000000, 256]⟩
abbrev S320000x256 : Shape := ⟨2, ![320000, 256]⟩
abbrev S16x20000x256 : Shape := ⟨3, ![16, 20000, 256]⟩
abbrev S16x20000x1 : Shape := ⟨3, ![16, 20000, 1]⟩
abbrev S1x16x256x256 : Shape := ⟨4, ![1, 16, 256, 256]⟩
abbrev S16x256x256 : Shape := ⟨3, ![16, 256, 256]⟩
abbrev S1x16x256 : Shape := ⟨3, ![1, 16, 256]⟩
abbrev S16x256 : Shape := ⟨2, ![16, 256]⟩
abbrev S16x1000x256 : Shape := ⟨3, ![16, 1000, 256]⟩
abbrev S16x1000x1 : Shape := ⟨3, ![16, 1000, 1]⟩
abbrev S1000x256 : Shape := ⟨2, ![1000, 256]⟩
abbrev S1x1000x256 : Shape := ⟨3, ![1, 1000, 256]⟩
abbrev S1x1000x1 : Shape := ⟨3, ![1, 1000, 1]⟩
abbrev S1000x1 : Shape := ⟨2, ![1000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2048x1 : Shape := ⟨2, ![2048, 1]⟩
abbrev S2048x256 : Shape := ⟨2, ![2048, 256]⟩
abbrev S2048x512 : Shape := ⟨2, ![2048, 512]⟩
abbrev S512x20480 : Shape := ⟨2, ![512, 20480]⟩
abbrev S20480 : Shape := ⟨1, ![20480]⟩
abbrev S2048x20480 : Shape := ⟨2, ![2048, 20480]⟩
abbrev S512x1024 : Shape := ⟨2, ![512, 1024]⟩
abbrev S1024 : Shape := ⟨1, ![1024]⟩
abbrev S2048x1024 : Shape := ⟨2, ![2048, 1024]⟩
abbrev S1x1024 : Shape := ⟨2, ![1, 1024]⟩
abbrev S2048x20000 : Shape := ⟨2, ![2048, 20000]⟩

abbrev nBuf : Space → Nat
  | .hbm => 171
  | .vmem => 30
  | .smem => 0
  | _ => 0

abbrev hbmTy0_0 (i : Nat) : BufTy := match i % 128 with
  | 0 => ⟨S20000x256, .f32⟩
  | 1 => ⟨S2x16x256x256, .f32⟩
  | 2 => ⟨S2x16x256, .f32⟩
  | 3 => ⟨S8x256, .f32⟩
  | 4 => ⟨S8x256, .f32⟩
  | 5 => ⟨S512x20000, .f32⟩
  | 6 => ⟨S20000, .f32⟩
  | 7 => ⟨S512x20000, .f32⟩
  | 8 => ⟨S20000, .f32⟩
  | 9 => ⟨S2048, .i32⟩
  | 10 => ⟨S2048, .i32⟩
  | 11 => ⟨S2048, .i32⟩
  | 12 => ⟨S500000, .i32⟩
  | 13 => ⟨S500000, .i32⟩
  | 14 => ⟨S500000, .i32⟩
  | 15 => ⟨S1000000, .i32⟩
  | 16 => ⟨S1000000, .i32⟩
  | 17 => ⟨S_, .i32⟩
  | 18 => ⟨S500000, .i32⟩
  | 19 => ⟨S500000, .i32⟩
  | 20 => ⟨S1000000, .i32⟩
  | 21 => ⟨S_, .i32⟩
  | 22 => ⟨S1000000, .i32⟩
  | 23 => ⟨S1000000, .i32⟩
  | 24 => ⟨S1000000, .i32⟩
  | 25 => ⟨S_, .i32⟩
  | 26 => ⟨S1000000, .i32⟩
  | 27 => ⟨S1000000, .i32⟩
  | 28 => ⟨S1000000, .i32⟩
  | 29 => ⟨S_, .f32⟩
  | 30 => ⟨S1000000, .f32⟩
  | 31 => ⟨S_, .f32⟩
  | 32 => ⟨S320000, .f32⟩
  | 33 => ⟨S1000000x1, .i32⟩
  | 34 => ⟨S320000, .f32⟩
  | 35 => ⟨S_, .f32⟩
  | 36 => ⟨S_, .f32⟩
  | 37 => ⟨S320000, .f32⟩
  | 38 => ⟨S320000, .f32⟩
  | 39 => ⟨S_, .f32⟩
  | 40 => ⟨S320000, .f32⟩
  | 41 => ⟨S1000000x1, .i32⟩
  | 42 => ⟨S320000, .f32⟩
  | 43 => ⟨S_, .f32⟩
  | 44 => ⟨S_, .f32⟩
  | 45 => ⟨S320000, .f32⟩
  | 46 => ⟨S320000, .f32⟩
  | 47 => ⟨S_, .f32⟩
  | 48 => ⟨S320000, .f32⟩
  | 49 => ⟨S320000, .f32⟩
  | 50 => ⟨S_, .f32⟩
  | 51 => ⟨S320000, .f32⟩
  | 52 => ⟨S320000, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x256, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000, .f32⟩
  | 71 => ⟨S1000000x1, .f32⟩
  | 72 => ⟨S1000000x256, .f32⟩
  | 73 => ⟨S1000000x256, .f32⟩
  | 74 => ⟨S_, .f32⟩
  | 75 => ⟨S320000x256, .f32⟩
  | 76 => ⟨S1000000x1, .i32⟩
  | 77 => ⟨S320000x256, .f32⟩
  | 78 => ⟨S16x20000x256, .f32⟩
  | 79 => ⟨S16x20000x1, .f32⟩
  | 80 => ⟨S1x16x256x256, .f32⟩
  | 81 => ⟨S16x256x256, .f32⟩
  | 82 => ⟨S1x16x256, .f32⟩
  | 83 => ⟨S16x256, .f32⟩
  | 84 => ⟨S20000x256, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x256, .f32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000, .f32⟩
  | 103 => ⟨S1000000x1, .f32⟩
  | 104 => ⟨S1000000x256, .f32⟩
  | 105 => ⟨S1000000x256, .f32⟩
  | 106 => ⟨S_, .f32⟩
  | 107 => ⟨S320000x256, .f32⟩
  | 108 => ⟨S1000000x1, .i32⟩
  | 109 => ⟨S320000x256, .f32⟩
  | 110 => ⟨S16x20000x256, .f32⟩
  | 111 => ⟨S16x20000x1, .f32⟩
  | 112 => ⟨S1x16x256x256, .f32⟩
  | 113 => ⟨S16x256x256, .f32⟩
  | 114 => ⟨S1x16x256, .f32⟩
  | 115 => ⟨S16x256, .f32⟩
  | 116 => ⟨S20000x256, .f32⟩
  | 117 => ⟨S_, .i32⟩
  | 118 => ⟨S2048, .i32⟩
  | 119 => ⟨S2048, .i1⟩
  | 120 => ⟨S_, .i32⟩
  | 121 => ⟨S2048, .i32⟩
  | 122 => ⟨S2048, .i32⟩
  | 123 => ⟨S2048, .i32⟩
  | 124 => ⟨S2048x1, .i32⟩
  | 125 => ⟨S2048x256, .f32⟩
  | 126 => ⟨S_, .i32⟩
  | 127 => ⟨S2048, .i32⟩
  | _ => ⟨S20000x256, .f32⟩

abbrev hbmTy0_1 (i : Nat) : BufTy := match i % 128 with
  | 0 => ⟨S2048, .i1⟩
  | 1 => ⟨S_, .i32⟩
  | 2 => ⟨S2048, .i32⟩
  | 3 => ⟨S2048, .i32⟩
  | 4 => ⟨S2048, .i32⟩
  | 5 => ⟨S2048x1, .i32⟩
  | 6 => ⟨S2048x256, .f32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S2048x256, .f32⟩
  | 16 => ⟨S_, .i32⟩
  | 17 => ⟨S2048, .i32⟩
  | 18 => ⟨S2048, .i1⟩
  | 19 => ⟨S_, .i32⟩
  | 20 => ⟨S2048, .i32⟩
  | 21 => ⟨S2048, .i32⟩
  | 22 => ⟨S2048, .i32⟩
  | 23 => ⟨S2048x1, .i32⟩
  | 24 => ⟨S2048x256, .f32⟩
  | 25 => ⟨S2048x512, .f32⟩
  | 26 => ⟨S2048x512, .f32⟩
  | 27 => ⟨S_, .i32⟩
  | 28 => ⟨S_, .f32⟩
  | 29 => ⟨S512x20480, .f32⟩
  | 30 => ⟨S_, .i32⟩
  | 31 => ⟨S_, .f32⟩
  | 32 => ⟨S20480, .f32⟩
  | 33 => ⟨S2048x20480, .f32⟩
  | 34 => ⟨S2048x20000, .f32⟩
  | 35 => ⟨S_, .i32⟩
  | 36 => ⟨S_, .f32⟩
  | 37 => ⟨S512x20480, .f32⟩
  | 38 => ⟨S_, .i32⟩
  | 39 => ⟨S_, .f32⟩
  | 40 => ⟨S20480, .f32⟩
  | 41 => ⟨S2048x20480, .f32⟩
  | 42 => ⟨S2048x20000, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S16x1000x256, .f32⟩
  | .local _ .vmem, ⟨1, _⟩ => ⟨S16x1000x256, .f32⟩
  | .local _ .vmem, ⟨2, _⟩ => ⟨S16x1000x1, .f32⟩
  | .local _ .vmem, ⟨3, _⟩ => ⟨S16x1000x1, .f32⟩
  | .local _ .vmem, ⟨4, _⟩ => ⟨S16x256x256, .f32⟩
  | .local _ .vmem, ⟨5, _⟩ => ⟨S16x256, .f32⟩
  | .local _ .vmem, ⟨6, _⟩ => ⟨S1000x256, .f32⟩
  | .local _ .vmem, ⟨7, _⟩ => ⟨S1000x256, .f32⟩
  | .local _ .vmem, ⟨8, _⟩ => ⟨S16x1000x256, .f32⟩
  | .local _ .vmem, ⟨9, _⟩ => ⟨S16x1000x256, .f32⟩
  | .local _ .vmem, ⟨10, _⟩ => ⟨S16x1000x1, .f32⟩
  | .local _ .vmem, ⟨11, _⟩ => ⟨S16x1000x1, .f32⟩
  | .local _ .vmem, ⟨12, _⟩ => ⟨S16x256x256, .f32⟩
  | .local _ .vmem, ⟨13, _⟩ => ⟨S16x256, .f32⟩
  | .local _ .vmem, ⟨14, _⟩ => ⟨S1000x256, .f32⟩
  | .local _ .vmem, ⟨15, _⟩ => ⟨S1000x256, .f32⟩
  | .local _ .vmem, ⟨16, _⟩ => ⟨S2048x512, .f32⟩
  | .local _ .vmem, ⟨17, _⟩ => ⟨S512x1024, .f32⟩
  | .local _ .vmem, ⟨18, _⟩ => ⟨S512x1024, .f32⟩
  | .local _ .vmem, ⟨19, _⟩ => ⟨S1024, .f32⟩
  | .local _ .vmem, ⟨20, _⟩ => ⟨S1024, .f32⟩
  | .local _ .vmem, ⟨21, _⟩ => ⟨S2048x1024, .f32⟩
  | .local _ .vmem, ⟨22, _⟩ => ⟨S2048x1024, .f32⟩
  | .local _ .vmem, ⟨23, _⟩ => ⟨S2048x512, .f32⟩
  | .local _ .vmem, ⟨24, _⟩ => ⟨S512x1024, .f32⟩
  | .local _ .vmem, ⟨25, _⟩ => ⟨S512x1024, .f32⟩
  | .local _ .vmem, ⟨26, _⟩ => ⟨S1024, .f32⟩
  | .local _ .vmem, ⟨27, _⟩ => ⟨S1024, .f32⟩
  | .local _ .vmem, ⟨28, _⟩ => ⟨S2048x1024, .f32⟩
  | .local _ .vmem, ⟨29, _⟩ => ⟨S2048x1024, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_cst_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v19 : Ref sig .tc := ⟨.hbm, 46, rfl⟩
abbrev main_cst_6 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_c_8 : Ref sig .tc := ⟨.hbm, 53, rfl⟩
abbrev main_v24 : Ref sig .tc := ⟨.hbm, 54, rfl⟩
abbrev main_v25 : Ref sig .tc := ⟨.hbm, 55, rfl⟩
abbrev main_c_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_10 : Ref sig .tc := ⟨.hbm, 62, rfl⟩
abbrev main_v31 : Ref sig .tc := ⟨.hbm, 63, rfl⟩
abbrev main_v32 : Ref sig .tc := ⟨.hbm, 64, rfl⟩
abbrev main_c_11 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_12 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_13 : Ref sig .tc := ⟨.hbm, 85, rfl⟩
abbrev main_v51 : Ref sig .tc := ⟨.hbm, 86, rfl⟩
abbrev main_v52 : Ref sig .tc := ⟨.hbm, 87, rfl⟩
abbrev main_c_14 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_15 : Ref sig .tc := ⟨.hbm, 94, rfl⟩
abbrev main_v58 : Ref sig .tc := ⟨.hbm, 95, rfl⟩
abbrev main_v59 : Ref sig .tc := ⟨.hbm, 96, rfl⟩
abbrev main_c_16 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_17 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_18 : Ref sig .tc := ⟨.hbm, 117, rfl⟩
abbrev main_v78 : Ref sig .tc := ⟨.hbm, 118, rfl⟩
abbrev main_v79 : Ref sig .tc := ⟨.hbm, 119, rfl⟩
abbrev main_c_19 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_20 : Ref sig .tc := ⟨.hbm, 126, rfl⟩
abbrev main_v85 : Ref sig .tc := ⟨.hbm, 127, rfl⟩
abbrev main_v86 : Ref sig .tc := ⟨.hbm, 128, rfl⟩
abbrev main_c_21 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_22 : Ref sig .tc := ⟨.hbm, 135, rfl⟩
abbrev main_v92 : Ref sig .tc := ⟨.hbm, 136, rfl⟩
abbrev main_v93 : Ref sig .tc := ⟨.hbm, 137, rfl⟩
abbrev main_c_23 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_c_24 : Ref sig .tc := ⟨.hbm, 144, rfl⟩
abbrev main_v99 : Ref sig .tc := ⟨.hbm, 145, rfl⟩
abbrev main_v100 : Ref sig .tc := ⟨.hbm, 146, rfl⟩
abbrev main_c_25 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_c_26 : Ref sig .tc := ⟨.hbm, 155, rfl⟩
abbrev main_call2_v0 : Ref sig .tc := ⟨.hbm, 156, rfl⟩
abbrev main_v108 : Ref sig .tc := ⟨.hbm, 157, rfl⟩
abbrev main_c_27 : Ref sig .tc := ⟨.hbm, 158, rfl⟩
abbrev main_call3_v0 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_c_28 : Ref sig .tc := ⟨.hbm, 163, rfl⟩
abbrev main_call4_v0 : Ref sig .tc := ⟨.hbm, 164, rfl⟩
abbrev main_v112 : Ref sig .tc := ⟨.hbm, 165, rfl⟩
abbrev main_c_29 : Ref sig .tc := ⟨.hbm, 166, rfl⟩
abbrev main_call5_v0 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S2048x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S2048x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S500000_S500000_S1000000_d0 : Shape.Concatenates [S500000, S500000] S1000000 0
  bcast_S_S500000 : S_.BroadcastsInDim S500000 (![] : Fin 0 → Fin S500000.rank)
  bcast_S_S1000000 : S_.BroadcastsInDim S1000000 (![] : Fin 0 → Fin S1000000.rank)
  bcast_S_S320000 : S_.BroadcastsInDim S320000 (![] : Fin 0 → Fin S320000.rank)
  bcast_S1000000_S1000000x1_0 : S1000000.BroadcastsInDim S1000000x1 (![0] : Fin 1 → Fin S1000000x1.rank)
  bcast_S1000000x1_S1000000x256_0_1 : S1000000x1.BroadcastsInDim S1000000x256 (![0, 1] : Fin 2 → Fin S1000000x256.rank)
  bcast_S_S320000x256 : S_.BroadcastsInDim S320000x256 (![] : Fin 0 → Fin S320000x256.rank)
  shapeCasts_S320000x256_S16x20000x256 : S320000x256.ShapeCasts S16x20000x256
  shapeCasts_S320000_S16x20000x1 : S320000.ShapeCasts S16x20000x1
  slices_S2x16x256x256_S1x16x256x256_0_0_0_0 : S2x16x256x256.Slices ![0, 0, 0, 0] S1x16x256x256
  shapeCasts_S1x16x256x256_S16x256x256 : S1x16x256x256.ShapeCasts S16x256x256
  slices_S2x16x256_S1x16x256_0_0_0 : S2x16x256.Slices ![0, 0, 0] S1x16x256
  shapeCasts_S1x16x256_S16x256 : S1x16x256.ShapeCasts S16x256
  inb_S16x1000x256_S1x1000x256_0_0_0 : ∀ a, (![0, 0, 0] : Fin 3 → Nat) a + S1x1000x256.size a ≤ S16x1000x256.size a
  h_S1x1000x256 : 0 < S1x1000x256.numel
  shapeCasts_S1x1000x256_S1000x256 : S1x1000x256.ShapeCasts S1000x256
  inb_S16x1000x1_S1x1000x1_0_0_0 : ∀ a, (![0, 0, 0] : Fin 3 → Nat) a + S1x1000x1.size a ≤ S16x1000x1.size a
  h_S1x1000x1 : 0 < S1x1000x1.numel
  shapeCasts_S1x1000x1_S1000x1 : S1x1000x1.ShapeCasts S1000x1
  broadcasts_S1000x1_S1000x256 : S1000x1.Broadcasts S1000x256
  bitsLt_bf16_f32 : FTy.bits .bf16 < FTy.bits .f32
  inb_S16x256x256_S1x256x256_0_0_0 : ∀ a, (![0, 0, 0] : Fin 3 → Nat) a + S1x256x256.size a ≤ S16x256x256.size a
  h_S1x256x256 : 0 < S1x256x256.numel
  shapeCasts_S1x256x256_S256x256 : S1x256x256.ShapeCasts S256x256
  inb_S16x256_S1x256_0_0 : ∀ a, (![0, 0] : Fin 2 → Nat) a + S1x256.size a ≤ S16x256.size a
  h_S1x256 : 0 < S1x256.numel
  shapeCasts_S1x256_S256 : S1x256.ShapeCasts S256
  shapeCasts_S256_S1x256 : S256.ShapeCasts S1x256
  broadcasts_S1x256_S1000x256 : S1x256.Broadcasts S1000x256
  inb_S16x1000x256_S1x1000x256_1_0_0 : ∀ a, (![1, 0, 0] : Fin 3 → Nat) a + S1x1000x256.size a ≤ S16x1000x256.size a
  inb_S16x1000x1_S1x1000x1_1_0_0 : ∀ a, (![1, 0, 0] : Fin 3 → Nat) a + S1x1000x1.size a ≤ S16x1000x1.size a
  inb_S16x256x256_S1x256x256_1_0_0 : ∀ a, (![1, 0, 0] : Fin 3 → Nat) a + S1x256x256.size a ≤ S16x256x256.size a
  inb_S16x256_S1x256_1_0 : ∀ a, (![1, 0] : Fin 2 → Nat) a + S1x256.size a ≤ S16x256.size a
  inb_S16x1000x256_S1x1000x256_2_0_0 : ∀ a, (![2, 0, 0] : Fin 3 → Nat) a + S1x1000x256.size a ≤ S16x1000x256.size a
  inb_S16x1000x1_S1x1000x1_2_0_0 : ∀ a, (![2, 0, 0] : Fin 3 → Nat) a + S1x1000x1.size a ≤ S16x1000x1.size a
  inb_S16x256x256_S1x256x256_2_0_0 : ∀ a, (![2, 0, 0] : Fin 3 → Nat) a + S1x256x256.size a ≤ S16x256x256.size a
  inb_S16x256_S1x256_2_0 : ∀ a, (![2, 0] : Fin 2 → Nat) a + S1x256.size a ≤ S16x256.size a
  inb_S16x1000x256_S1x1000x256_3_0_0 : ∀ a, (![3, 0, 0] : Fin 3 → Nat) a + S1x1000x256.size a ≤ S16x1000x256.size a
  inb_S16x1000x1_S1x1000x1_3_0_0 : ∀ a, (![3, 0, 0] : Fin 3 → Nat) a + S1x1000x1.size a ≤ S16x1000x1.size a
  inb_S16x256x256_S1x256x256_3_0_0 : ∀ a, (![3, 0, 0] : Fin 3 → Nat) a + S1x256x256.size a ≤ S16x256x256.size a
  inb_S16x256_S1x256_3_0 : ∀ a, (![3, 0] : Fin 2 → Nat) a + S1x256.size a ≤ S16x256.size a
  inb_S16x1000x256_S1x1000x256_4_0_0 : ∀ a, (![4, 0, 0] : Fin 3 → Nat) a + S1x1000x256.size a ≤ S16x1000x256.size a
  inb_S16x1000x1_S1x1000x1_4_0_0 : ∀ a, (![4, 0, 0] : Fin 3 → Nat) a + S1x1000x1.size a ≤ S16x1000x1.size a
  inb_S16x256x256_S1x256x256_4_0_0 : ∀ a, (![4, 0, 0] : Fin 3 → Nat) a + S1x256x256.size a ≤ S16x256x256.size a
  inb_S16x256_S1x256_4_0 : ∀ a, (![4, 0] : Fin 2 → Nat) a + S1x256.size a ≤ S16x256.size a
  inb_S16x1000x256_S1x1000x256_5_0_0 : ∀ a, (![5, 0, 0] : Fin 3 → Nat) a + S1x1000x256.size a ≤ S16x1000x256.size a
  inb_S16x1000x1_S1x1000x1_5_0_0 : ∀ a, (![5, 0, 0] : Fin 3 → Nat) a + S1x1000x1.size a ≤ S16x1000x1.size a
  inb_S16x256x256_S1x256x256_5_0_0 : ∀ a, (![5, 0, 0] : Fin 3 → Nat) a + S1x256x256.size a ≤ S16x256x256.size a
  inb_S16x256_S1x256_5_0 : ∀ a, (![5, 0] : Fin 2 → Nat) a + S1x256.size a ≤ S16x256.size a
  inb_S16x1000x256_S1x1000x256_6_0_0 : ∀ a, (![6, 0, 0] : Fin 3 → Nat) a + S1x1000x256.size a ≤ S16x1000x256.size a
  inb_S16x1000x1_S1x1000x1_6_0_0 : ∀ a, (![6, 0, 0] : Fin 3 → Nat) a + S1x1000x1.size a ≤ S16x1000x1.size a
  inb_S16x256x256_S1x256x256_6_0_0 : ∀ a, (![6, 0, 0] : Fin 3 → Nat) a + S1x256x256.size a ≤ S16x256x256.size a
  inb_S16x256_S1x256_6_0 : ∀ a, (![6, 0] : Fin 2 → Nat) a + S1x256.size a ≤ S16x256.size a
  inb_S16x1000x256_S1x1000x256_7_0_0 : ∀ a, (![7, 0, 0] : Fin 3 → Nat) a + S1x1000x256.size a ≤ S16x1000x256.size a
  inb_S16x1000x1_S1x1000x1_7_0_0 : ∀ a, (![7, 0, 0] : Fin 3 → Nat) a + S1x1000x1.size a ≤ S16x1000x1.size a
  inb_S16x256x256_S1x256x256_7_0_0 : ∀ a, (![7, 0, 0] : Fin 3 → Nat) a + S1x256x256.size a ≤ S16x256x256.size a
  inb_S16x256_S1x256_7_0 : ∀ a, (![7, 0] : Fin 2 → Nat) a + S1x256.size a ≤ S16x256.size a
  inb_S16x1000x256_S1x1000x256_8_0_0 : ∀ a, (![8, 0, 0] : Fin 3 → Nat) a + S1x1000x256.size a ≤ S16x1000x256.size a
  inb_S16x1000x1_S1x1000x1_8_0_0 : ∀ a, (![8, 0, 0] : Fin 3 → Nat) a + S1x1000x1.size a ≤ S16x1000x1.size a
  inb_S16x256x256_S1x256x256_8_0_0 : ∀ a, (![8, 0, 0] : Fin 3 → Nat) a + S1x256x256.size a ≤ S16x256x256.size a
  inb_S16x256_S1x256_8_0 : ∀ a, (![8, 0] : Fin 2 → Nat) a + S1x256.size a ≤ S16x256.size a
  inb_S16x1000x256_S1x1000x256_9_0_0 : ∀ a, (![9, 0, 0] : Fin 3 → Nat) a + S1x1000x256.size a ≤ S16x1000x256.size a
  inb_S16x1000x1_S1x1000x1_9_0_0 : ∀ a, (![9, 0, 0] : Fin 3 → Nat) a + S1x1000x1.size a ≤ S16x1000x1.size a
  inb_S16x256x256_S1x256x256_9_0_0 : ∀ a, (![9, 0, 0] : Fin 3 → Nat) a + S1x256x256.size a ≤ S16x256x256.size a
  inb_S16x256_S1x256_9_0 : ∀ a, (![9, 0] : Fin 2 → Nat) a + S1x256.size a ≤ S16x256.size a
  inb_S16x1000x256_S1x1000x256_10_0_0 : ∀ a, (![10, 0, 0] : Fin 3 → Nat) a + S1x1000x256.size a ≤ S16x1000x256.size a
  inb_S16x1000x1_S1x1000x1_10_0_0 : ∀ a, (![10, 0, 0] : Fin 3 → Nat) a + S1x1000x1.size a ≤ S16x1000x1.size a
  inb_S16x256x256_S1x256x256_10_0_0 : ∀ a, (![10, 0, 0] : Fin 3 → Nat) a + S1x256x256.size a ≤ S16x256x256.size a
  inb_S16x256_S1x256_10_0 : ∀ a, (![10, 0] : Fin 2 → Nat) a + S1x256.size a ≤ S16x256.size a
  inb_S16x1000x256_S1x1000x256_11_0_0 : ∀ a, (![11, 0, 0] : Fin 3 → Nat) a + S1x1000x256.size a ≤ S16x1000x256.size a
  inb_S16x1000x1_S1x1000x1_11_0_0 : ∀ a, (![11, 0, 0] : Fin 3 → Nat) a + S1x1000x1.size a ≤ S16x1000x1.size a
  inb_S16x256x256_S1x256x256_11_0_0 : ∀ a, (![11, 0, 0] : Fin 3 → Nat) a + S1x256x256.size a ≤ S16x256x256.size a
  inb_S16x256_S1x256_11_0 : ∀ a, (![11, 0] : Fin 2 → Nat) a + S1x256.size a ≤ S16x256.size a
  inb_S16x1000x256_S1x1000x256_12_0_0 : ∀ a, (![12, 0, 0] : Fin 3 → Nat) a + S1x1000x256.size a ≤ S16x1000x256.size a
  inb_S16x1000x1_S1x1000x1_12_0_0 : ∀ a, (![12, 0, 0] : Fin 3 → Nat) a + S1x1000x1.size a ≤ S16x1000x1.size a
  inb_S16x256x256_S1x256x256_12_0_0 : ∀ a, (![12, 0, 0] : Fin 3 → Nat) a + S1x256x256.size a ≤ S16x256x256.size a
  inb_S16x256_S1x256_12_0 : ∀ a, (![12, 0] : Fin 2 → Nat) a + S1x256.size a ≤ S16x256.size a
  inb_S16x1000x256_S1x1000x256_13_0_0 : ∀ a, (![13, 0, 0] : Fin 3 → Nat) a + S1x1000x256.size a ≤ S16x1000x256.size a
  inb_S16x1000x1_S1x1000x1_13_0_0 : ∀ a, (![13, 0, 0] : Fin 3 → Nat) a + S1x1000x1.size a ≤ S16x1000x1.size a
  inb_S16x256x256_S1x256x256_13_0_0 : ∀ a, (![13, 0, 0] : Fin 3 → Nat) a + S1x256x256.size a ≤ S16x256x256.size a
  inb_S16x256_S1x256_13_0 : ∀ a, (![13, 0] : Fin 2 → Nat) a + S1x256.size a ≤ S16x256.size a
  inb_S16x1000x256_S1x1000x256_14_0_0 : ∀ a, (![14, 0, 0] : Fin 3 → Nat) a + S1x1000x256.size a ≤ S16x1000x256.size a
  inb_S16x1000x1_S1x1000x1_14_0_0 : ∀ a, (![14, 0, 0] : Fin 3 → Nat) a + S1x1000x1.size a ≤ S16x1000x1.size a
  inb_S16x256x256_S1x256x256_14_0_0 : ∀ a, (![14, 0, 0] : Fin 3 → Nat) a + S1x256x256.size a ≤ S16x256x256.size a
  inb_S16x256_S1x256_14_0 : ∀ a, (![14, 0] : Fin 2 → Nat) a + S1x256.size a ≤ S16x256.size a
  inb_S16x1000x256_S1x1000x256_15_0_0 : ∀ a, (![15, 0, 0] : Fin 3 → Nat) a + S1x1000x256.size a ≤ S16x1000x256.size a
  inb_S16x1000x1_S1x1000x1_15_0_0 : ∀ a, (![15, 0, 0] : Fin 3 → Nat) a + S1x1000x1.size a ≤ S16x1000x1.size a
  inb_S16x256x256_S1x256x256_15_0_0 : ∀ a, (![15, 0, 0] : Fin 3 → Nat) a + S1x256x256.size a ≤ S16x256x256.size a
  inb_S16x256_S1x256_15_0 : ∀ a, (![15, 0] : Fin 2 → Nat) a + S1x256.size a ≤ S16x256.size a
  inb_S1000x256_S1000x256_0_0 : ∀ a, (![0, 0] : Fin 2 → Nat) a + S1000x256.size a ≤ S1000x256.size a
  h_S1000x256 : 0 < S1000x256.numel
  slices_S2x16x256x256_S1x16x256x256_1_0_0_0 : S2x16x256x256.Slices ![1, 0, 0, 0] S1x16x256x256
  slices_S2x16x256_S1x16x256_1_0_0 : S2x16x256.Slices ![1, 0, 0] S1x16x256
  bcast_S_S2048 : S_.BroadcastsInDim S2048 (![] : Fin 0 → Fin S2048.rank)
  bcast_S2048_S2048x1_0 : S2048.BroadcastsInDim S2048x1 (![0] : Fin 1 → Fin S2048x1.rank)
  concatenates_S2048x256_S2048x256_S2048x512_d1 : Shape.Concatenates [S2048x256, S2048x256] S2048x512 1
  pads_S512x20000_S512x20480_000_04800 : S512x20000.Pads (![0, 0] : Fin 2 → Nat) ![0, 480] ![0, 0] S512x20480
  h_S_ : 0 < S_.numel
  pads_S20000_S20480_04800 : S20000.Pads (![0] : Fin 1 → Nat) ![480] ![0] S20480
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  slices_S2048x20480_S2048x20000_0_0 : S2048x20480.Slices ![0, 0] S2048x20000
  scatter_S320000_S1000000x1_S1000000_n_0_0_1_wf : ScatterDims.WF S320000 S1000000x1 S1000000 [] [0] [0] 1
  gather_S20000x256_S1000000x1_S1000000x256_1_0_n_n_0_1_1256_wf : GatherDims.WF S20000x256 S1000000x1 S1000000x256 [1] [0] [] [0] [] 1 ![1, 256]
  gather_S320000_S1000000x1_S1000000_n_0_n_n_0_1_1_wf : GatherDims.WF S320000 S1000000x1 S1000000 [] [0] [] [0] [] 1 ![1]
  scatter_S320000x256_S1000000x1_S1000000x256_1_0_0_1_wf : ScatterDims.WF S320000x256 S1000000x1 S1000000x256 [1] [0] [0] 1
  dot_S1000x256_S256x256_S1000x256_1_0_0_1_n_n_wf : DotDims.WF S1000x256 S256x256 S1000x256 [1] [0] [0] [1] [] []
  gather_S20000x256_S2048x1_S2048x256_1_0_n_n_0_1_1256_wf : GatherDims.WF S20000x256 S2048x1 S2048x256 [1] [0] [] [0] [] 1 ![1, 256]
  gather_S8x256_S2048x1_S2048x256_1_0_n_n_0_1_1256_wf : GatherDims.WF S8x256 S2048x1 S2048x256 [1] [0] [] [0] [] 1 ![1, 256]
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1000x256.size a ≤ S16x20000x256.size a
  hwx0_0 : ∀ i : grid0.Coords, EltTy.bits .f32 = 32 ∨ (Rect.block (s := S16x20000x256) S16x1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1000x1.size a ≤ S16x20000x1.size a
  hwx0_1 : ∀ i : grid0.Coords, EltTy.bits .f32 = 32 ∨ (Rect.block (s := S16x20000x1) S16x1000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256x256.size a ≤ S16x256x256.size a
  hwx0_2 : ∀ i : grid0.Coords, EltTy.bits .f32 = 32 ∨ (Rect.block (s := S16x256x256) S16x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S20000x256.size a
  hwx0_4 : ∀ i : grid0.Coords, EltTy.bits .f32 = 32 ∨ (Rect.block (s := S20000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x1000x256.size a ≤ S16x20000x256.size a
  hwx1_0 : ∀ i : grid1.Coords, EltTy.bits .f32 = 32 ∨ (Rect.block (s := S16x20000x256) S16x1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1000x1.size a ≤ S16x20000x1.size a
  hwx1_1 : ∀ i : grid1.Coords, EltTy.bits .f32 = 32 ∨ (Rect.block (s := S16x20000x1) S16x1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x256x256.size a ≤ S16x256x256.size a
  hwx1_2 : ∀ i : grid1.Coords, EltTy.bits .f32 = 32 ∨ (Rect.block (s := S16x256x256) S16x256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x256.size a ≤ S16x256.size a
  hwx1_3 : ∀ i : grid1.Coords, EltTy.bits .f32 = 32 ∨ (Rect.block (s := S16x256) S16x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S20000x256.size a
  hwx1_4 : ∀ i : grid1.Coords, EltTy.bits .f32 = 32 ∨ (Rect.block (s := S20000x256) S1000x256.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S2048x512.size a
  hwx2_0 : ∀ i : grid2.Coords, EltTy.bits .f32 = 32 ∨ (Rect.block (s := S2048x512) S2048x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x20480.size a
  hwx2_1 : ∀ i : grid2.Coords, EltTy.bits .f32 = 32 ∨ (Rect.block (s := S512x20480) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S20480.size a
  hwx2_2 : ∀ i : grid2.Coords, EltTy.bits .f32 = 32 ∨ (Rect.block (s := S20480) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S2048x20480.size a
  hwx2_3 : ∀ i : grid2.Coords, EltTy.bits .f32 = 32 ∨ (Rect.block (s := S2048x20480) S2048x1024.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S2048x512.size a
  hwx3_0 : ∀ i : grid3.Coords, EltTy.bits .f32 = 32 ∨ (Rect.block (s := S2048x512) S2048x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S512x20480.size a
  hwx3_1 : ∀ i : grid3.Coords, EltTy.bits .f32 = 32 ∨ (Rect.block (s := S512x20480) S512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S20480.size a
  hwx3_2 : ∀ i : grid3.Coords, EltTy.bits .f32 = 32 ∨ (Rect.block (s := S20480) S1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1024.size a ≤ S2048x20480.size a
  hwx3_3 : ∀ i : grid3.Coords, EltTy.bits .f32 = 32 ∨ (Rect.block (s := S2048x20480) S2048x1024.size (cc3_transform_3 i) (hinb3_3 i)).WholeWords (EltTy.packing .f32)

variable [Facts₀]

def scatter_S320000_S1000000x1_S1000000_n_0_0_1 : ScatterDims S320000 S1000000x1 S1000000 where
  updateWindowDims := []
  insertedWindowDims := [0]
  scatterDimsToOperandDims := [0]
  indexVectorDim := 1
  wf := scatter_S320000_S1000000x1_S1000000_n_0_0_1_wf
def gather_S20000x256_S1000000x1_S1000000x256_1_0_n_n_0_1_1256 : GatherDims S20000x256 S1000000x1 S1000000x256 where
  offsetDims := [1]
  collapsedSliceDims := [0]
  operandBatchingDims := []
  startIndicesBatchingDims := []
  startIndexMap := [0]
  indexVectorDim := 1
  sliceSizes := ![1, 256]
  wf := gather_S20000x256_S1000000x1_S1000000x256_1_0_n_n_0_1_1256_wf
def gather_S320000_S1000000x1_S1000000_n_0_n_n_0_1_1 : GatherDims S320000 S1000000x1 S1000000 where
  offsetDims := []
  collapsedSliceDims := [0]
  operandBatchingDims := []
  startIndicesBatchingDims := []
  startIndexMap := [0]
  indexVectorDim := 1
  sliceSizes := ![1]
  wf := gather_S320000_S1000000x1_S1000000_n_0_n_n_0_1_1_wf
def scatter_S320000x256_S1000000x1_S1000000x256_1_0_0_1 : ScatterDims S320000x256 S1000000x1 S1000000x256 where
  updateWindowDims := [1]
  insertedWindowDims := [0]
  scatterDimsToOperandDims := [0]
  indexVectorDim := 1
  wf := scatter_S320000x256_S1000000x1_S1000000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S20000x256_S2048x1_S2048x256_1_0_n_n_0_1_1256 : GatherDims S20000x256 S2048x1 S2048x256 where
  offsetDims := [1]
  collapsedSliceDims := [0]
  operandBatchingDims := []
  startIndicesBatchingDims := []
  startIndexMap := [0]
  indexVectorDim := 1
  sliceSizes := ![1, 256]
  wf := gather_S20000x256_S2048x1_S2048x256_1_0_n_n_0_1_1256_wf
def gather_S8x256_S2048x1_S2048x256_1_0_n_n_0_1_1256 : GatherDims S8x256 S2048x1 S2048x256 where
  offsetDims := [1]
  collapsedSliceDims := [0]
  operandBatchingDims := []
  startIndicesBatchingDims := []
  startIndexMap := [0]
  indexVectorDim := 1
  sliceSizes := ![1, 256]
  wf := gather_S8x256_S2048x1_S2048x256_1_0_n_n_0_1_1256_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v44) S16x1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S16x1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S16x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v71) S16x1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S16x1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S16x256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v76) S16x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v77) S1000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v106) S2048x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v108) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v109) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v110) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v107) S2048x512.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v112) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v113) S1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v114) S2048x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x256 : Shape := ⟨2, ![20000, 256]⟩
abbrev S2x16x256x256 : Shape := ⟨4, ![2, 16, 256, 256]⟩
abbrev S2x16x256 : Shape := ⟨3, ![2, 16, 256]⟩
abbrev S8x256 : Shape := ⟨2, ![8, 256]⟩
abbrev S512x20000 : Shape := ⟨2, ![512, 20000]⟩
abbrev S20000 : Shape := ⟨1, ![20000]⟩
abbrev S2048 : Shape := ⟨1, ![2048]⟩
abbrev S500000 : Shape := ⟨1, ![500000]⟩
abbrev S1000000 : Shape := ⟨1, ![1000000]⟩
abbrev S_ : Shape := ⟨0, ![]⟩
abbrev S1x16x256x256 : Shape := ⟨4, ![1, 16, 256, 256]⟩
abbrev S16x256x256 : Shape := ⟨3, ![16, 256, 256]⟩
abbrev S1x16x256 : Shape := ⟨3, ![1, 16, 256]⟩
abbrev S16x256 : Shape := ⟨2, ![16, 256]⟩
abbrev S320000 : Shape := ⟨1, ![320000]⟩
abbrev S1000000x1 : Shape := ⟨2, ![1000000, 1]⟩
abbrev S1000000x256 : Shape := ⟨2, ![1000000, 256]⟩
abbrev S320000x256 : Shape := ⟨2, ![320000, 256]⟩
abbrev S16x20000x256 : Shape := ⟨3, ![16, 20000, 256]⟩
abbrev S16x20000x1 : Shape := ⟨3, ![16, 20000, 1]⟩
abbrev S16x1x256 : Shape := ⟨3, ![16, 1, 256]⟩
abbrev S2048x1 : Shape := ⟨2, ![2048, 1]⟩
abbrev S2048x256 : Shape := ⟨2, ![2048, 256]⟩
abbrev S2048x512 : Shape := ⟨2, ![2048, 512]⟩
abbrev S2048x20000 : Shape := ⟨2, ![2048, 20000]⟩
abbrev S1x20000 : Shape := ⟨2, ![1, 20000]⟩

abbrev nBuf : Space → Nat
  | .hbm => 215
  | .vmem => 0
  | .smem => 0
  | _ => 0

abbrev hbmTy0_0 (i : Nat) : BufTy := match i % 128 with
  | 0 => ⟨S20000x256, .f32⟩
  | 1 => ⟨S2x16x256x256, .f32⟩
  | 2 => ⟨S2x16x256, .f32⟩
  | 3 => ⟨S8x256, .f32⟩
  | 4 => ⟨S8x256, .f32⟩
  | 5 => ⟨S512x20000, .f32⟩
  | 6 => ⟨S20000, .f32⟩
  | 7 => ⟨S512x20000, .f32⟩
  | 8 => ⟨S20000, .f32⟩
  | 9 => ⟨S2048, .i32⟩
  | 10 => ⟨S2048, .i32⟩
  | 11 => ⟨S2048, .i32⟩
  | 12 => ⟨S500000, .i32⟩
  | 13 => ⟨S500000, .i32⟩
  | 14 => ⟨S500000, .i32⟩
  | 15 => ⟨S1000000, .i32⟩
  | 16 => ⟨S1000000, .i32⟩
  | 17 => ⟨S_, .i32⟩
  | 18 => ⟨S500000, .i32⟩
  | 19 => ⟨S500000, .i32⟩
  | 20 => ⟨S1000000, .i32⟩
  | 21 => ⟨S1x16x256x256, .f32⟩
  | 22 => ⟨S16x256x256, .f32⟩
  | 23 => ⟨S1x16x256, .f32⟩
  | 24 => ⟨S16x256, .f32⟩
  | 25 => ⟨S_, .i32⟩
  | 26 => ⟨S1000000, .i32⟩
  | 27 => ⟨S1000000, .i32⟩
  | 28 => ⟨S1000000, .i32⟩
  | 29 => ⟨S_, .i32⟩
  | 30 => ⟨S1000000, .i32⟩
  | 31 => ⟨S1000000, .i32⟩
  | 32 => ⟨S1000000, .i32⟩
  | 33 => ⟨S_, .f32⟩
  | 34 => ⟨S1000000, .f32⟩
  | 35 => ⟨S_, .f32⟩
  | 36 => ⟨S320000, .f32⟩
  | 37 => ⟨S1000000x1, .i32⟩
  | 38 => ⟨S320000, .f32⟩
  | 39 => ⟨S_, .f32⟩
  | 40 => ⟨S_, .f32⟩
  | 41 => ⟨S320000, .f32⟩
  | 42 => ⟨S320000, .f32⟩
  | 43 => ⟨S_, .f32⟩
  | 44 => ⟨S320000, .f32⟩
  | 45 => ⟨S1000000x1, .i32⟩
  | 46 => ⟨S320000, .f32⟩
  | 47 => ⟨S_, .f32⟩
  | 48 => ⟨S_, .f32⟩
  | 49 => ⟨S320000, .f32⟩
  | 50 => ⟨S320000, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x256, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000, .f32⟩
  | 69 => ⟨S_, .f32⟩
  | 70 => ⟨S1000000, .f32⟩
  | 71 => ⟨S1000000, .f32⟩
  | 72 => ⟨S1000000x1, .f32⟩
  | 73 => ⟨S1000000x256, .f32⟩
  | 74 => ⟨S1000000x256, .f32⟩
  | 75 => ⟨S_, .f32⟩
  | 76 => ⟨S320000x256, .f32⟩
  | 77 => ⟨S1000000x1, .i32⟩
  | 78 => ⟨S320000x256, .f32⟩
  | 79 => ⟨S16x20000x256, .f32⟩
  | 80 => ⟨S_, .f32⟩
  | 81 => ⟨S320000, .f32⟩
  | 82 => ⟨S320000, .f32⟩
  | 83 => ⟨S16x20000x1, .f32⟩
  | 84 => ⟨S16x20000x256, .f32⟩
  | 85 => ⟨S16x20000x256, .f32⟩
  | 86 => ⟨S16x20000x256, .f32⟩
  | 87 => ⟨S16x1x256, .f32⟩
  | 88 => ⟨S16x20000x256, .f32⟩
  | 89 => ⟨S16x20000x256, .f32⟩
  | 90 => ⟨S_, .f32⟩
  | 91 => ⟨S20000x256, .f32⟩
  | 92 => ⟨S_, .f32⟩
  | 93 => ⟨S20000x256, .f32⟩
  | 94 => ⟨S20000x256, .f32⟩
  | 95 => ⟨S1x16x256x256, .f32⟩
  | 96 => ⟨S16x256x256, .f32⟩
  | 97 => ⟨S1x16x256, .f32⟩
  | 98 => ⟨S16x256, .f32⟩
  | 99 => ⟨S_, .i32⟩
  | 100 => ⟨S1000000, .i32⟩
  | 101 => ⟨S1000000, .i32⟩
  | 102 => ⟨S1000000, .i32⟩
  | 103 => ⟨S_, .i32⟩
  | 104 => ⟨S1000000, .i32⟩
  | 105 => ⟨S1000000, .i32⟩
  | 106 => ⟨S1000000, .i32⟩
  | 107 => ⟨S_, .f32⟩
  | 108 => ⟨S1000000, .f32⟩
  | 109 => ⟨S_, .f32⟩
  | 110 => ⟨S320000, .f32⟩
  | 111 => ⟨S1000000x1, .i32⟩
  | 112 => ⟨S320000, .f32⟩
  | 113 => ⟨S_, .f32⟩
  | 114 => ⟨S_, .f32⟩
  | 115 => ⟨S320000, .f32⟩
  | 116 => ⟨S320000, .f32⟩
  | 117 => ⟨S_, .f32⟩
  | 118 => ⟨S320000, .f32⟩
  | 119 => ⟨S1000000x1, .i32⟩
  | 120 => ⟨S320000, .f32⟩
  | 121 => ⟨S_, .f32⟩
  | 122 => ⟨S_, .f32⟩
  | 123 => ⟨S320000, .f32⟩
  | 124 => ⟨S320000, .f32⟩
  | 125 => ⟨S_, .i32⟩
  | 126 => ⟨S1000000, .i32⟩
  | 127 => ⟨S1000000, .i1⟩
  | _ => ⟨S20000x256, .f32⟩

abbrev hbmTy0_1 (i : Nat) : BufTy := match i % 128 with
  | 0 => ⟨S_, .i32⟩
  | 1 => ⟨S1000000, .i32⟩
  | 2 => ⟨S1000000, .i32⟩
  | 3 => ⟨S1000000, .i32⟩
  | 4 => ⟨S1000000x1, .i32⟩
  | 5 => ⟨S1000000x256, .f32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000, .f32⟩
  | 15 => ⟨S_, .f32⟩
  | 16 => ⟨S1000000, .f32⟩
  | 17 => ⟨S1000000, .f32⟩
  | 18 => ⟨S1000000x1, .f32⟩
  | 19 => ⟨S1000000x256, .f32⟩
  | 20 => ⟨S1000000x256, .f32⟩
  | 21 => ⟨S_, .f32⟩
  | 22 => ⟨S320000x256, .f32⟩
  | 23 => ⟨S1000000x1, .i32⟩
  | 24 => ⟨S320000x256, .f32⟩
  | 25 => ⟨S16x20000x256, .f32⟩
  | 26 => ⟨S_, .f32⟩
  | 27 => ⟨S320000, .f32⟩
  | 28 => ⟨S320000, .f32⟩
  | 29 => ⟨S16x20000x1, .f32⟩
  | 30 => ⟨S16x20000x256, .f32⟩
  | 31 => ⟨S16x20000x256, .f32⟩
  | 32 => ⟨S16x20000x256, .f32⟩
  | 33 => ⟨S16x1x256, .f32⟩
  | 34 => ⟨S16x20000x256, .f32⟩
  | 35 => ⟨S16x20000x256, .f32⟩
  | 36 => ⟨S_, .f32⟩
  | 37 => ⟨S20000x256, .f32⟩
  | 38 => ⟨S_, .f32⟩
  | 39 => ⟨S20000x256, .f32⟩
  | 40 => ⟨S20000x256, .f32⟩
  | 41 => ⟨S_, .i32⟩
  | 42 => ⟨S2048, .i32⟩
  | 43 => ⟨S2048, .i1⟩
  | 44 => ⟨S_, .i32⟩
  | 45 => ⟨S2048, .i32⟩
  | 46 => ⟨S2048, .i32⟩
  | 47 => ⟨S2048, .i32⟩
  | 48 => ⟨S2048x1, .i32⟩
  | 49 => ⟨S2048x256, .f32⟩
  | 50 => ⟨S_, .i32⟩
  | 51 => ⟨S2048, .i32⟩
  | 52 => ⟨S2048, .i1⟩
  | 53 => ⟨S_, .i32⟩
  | 54 => ⟨S2048, .i32⟩
  | 55 => ⟨S2048, .i32⟩
  | 56 => ⟨S2048, .i32⟩
  | 57 => ⟨S2048x1, .i32⟩
  | 58 => ⟨S2048x256, .f32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S2048x256, .f32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S2048x256, .f32⟩
  | 77 => ⟨S2048x512, .f32⟩
  | 78 => ⟨S2048x20000, .f32⟩
  | 79 => ⟨S1x20000, .f32⟩
  | 80 => ⟨S2048x20000, .f32⟩
  | 81 => ⟨S2048x20000, .f32⟩
  | 82 => ⟨S2048x512, .f32⟩
  | 83 => ⟨S2048x20000, .f32⟩
  | 84 => ⟨S1x20000, .f32⟩
  | 85 => ⟨S2048x20000, .f32⟩
  | 86 => ⟨S2048x20000, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_v23 : Ref sig .tc := ⟨.hbm, 50, rfl⟩
abbrev main_c_6 : Ref sig .tc := ⟨.hbm, 51, rfl⟩
abbrev main_v24 : Ref sig .tc := ⟨.hbm, 52, rfl⟩
abbrev main_v25 : Ref sig .tc := ⟨.hbm, 53, rfl⟩
abbrev main_c_7 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_8 : Ref sig .tc := ⟨.hbm, 60, rfl⟩
abbrev main_v31 : Ref sig .tc := ⟨.hbm, 61, rfl⟩
abbrev main_v32 : Ref sig .tc := ⟨.hbm, 62, rfl⟩
abbrev main_c_9 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_10 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_11 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_16 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_17 : Ref sig .tc := ⟨.hbm, 107, rfl⟩
abbrev main_v69 : Ref sig .tc := ⟨.hbm, 108, rfl⟩
abbrev main_cst_18 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_19 : Ref sig .tc := ⟨.hbm, 113, rfl⟩
abbrev main_call2_v0 : Ref sig .tc := ⟨.hbm, 114, rfl⟩
abbrev main_call2_v1 : Ref sig .tc := ⟨.hbm, 115, rfl⟩
abbrev main_v73 : Ref sig .tc := ⟨.hbm, 116, rfl⟩
abbrev main_cst_20 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_21 : Ref sig .tc := ⟨.hbm, 121, rfl⟩
abbrev main_call3_v0 : Ref sig .tc := ⟨.hbm, 122, rfl⟩
abbrev main_call3_v1 : Ref sig .tc := ⟨.hbm, 123, rfl⟩
abbrev main_v77 : Ref sig .tc := ⟨.hbm, 124, rfl⟩
abbrev main_c_22 : Ref sig .tc := ⟨.hbm, 125, rfl⟩
abbrev main_v78 : Ref sig .tc := ⟨.hbm, 126, rfl⟩
abbrev main_v79 : Ref sig .tc := ⟨.hbm, 127, rfl⟩
abbrev main_c_23 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_24 : Ref sig .tc := ⟨.hbm, 134, rfl⟩
abbrev main_v85 : Ref sig .tc := ⟨.hbm, 135, rfl⟩
abbrev main_v86 : Ref sig .tc := ⟨.hbm, 136, rfl⟩
abbrev main_c_25 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_26 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_27 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_28 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_29 : Ref sig .tc := ⟨.hbm, 164, rfl⟩
abbrev main_v110 : Ref sig .tc := ⟨.hbm, 165, rfl⟩
abbrev main_cst_30 : Ref sig .tc := ⟨.hbm, 166, rfl⟩
abbrev main_v111 : Ref sig .tc := ⟨.hbm, 167, rfl⟩
abbrev main_v112 : Ref sig .tc := ⟨.hbm, 168, rfl⟩
abbrev main_c_31 : Ref sig .tc := ⟨.hbm, 169, rfl⟩
abbrev main_v113 : Ref sig .tc := ⟨.hbm, 170, rfl⟩
abbrev main_v114 : Ref sig .tc := ⟨.hbm, 171, rfl⟩
abbrev main_c_32 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_c_33 : Ref sig .tc := ⟨.hbm, 178, rfl⟩
abbrev main_v120 : Ref sig .tc := ⟨.hbm, 179, rfl⟩
abbrev main_v121 : Ref sig .tc := ⟨.hbm, 180, rfl⟩
abbrev main_c_34 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_c_35 : Ref sig .tc := ⟨.hbm, 187, rfl⟩
abbrev main_v127 : Ref sig .tc := ⟨.hbm, 188, rfl⟩
abbrev main_v128 : Ref sig .tc := ⟨.hbm, 189, rfl⟩
abbrev main_c_36 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_c_37 : Ref sig .tc := ⟨.hbm, 196, rfl⟩
abbrev main_v134 : Ref sig .tc := ⟨.hbm, 197, rfl⟩
abbrev main_v135 : Ref sig .tc := ⟨.hbm, 198, rfl⟩
abbrev main_c_38 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩

abbrev nD : Nat := 1
abbrev τ : Topo := Topo.v7x

variable {F : FTy → Type} [FloatOps F]

class Facts₀ : Prop where
  concatenates_S500000_S500000_S1000000_d0 : Shape.Concatenates [S500000, S500000] S1000000 0
  bcast_S_S500000 : S_.BroadcastsInDim S500000 (![] : Fin 0 → Fin S500000.rank)
  slices_S2x16x256x256_S1x16x256x256_0_0_0_0 : S2x16x256x256.Slices ![0, 0, 0, 0] S1x16x256x256
  shapeCasts_S1x16x256x256_S16x256x256 : S1x16x256x256.ShapeCasts S16x256x256
  slices_S2x16x256_S1x16x256_0_0_0 : S2x16x256.Slices ![0, 0, 0] S1x16x256
  shapeCasts_S1x16x256_S16x256 : S1x16x256.ShapeCasts S16x256
  bcast_S_S1000000 : S_.BroadcastsInDim S1000000 (![] : Fin 0 → Fin S1000000.rank)
  bcast_S_S320000 : S_.BroadcastsInDim S320000 (![] : Fin 0 → Fin S320000.rank)
  bcast_S1000000_S1000000x1_0 : S1000000.BroadcastsInDim S1000000x1 (![0] : Fin 1 → Fin S1000000x1.rank)
  bcast_S1000000x1_S1000000x256_0_1 : S1000000x1.BroadcastsInDim S1000000x256 (![0, 1] : Fin 2 → Fin S1000000x256.rank)
  bcast_S_S320000x256 : S_.BroadcastsInDim S320000x256 (![] : Fin 0 → Fin S320000x256.rank)
  shapeCasts_S320000x256_S16x20000x256 : S320000x256.ShapeCasts S16x20000x256
  shapeCasts_S320000_S16x20000x1 : S320000.ShapeCasts S16x20000x1
  bcast_S16x20000x1_S16x20000x256_0_1_2 : S16x20000x1.BroadcastsInDim S16x20000x256 (![0, 1, 2] : Fin 3 → Fin S16x20000x256.rank)
  bcast_S16x256_S16x1x256_0_2 : S16x256.BroadcastsInDim S16x1x256 (![0, 2] : Fin 2 → Fin S16x1x256.rank)
  bcast_S16x1x256_S16x20000x256_0_1_2 : S16x1x256.BroadcastsInDim S16x20000x256 (![0, 1, 2] : Fin 3 → Fin S16x20000x256.rank)
  reducesTo_S16x20000x256_S20000x256_d0 : S16x20000x256.ReducesTo [0] S20000x256
  h_S_ : 0 < S_.numel
  bcast_S_S20000x256 : S_.BroadcastsInDim S20000x256 (![] : Fin 0 → Fin S20000x256.rank)
  slices_S2x16x256x256_S1x16x256x256_1_0_0_0 : S2x16x256x256.Slices ![1, 0, 0, 0] S1x16x256x256
  slices_S2x16x256_S1x16x256_1_0_0 : S2x16x256.Slices ![1, 0, 0] S1x16x256
  bcast_S_S2048 : S_.BroadcastsInDim S2048 (![] : Fin 0 → Fin S2048.rank)
  bcast_S2048_S2048x1_0 : S2048.BroadcastsInDim S2048x1 (![0] : Fin 1 → Fin S2048x1.rank)
  concatenates_S2048x256_S2048x256_S2048x512_d1 : Shape.Concatenates [S2048x256, S2048x256] S2048x512 1
  bcast_S20000_S1x20000_1 : S20000.BroadcastsInDim S1x20000 (![1] : Fin 1 → Fin S1x20000.rank)
  bcast_S1x20000_S2048x20000_0_1 : S1x20000.BroadcastsInDim S2048x20000 (![0, 1] : Fin 2 → Fin S2048x20000.rank)
  scatter_S320000_S1000000x1_S1000000_n_0_0_1_wf : ScatterDims.WF S320000 S1000000x1 S1000000 [] [0] [0] 1
  gather_S20000x256_S1000000x1_S1000000x256_1_0_n_n_0_1_1256_wf : GatherDims.WF S20000x256 S1000000x1 S1000000x256 [1] [0] [] [0] [] 1 ![1, 256]
  gather_S320000_S1000000x1_S1000000_n_0_n_n_0_1_1_wf : GatherDims.WF S320000 S1000000x1 S1000000 [] [0] [] [0] [] 1 ![1]
  scatter_S320000x256_S1000000x1_S1000000x256_1_0_0_1_wf : ScatterDims.WF S320000x256 S1000000x1 S1000000x256 [1] [0] [0] 1
  dot_S16x20000x256_S16x256x256_S16x20000x256_2_1_1_2_0_0_wf : DotDims.WF S16x20000x256 S16x256x256 S16x20000x256 [2] [1] [1] [2] [0] [0]
  gather_S20000x256_S2048x1_S2048x256_1_0_n_n_0_1_1256_wf : GatherDims.WF S20000x256 S2048x1 S2048x256 [1] [0] [] [0] [] 1 ![1, 256]
  gather_S8x256_S2048x1_S2048x256_1_0_n_n_0_1_1256_wf : GatherDims.WF S8x256 S2048x1 S2048x256 [1] [0] [] [0] [] 1 ![1, 256]
  dot_S2048x512_S512x20000_S2048x20000_1_0_0_1_n_n_wf : DotDims.WF S2048x512 S512x20000 S2048x20000 [1] [0] [0] [1] [] []

variable [Facts₀]

def scatter_S320000_S1000000x1_S1000000_n_0_0_1 : ScatterDims S320000 S1000000x1 S1000000 where
  updateWindowDims := []
  insertedWindowDims := [0]
  scatterDimsToOperandDims := [0]
  indexVectorDim := 1
  wf := scatter_S320000_S1000000x1_S1000000_n_0_0_1_wf
def gather_S20000x256_S1000000x1_S1000000x256_1_0_n_n_0_1_1256 : GatherDims S20000x256 S1000000x1 S1000000x256 where
  offsetDims := [1]
  collapsedSliceDims := [0]
  operandBatchingDims := []
  startIndicesBatchingDims := []
  startIndexMap := [0]
  indexVectorDim := 1
  sliceSizes := ![1, 256]
  wf := gather_S20000x256_S1000000x1_S1000000x256_1_0_n_n_0_1_1256_wf
def gather_S320000_S1000000x1_S1000000_n_0_n_n_0_1_1 : GatherDims S320000 S1000000x1 S1000000 where
  offsetDims := []
  collapsedSliceDims := [0]
  operandBatchingDims := []
  startIndicesBatchingDims := []
  startIndexMap := [0]
  indexVectorDim := 1
  sliceSizes := ![1]
  wf := gather_S320000_S1000000x1_S1000000_n_0_n_n_0_1_1_wf
def scatter_S320000x256_S1000000x1_S1000000x256_1_0_0_1 : ScatterDims S320000x256 S1000000x1 S1000000x256 where
  updateWindowDims := [1]
  insertedWindowDims := [0]
  scatterDimsToOperandDims := [0]
  indexVectorDim := 1
  wf := scatter_S320000x256_S1000000x1_S1000000x256_1_0_0_1_wf
def dot_S16x20000x256_S16x256x256_S16x20000x256_2_1_1_2_0_0 : DotDims S16x20000x256 S16x256x256 S16x20000x256 where
  lhsContracting := [2]
  rhsContracting := [1]
  lhsNonContracting := [1]
  rhsNonContracting := [2]
  lhsBatch := [0]
  rhsBatch := [0]
  wf := dot_S16x20000x256_S16x256x256_S16x20000x256_2_1_1_2_0_0_wf
def gather_S20000x256_S2048x1_S2048x256_1_0_n_n_0_1_1256 : GatherDims S20000x256 S2048x1 S2048x256 where
  offsetDims := [1]
  collapsedSliceDims := [0]
  operandBatchingDims := []
  startIndicesBatchingDims := []
  startIndexMap := [0]
  indexVectorDim := 1
  sliceSizes := ![1, 256]
  wf := gather_S20000x256_S2048x1_S2048x256_1_0_n_n_0_1_1256_wf
def gather_S8x256_S2048x1_S2048x256_1_0_n_n_0_1_1256 : GatherDims S8x256 S2048x1 S2048x256 where
  offsetDims := [1]
  collapsedSliceDims := [0]
  operandBatchingDims := []
  startIndicesBatchingDims := []
  startIndexMap := [0]
  indexVectorDim := 1
  sliceSizes := ![1, 256]
  wf := gather_S8x256_S2048x1_S2048x256_1_0_n_n_0_1_1256_wf
def dot_S2048x512_S512x20000_S2048x20000_1_0_0_1_n_n : DotDims S2048x512 S512x20000 S2048x20000 where
  lhsContracting := [1]
  rhsContracting := [0]
  lhsNonContracting := [0]
  rhsNonContracting := [1]
  lhsBatch := []
  rhsBatch := []
  wf := dot_S2048x512_S512x20000_S2048x20000_1_0_0_1_n_n_wf

class Facts : Prop extends Facts₀ where

variable [Facts]
-- ==== Proof.Spec.lean ====
/-
  The two dense stages of the reference, each as one function of its operands.

  `refLayer agg dinv W b`: one graph-convolution layer after the scatter. For relation `r`, node `n`, output feature `e`
  the reference forms `∑ d, (agg[r,n,d] · dinv[r,n,0]) · W[r,d,e] + b[r,e]`, sums it over the 16 relations starting from
  zero, and divides by 16 (the mean over relations).

  `refDense x W b`: the classifier, `∑ k, x[i,k] · W[k,j] + b[j]`.

  Both are written with the reference program's own operations, so that the reference's run is literally a
  composition of them, and the kernel's regions are compared with them index by index.
-/
import proofs.«133052_j57896159150149_1_alg».proof.Proof.Gen.ReferenceIdeal

noncomputable section

namespace Cert.Spec

open Idealize.ShloMosaic Cert.ReferenceIdeal Cert.ReferenceIdeal.Gen

variable {F : FTy → Type} [FloatOps F]

/-- One layer's dense tail: scale by the destination degree factor, the per-relation matrix product, the bias,
    the sum over the sixteen relations and the division by sixteen. -/
def refLayer (agg : (⟨S16x20000x256, .f32⟩ : BufTy).Contents (Elt F)) (dinv : (⟨S16x20000x1, .f32⟩ : BufTy).Contents (Elt F))
    (W : (⟨S16x256x256, .f32⟩ : BufTy).Contents (Elt F)) (b : (⟨S16x256, .f32⟩ : BufTy).Contents (Elt F)) :
    (⟨S20000x256, .f32⟩ : BufTy).Contents (Elt F) :=
  Host.divf
    (Host.reduceAdd
      (addf
        (Host.dotGeneral dot_S16x20000x256_S16x256x256_S16x20000x256_2_1_1_2_0_0 none
          (mulf agg (broadcastInDim S16x20000x256 ![0, 1, 2] bcast_S16x20000x1_S16x20000x256_0_1_2 dinv)) W)
        (broadcastInDim S16x20000x256 ![0, 1, 2] bcast_S16x1x256_S16x20000x256_0_1_2
          (broadcastInDim S16x1x256 ![0, 2] bcast_S16x256_S16x1x256_0_2 b)))
      (constant S_ .f32 0x00000000#32) reducesTo_S16x20000x256_S20000x256_d0 h_S_)
    (broadcastInDim S20000x256 ![] bcast_S_S20000x256 (constant S_ .f32 0x41800000#32))

/-- The classifier: a matrix product with the weights plus the bias row. -/
def refDense (x : (⟨S2048x512, .f32⟩ : BufTy).Contents (Elt F)) (W : (⟨S512x20000, .f32⟩ : BufTy).Contents (Elt F))
    (b : (⟨S20000, .f32⟩ : BufTy).Contents (Elt F)) : (⟨S2048x20000, .f32⟩ : BufTy).Contents (Elt F) :=
  addf (Host.dotGeneral dot_S2048x512_S512x20000_S2048x20000_1_0_0_1_n_n none x W)
    (broadcastInDim S2048x20000 ![0, 1] bcast_S1x20000_S2048x20000_0_1
      (broadcastInDim S1x20000 ![1] bcast_S20000_S1x20000_1 b))

end Cert.Spec

end
-- ==== Proof.RefSide.lean ====
/-
  The reference's run, cut at its two layers and its two classifiers.

  The reference computes each layer's dense tail `refLayer` from that layer's scattered messages, destination degree
  factors, weights and biases, and each prediction `refDense` from its concatenated embeddings. Each equation below is the
  reference's own chain of operations, read off stage by stage.
-/
import proofs.«133052_j57896159150149_1_alg».proof.Proof.Gen.ReferenceIdeal.Read
import proofs.«133052_j57896159150149_1_alg».proof.Proof.Spec

set_option maxRecDepth 16384

noncomputable section

namespace Cert.ReferenceIdeal.Cut

open Cert.ReferenceIdeal Cert.ReferenceIdeal.Read Idealize.ShloMosaic

variable {F : FTy → Type} [FloatOps F]

/-- The first layer's output is the dense tail of its scattered messages. -/
theorem layer1 (x0 : (⟨S20000x256, .f32⟩ : BufTy).Contents (Elt F)) (x1 : (⟨S2x16x256x256, .f32⟩ : BufTy).Contents (Elt F)) (x2 : (⟨S2x16x256, .f32⟩ : BufTy).Contents (Elt F)) (x12 x13 x14 : (⟨S500000, .i32⟩ : BufTy).Contents (Elt F)) :
    val_main_v58 (F := F) x0 x1 x2 x12 x13 x14
      = Cert.Spec.refLayer (F := F) (val_main_v46 (F := F) x0 x12 x13 x14) (val_main_v49 (F := F) x12 x13 x14) (val_main_v6 (F := F) x1) (val_main_v8 (F := F) x2) := by
  unfold val_main_v58 val_main_v57 val_main_v56 val_main_v55 val_main_v54 val_main_v53 val_main_v52 val_main_v51 val_main_v50 val_main_cst_13 val_main_cst_14 Cert.Spec.refLayer
  rfl

/-- The second layer's output is the dense tail of its scattered messages. -/
theorem layer2 (x0 : (⟨S20000x256, .f32⟩ : BufTy).Contents (Elt F)) (x1 : (⟨S2x16x256x256, .f32⟩ : BufTy).Contents (Elt F)) (x2 : (⟨S2x16x256, .f32⟩ : BufTy).Contents (Elt F)) (x12 x13 x14 : (⟨S500000, .i32⟩ : BufTy).Contents (Elt F)) :
    val_main_v112 (F := F) x0 x1 x2 x12 x13 x14
      = Cert.Spec.refLayer (F := F) (val_main_v100 (F := F) x0 x1 x2 x12 x13 x14) (val_main_v103 (F := F) x12 x13 x14) (val_main_v60 (F := F) x1) (val_main_v62 (F := F) x2) := by
  unfold val_main_v112 val_main_v111 val_main_v110 val_main_v109 val_main_v108 val_main_v107 val_main_v106 val_main_v105 val_main_v104 val_main_cst_29 val_main_cst_30 Cert.Spec.refLayer
  rfl

/-- The subject prediction is the classifier of the concatenated object and relation embeddings. -/
theorem predict0 (x0 : (⟨S20000x256, .f32⟩ : BufTy).Contents (Elt F)) (x1 : (⟨S2x16x256x256, .f32⟩ : BufTy).Contents (Elt F)) (x2 : (⟨S2x16x256, .f32⟩ : BufTy).Contents (Elt F)) (x4 : (⟨S8x256, .f32⟩ : BufTy).Contents (Elt F)) (x5 : (⟨S512x20000, .f32⟩ : BufTy).Contents (Elt F)) (x6 : (⟨S20000, .f32⟩ : BufTy).Contents (Elt F)) (x10 x11 : (⟨S2048, .i32⟩ : BufTy).Contents (Elt F)) (x12 x13 x14 : (⟨S500000, .i32⟩ : BufTy).Contents (Elt F)) :
    val_main_v145 (F := F) x0 x1 x2 x4 x5 x6 x10 x11 x12 x13 x14
      = Cert.Spec.refDense (F := F) (val_main_v141 (F := F) x0 x1 x2 x4 x10 x11 x12 x13 x14) x5 x6 := by
  unfold val_main_v145 val_main_v144 val_main_v143 val_main_v142 Cert.Spec.refDense
  rfl

/-- The object prediction is the classifier of the concatenated subject and relation embeddings. -/
theorem predict1 (x0 : (⟨S20000x256, .f32⟩ : BufTy).Contents (Elt F)) (x1 : (⟨S2x16x256x256, .f32⟩ : BufTy).Contents (Elt F)) (x2 : (⟨S2x16x256, .f32⟩ : BufTy).Contents (Elt F)) (x3 : (⟨S8x256, .f32⟩ : BufTy).Contents (Elt F)) (x7 : (⟨S512x20000, .f32⟩ : BufTy).Contents (Elt F)) (x8 : (⟨S20000, .f32⟩ : BufTy).Contents (Elt F)) (x9 x11 : (⟨S2048, .i32⟩ : BufTy).Contents (Elt F)) (x12 x13 x14 : (⟨S500000, .i32⟩ : BufTy).Contents (Elt F)) :
    val_main_v150 (F := F) x0 x1 x2 x3 x7 x8 x9 x11 x12 x13 x14
      = Cert.Spec.refDense (F := F) (val_main_v146 (F := F) x0 x1 x2 x3 x9 x11 x12 x13 x14) x7 x8 := by
  unfold val_main_v150 val_main_v149 val_main_v148 val_main_v147 Cert.Spec.refDense
  rfl

end Cert.ReferenceIdeal.Cut

end
-- ==== Proof.KRun.lean ====
/-
  The kernel program's run with its two results named.

  The program is nineteen segments: stretches of host operations and four Pallas regions. The contents of every
  buffer at each segment boundary are a fold through the program (a host stretch applies its operations; a region
  replaces its output array by what its write-backs leave and keeps every other buffer). Every weakly fair execution
  terminates in a state whose buffers hold the last boundary's contents; here that is read at the two result
  buffers as well as at the arguments.
-/
import proofs.«133052_j57896159150149_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with each result buffer at the last segment
    boundary's contents and the argument arrays as launched. -/
theorem run_vals : θ_run defs (onTc (τ := τ) (main (F := F))) ⟨m, fun _ => 0, ρ⟩ (fun r => ∀ c : Dev nD,
      r.2.mem ((c.tc : Thread nD τ).loc main_v111) = W19 m ρ c (Proc.devRef .tc main_v111)
      ∧ r.2.mem ((c.tc : Thread nD τ).loc main_v115) = W19 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v111 (by decide)),
       h c _ (mem_uc main_v115 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c)⟩)

end Cert.KernelIdeal.Run

end
-- ==== Proof.KHostA.lean ====
/-
  The host operations before the first region, read at the region's four input arrays.

  Before the first relation-transform region the kernel program builds the doubled edge list, the segment ids
  `rel · N + node`, both degree vectors (a scatter-add of ones, clipped below at one, raised to the power −1/2), the
  scattered messages of the first layer and the first layer's weights and biases. The reference builds the same
  values with the same operations, with one difference of order: the kernel raises the clipped out-degrees to the
  power −1/2 first and gathers by source segment afterwards, the reference gathers first. A gather only re-indexes, so
  the two orders give the same vector.
-/
import proofs.«133052_j57896159150149_1_alg».proof.Proof.Gen.KernelIdeal.Frame
import proofs.«133052_j57896159150149_1_alg».proof.Proof.Gen.ReferenceIdeal.Read
import Idealize.ShloMosaic.Lib.StableHlo.Run

set_option maxRecDepth 16384

noncomputable section

namespace Cert.KernelIdeal.HostA

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]

/-- Gathering the entries of a vector raised entrywise to a constant power is raising the gathered entries to that
    power: the gather reads each result entry from one operand entry. -/
theorem gather_powf (x : (⟨S320000, .f32⟩ : BufTy).Contents (Elt F)) (k : (⟨S_, .f32⟩ : BufTy).Contents (Elt F))
    (i : (⟨S1000000x1, .i32⟩ : BufTy).Contents (Elt F)) :
    Host.gather gather_S320000_S1000000x1_S1000000_n_0_n_n_0_1_1 (Host.powf x (broadcastInDim S320000 ![] bcast_S_S320000 k)) i
      = Host.powf (Host.gather gather_S320000_S1000000x1_S1000000_n_0_n_n_0_1_1 x i) (broadcastInDim S1000000 ![] bcast_S_S1000000 k) := by
  funext j
  show FloatOps.hostPowf _ (k _) = FloatOps.hostPowf _ (k _)
  refine congrArg (FloatOps.hostPowf _) (congrArg k (funext fun a => ?_))
  exact (Nat.not_lt_zero _ a.2).elim

variable (m : (ℓ : Loc nD τ sig) → Buf (Elt F) ℓ) (ρ : Dev nD → PrngReg) (c : Dev nD)

/-- The first layer's weights. -/
theorem entry_W : W5 m ρ c (Proc.devRef .tc main_v47) = val_main_v6 (F := F) (m ((c : Thread nD τ).loc main_arg1)) := by
  dsimp only [W5, W4, W3, W2, W1]
  after_results_simp
  rfl

/-- The first layer's biases. -/
theorem entry_b : W5 m ρ c (Proc.devRef .tc main_v49) = val_main_v8 (F := F) (m ((c : Thread nD τ).loc main_arg2)) := by
  dsimp only [W5, W4, W3, W2, W1]
  after_results_simp
  rfl

/-- The destination degree factors, one per relation and node. -/
theorem entry_dinv : W5 m ρ c (Proc.devRef .tc main_v45)
    = val_main_v49 (F := F) (m ((c : Thread nD τ).loc main_arg12)) (m ((c : Thread nD τ).loc main_arg13)) (m ((c : Thread nD τ).loc main_arg14)) := by
  dsimp only [W5, W4, W3, W2, W1]
  after_results_simp
  rfl

/-- The first layer's scattered messages. -/
theorem entry_agg : W5 m ρ c (Proc.devRef .tc main_v44)
    = val_main_v46 (F := F) (m ((c : Thread nD τ).loc main_arg0)) (m ((c : Thread nD τ).loc main_arg12)) (m ((c : Thread nD τ).loc main_arg13)) (m ((c : Thread nD τ).loc main_arg14)) := by
  dsimp only [W5, W4, W3, W2, W1]
  after_results_simp
  rw [gather_powf]
  rfl

end Cert.KernelIdeal.HostA

end
-- ==== Proof.KHostB.lean ====
/-
  The host operations between the two relation-transform regions, read at the second region's four input arrays.

  The second layer gathers the first layer's output rows by source node, scales them by the source degree factor,
  scatter-adds them by destination segment, and takes the second slices of the weights and biases. The first region
  changes only its output array, so every other buffer the stretch reads still holds what the first stretch left.
  The reference recomputes the segment ids and the degree vectors for its second layer with the same operations;
  the kernel program reuses the first layer's.
-/
import proofs.«133052_j57896159150149_1_alg».proof.Proof.Gen.KernelIdeal.Frame
import proofs.«133052_j57896159150149_1_alg».proof.Proof.Gen.ReferenceIdeal.Read
import proofs.«133052_j57896159150149_1_alg».proof.Proof.KHostA
import Idealize.ShloMosaic.Lib.StableHlo.Run

set_option maxRecDepth 16384

noncomputable section

namespace Cert.KernelIdeal.HostB

open Idealize.ShloMosaic Idealize.ShloMosaic.TcCoe Idealize.SL.Sem Idealize.ShloMosaic.StableHlo
open Cert.KernelIdeal Cert.KernelIdeal.Gen
open Cert.ReferenceIdeal.Read

open Cert.KernelIdeal.HostA

variable {F : FTy → Type} [FloatOps F]
variable (m : (ℓ : Loc nD τ sig) → Buf (Elt F) ℓ) (ρ : Dev nD → PrngReg) (c : Dev nD)

/-- The second layer's weights. -/
theorem entry_W : W7 m ρ c (Proc.devRef .tc main_v74) = val_main_v60 (F := F) (m ((c : Thread nD τ).loc main_arg1)) := by
  dsimp only [W7]
  after_results_simp
  rw [W6_of_ne m ρ c main_arg1 (by decide)]
  dsimp only [W5, W4, W3, W2, W1]
  after_results_simp
  rfl

/-- The second layer's biases. -/
theorem entry_b : W7 m ρ c (Proc.devRef .tc main_v76) = val_main_v62 (F := F) (m ((c : Thread nD τ).loc main_arg2)) := by
  dsimp only [W7]
  after_results_simp
  rw [W6_of_ne m ρ c main_arg2 (by decide)]
  dsimp only [W5, W4, W3, W2, W1]
  after_results_simp
  rfl

/-- The destination degree factors again. -/
theorem entry_dinv : W7 m ρ c (Proc.devRef .tc main_v72) = val_main_v103 (F := F) (m ((c : Thread nD τ).loc main_arg12)) (m ((c : Thread nD τ).loc main_arg13)) (m ((c : Thread nD τ).loc main_arg14)) := by
  dsimp only [W7]
  after_results_simp
  rw [W6_of_ne m ρ c main_v23 (by decide)]
  dsimp only [W5, W4, W3, W2, W1]
  after_results_simp
  rfl

/-- The second layer's scattered messages, given the first layer's output. -/
theorem entry_agg (h1 : W6 m ρ c (Proc.devRef .tc main_v50) = val_main_v58 (F := F) (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14))) :
    W7 m ρ c (Proc.devRef .tc main_v71) = val_main_v100 (F := F) (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14)) := by
  dsimp only [W7]
  after_results_simp
  rw [h1, W6_of_ne m ρ c main_v0 (by decide), W6_of_ne m ρ c main_v7 (by decide), W6_of_ne m ρ c main_v10 (by decide),
    W6_of_ne m ρ c main_v21 (by decide)]
  dsimp only [W5, W4, W3, W2, W1]
  after_results_simp
  rw [gather_powf]
  rfl

end Cert.KernelIdeal.HostB

end
-- ==== Proof.KHostC.lean ====
/-
  The host operations after the second relation-transform region: the gathers by subject, object and relation, the
  two concatenations, and the right-padding of the classifier weights and biases to a multiple of the column tile.

  No host operation and no region before this point writes an argument array, and the second region changes only its
  output, so the gathers read the second layer's output and the untouched arguments.
-/
import proofs.«133052_j57896159150149_1_alg».proof.Proof.Gen.KernelIdeal.Frame
import proofs.«133052_j57896159150149_1_alg».proof.Proof.Gen.ReferenceIdeal.Read
import Idealize.ShloMosaic.Lib.StableHlo.Run

set_option maxRecDepth 16384

noncomputable section

namespace Cert.KernelIdeal.HostC

open Idealize.ShloMosaic Idealize.ShloMosaic.TcCoe Idealize.SL.Sem Idealize.ShloMosaic.StableHlo
open Cert.KernelIdeal Cert.KernelIdeal.Gen
open Cert.ReferenceIdeal.Read

/-- Reads what is left of a fold of host operations at a buffer, one operation at a time (for operands that sit inside
    a concatenation's list, where the one-pass reading does not reach). -/
macro "results_rw" : tactic =>
  `(tactic| repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)))

variable {F : FTy → Type} [FloatOps F]
variable (m : (ℓ : Loc nD τ sig) → Buf (Elt F) ℓ) (ρ : Dev nD → PrngReg) (c : Dev nD)

/-- Argument 3 is untouched up to the second region's exit. -/
theorem keep8_arg3 : W8 m ρ c (Proc.devRef .tc main_arg3) = (m ((c : Thread nD τ).loc main_arg3)) := by
  rw [W8_of_ne m ρ c main_arg3 (by decide)]
  dsimp only [W7]
  after_results_simp
  rw [W6_of_ne m ρ c main_arg3 (by decide)]
  dsimp only [W5, W4, W3, W2, W1]
  after_results_simp

/-- Argument 4 is untouched up to the second region's exit. -/
theorem keep8_arg4 : W8 m ρ c (Proc.devRef .tc main_arg4) = (m ((c : Thread nD τ).loc main_arg4)) := by
  rw [W8_of_ne m ρ c main_arg4 (by decide)]
  dsimp only [W7]
  after_results_simp
  rw [W6_of_ne m ρ c main_arg4 (by decide)]
  dsimp only [W5, W4, W3, W2, W1]
  after_results_simp

/-- Argument 5 is untouched up to the second region's exit. -/
theorem keep8_arg5 : W8 m ρ c (Proc.devRef .tc main_arg5) = (m ((c : Thread nD τ).loc main_arg5)) := by
  rw [W8_of_ne m ρ c main_arg5 (by decide)]
  dsimp only [W7]
  after_results_simp
  rw [W6_of_ne m ρ c main_arg5 (by decide)]
  dsimp only [W5, W4, W3, W2, W1]
  after_results_simp

/-- Argument 6 is untouched up to the second region's exit. -/
theorem keep8_arg6 : W8 m ρ c (Proc.devRef .tc main_arg6) = (m ((c : Thread nD τ).loc main_arg6)) := by
  rw [W8_of_ne m ρ c main_arg6 (by decide)]
  dsimp only [W7]
  after_results_simp
  rw [W6_of_ne m ρ c main_arg6 (by decide)]
  dsimp only [W5, W4, W3, W2, W1]
  after_results_simp

/-- Argument 7 is untouched up to the second region's exit. -/
theorem keep8_arg7 : W8 m ρ c (Proc.devRef .tc main_arg7) = (m ((c : Thread nD τ).loc main_arg7)) := by
  rw [W8_of_ne m ρ c main_arg7 (by decide)]
  dsimp only [W7]
  after_results_simp
  rw [W6_of_ne m ρ c main_arg7 (by decide)]
  dsimp only [W5, W4, W3, W2, W1]
  after_results_simp

/-- Argument 8 is untouched up to the second region's exit. -/
theorem keep8_arg8 : W8 m ρ c (Proc.devRef .tc main_arg8) = (m ((c : Thread nD τ).loc main_arg8)) := by
  rw [W8_of_ne m ρ c main_arg8 (by decide)]
  dsimp only [W7]
  after_results_simp
  rw [W6_of_ne m ρ c main_arg8 (by decide)]
  dsimp only [W5, W4, W3, W2, W1]
  after_results_simp

/-- Argument 9 is untouched up to the second region's exit. -/
theorem keep8_arg9 : W8 m ρ c (Proc.devRef .tc main_arg9) = (m ((c : Thread nD τ).loc main_arg9)) := by
  rw [W8_of_ne m ρ c main_arg9 (by decide)]
  dsimp only [W7]
  after_results_simp
  rw [W6_of_ne m ρ c main_arg9 (by decide)]
  dsimp only [W5, W4, W3, W2, W1]
  after_results_simp

/-- Argument 10 is untouched up to the second region's exit. -/
theorem keep8_arg10 : W8 m ρ c (Proc.devRef .tc main_arg10) = (m ((c : Thread nD τ).loc main_arg10)) := by
  rw [W8_of_ne m ρ c main_arg10 (by decide)]
  dsimp only [W7]
  after_results_simp
  rw [W6_of_ne m ρ c main_arg10 (by decide)]
  dsimp only [W5, W4, W3, W2, W1]
  after_results_simp

/-- Argument 11 is untouched up to the second region's exit. -/
theorem keep8_arg11 : W8 m ρ c (Proc.devRef .tc main_arg11) = (m ((c : Thread nD τ).loc main_arg11)) := by
  rw [W8_of_ne m ρ c main_arg11 (by decide)]
  dsimp only [W7]
  after_results_simp
  rw [W6_of_ne m ρ c main_arg11 (by decide)]
  dsimp only [W5, W4, W3, W2, W1]
  after_results_simp

set_option maxHeartbeats 8000000 in
/-- The subject classifier's input rows: the object's embedding beside the object-side relation embedding. -/
theorem entry_xsub (h2 : W8 m ρ c (Proc.devRef .tc main_v77) = val_main_v112 (F := F) (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14))) :
    W12 m ρ c (Proc.devRef .tc main_v106) = val_main_v141 (F := F) (m ((c : Thread nD τ).loc main_arg0)) (m ((c : Thread nD τ).loc main_arg1)) (m ((c : Thread nD τ).loc main_arg2)) (m ((c : Thread nD τ).loc main_arg4)) (m ((c : Thread nD τ).loc main_arg10)) (m ((c : Thread nD τ).loc main_arg11)) (m ((c : Thread nD τ).loc main_arg12)) (m ((c : Thread nD τ).loc main_arg13)) (m ((c : Thread nD τ).loc main_arg14)) := by
  dsimp only [W12, W11, W10, W9]
  after_results_simp
  results_rw
  rw [h2, keep8_arg4, keep8_arg10, keep8_arg11]
  rfl

set_option maxHeartbeats 8000000 in
/-- The object classifier's input rows: the subject's embedding beside the subject-side relation embedding. -/
theorem entry_xobj (h2 : W8 m ρ c (Proc.devRef .tc main_v77) = val_main_v112 (F := F) (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14))) :
    W12 m ρ c (Proc.devRef .tc main_v107) = val_main_v146 (F := F) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg11)) (m ((c : Thread nD τ).loc main_arg12)) (m ((c : Thread nD τ).loc main_arg13)) (m ((c : Thread nD τ).loc main_arg14)) := by
  dsimp only [W12, W11, W10, W9]
  after_results_simp
  results_rw
  rw [h2, keep8_arg3, keep8_arg9, keep8_arg11]
  rfl

/-- The subject classifier's weights, padded on the right. -/
theorem entry_Wsub : W12 m ρ c (Proc.devRef .tc main_v108)
    = pad S512x20480 ![0, 0] ![0, 480] ![0, 0] (m ((c : Thread nD τ).loc main_arg5)) (sitofp .f32 (constantI S_ 32 0#32)) pads_S512x20000_S512x20480_000_04800 h_S_ := by
  dsimp only [W12, W11, W10, W9]
  after_results_simp
  rw [keep8_arg5]
  rfl

/-- The subject classifier's biases, padded on the right. -/
theorem entry_bsub : W12 m ρ c (Proc.devRef .tc main_v109)
    = pad S20480 ![0] ![480] ![0] (m ((c : Thread nD τ).loc main_arg6)) (sitofp .f32 (constantI S_ 32 0#32)) pads_S20000_S20480_04800 h_S_ := by
  dsimp only [W12, W11, W10, W9]
  after_results_simp
  rw [keep8_arg6]
  rfl

/-- Arguments 7 and 8 at the third region's entry. -/
theorem keep12_arg7 : W12 m ρ c (Proc.devRef .tc main_arg7) = (m ((c : Thread nD τ).loc main_arg7)) := by
  dsimp only [W12, W11, W10, W9]
  after_results_simp
  rw [keep8_arg7]
theorem keep12_arg8 : W12 m ρ c (Proc.devRef .tc main_arg8) = (m ((c : Thread nD τ).loc main_arg8)) := by
  dsimp only [W12, W11, W10, W9]
  after_results_simp
  rw [keep8_arg8]

end Cert.KernelIdeal.HostC

end
-- ==== Proof.KHostD.lean ====
/-
  The end of the kernel program: each classifier region's output is sliced back to the true number of columns.

  The subject prediction is sliced right after the third region and nothing later writes it; between the third and
  the fourth region only the object classifier's weights and biases are padded.
-/
import proofs.«133052_j57896159150149_1_alg».proof.Proof.Gen.KernelIdeal.Frame
import proofs.«133052_j57896159150149_1_alg».proof.Proof.Gen.ReferenceIdeal.Read
import proofs.«133052_j57896159150149_1_alg».proof.Proof.KHostC
import Idealize.ShloMosaic.Lib.StableHlo.Run

set_option maxRecDepth 16384

noncomputable section

namespace Cert.KernelIdeal.HostD

open Idealize.ShloMosaic Idealize.ShloMosaic.TcCoe Idealize.SL.Sem Idealize.ShloMosaic.StableHlo
open Cert.KernelIdeal Cert.KernelIdeal.Gen
open Cert.ReferenceIdeal.Read

open Cert.KernelIdeal.HostC

variable {F : FTy → Type} [FloatOps F]
variable (m : (ℓ : Loc nD τ sig) → Buf (Elt F) ℓ) (ρ : Dev nD → PrngReg) (c : Dev nD)

/-- The first result is the third region's output without its padded columns. -/
theorem out_sub : W19 m ρ c (Proc.devRef .tc main_v111)
    = extractStridedSlice S2048x20000 ![0, 0] (W13 m ρ c (Proc.devRef .tc main_v110)) slices_S2048x20480_S2048x20000_0_0 := by
  dsimp only [W19]
  after_results_simp
  rw [W18_of_ne m ρ c main_v111 (by decide)]
  dsimp only [W17, W16, W15, W14]
  after_results_simp

/-- The second result is the fourth region's output without its padded columns. -/
theorem out_obj : W19 m ρ c (Proc.devRef .tc main_v115)
    = extractStridedSlice S2048x20000 ![0, 0] (W18 m ρ c (Proc.devRef .tc main_v114)) slices_S2048x20480_S2048x20000_0_0 := by
  dsimp only [W19]
  after_results_simp

/-- The object classifier's input rows are still what the earlier stretch left. -/
theorem entry_xobj (h2 : W8 m ρ c (Proc.devRef .tc main_v77) = val_main_v112 (F := F) (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14))) :
    W17 m ρ c (Proc.devRef .tc main_v107) = val_main_v146 (F := F) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg11)) (m ((c : Thread nD τ).loc main_arg12)) (m ((c : Thread nD τ).loc main_arg13)) (m ((c : Thread nD τ).loc main_arg14)) := by
  dsimp only [W17, W16, W15, W14]
  after_results_simp
  rw [W13_of_ne m ρ c main_v107 (by decide)]
  exact HostC.entry_xobj m ρ c h2

/-- The object classifier's weights, padded on the right. -/
theorem entry_Wobj : W17 m ρ c (Proc.devRef .tc main_v112)
    = pad S512x20480 ![0, 0] ![0, 480] ![0, 0] (m ((c : Thread nD τ).loc main_arg7)) (sitofp .f32 (constantI S_ 32 0#32)) pads_S512x20000_S512x20480_000_04800 h_S_ := by
  dsimp only [W17, W16, W15, W14]
  after_results_simp
  rw [W13_of_ne m ρ c main_arg7 (by decide), keep12_arg7]
  rfl

/-- The object classifier's biases, padded on the right. -/
theorem entry_bobj : W17 m ρ c (Proc.devRef .tc main_v113)
    = pad S20480 ![0] ![480] ![0] (m ((c : Thread nD τ).loc main_arg8)) (sitofp .f32 (constantI S_ 32 0#32)) pads_S20000_S20480_04800 h_S_ := by
  dsimp only [W17, W16, W15, W14]
  after_results_simp
  rw [W13_of_ne m ρ c main_arg8 (by decide), keep12_arg8]
  rfl

end Cert.KernelIdeal.HostD

end
-- ==== Proof.KValue.lean ====
/-
  The kernel program's two results as the reference's functions of the arguments.

  Going through the program in order: the first region's input arrays are what the reference feeds its first layer's
  dense tail, so the region's output is the first layer's output; then the same for the second layer; the third and
  fourth regions compute the classifier over the padded columns, and slicing the padding away leaves the
  reference's predictions.
-/
import proofs.«133052_j57896159150149_1_alg».proof.Proof.Gen.KernelIdeal.Frame
import proofs.«133052_j57896159150149_1_alg».proof.Proof.Gen.ReferenceIdeal.Read
import proofs.«133052_j57896159150149_1_alg».proof.Proof.Spec
import proofs.«133052_j57896159150149_1_alg».proof.Proof.RefSide
import proofs.«133052_j57896159150149_1_alg».proof.Proof.KRun
import proofs.«133052_j57896159150149_1_alg».proof.Proof.KHostA
import proofs.«133052_j57896159150149_1_alg».proof.Proof.KHostB
import proofs.«133052_j57896159150149_1_alg».proof.Proof.KHostC
import proofs.«133052_j57896159150149_1_alg».proof.Proof.KHostD
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen
open Cert.ReferenceIdeal.Read

open Cert.ReferenceIdeal.Cut

variable (m : (ℓ : Loc nD τ sig) → Buf (Elt Ideal) ℓ) (ρ : Dev nD → PrngReg) (c : Dev nD)

set_option maxHeartbeats 4000000 in
/-- After the first region its output array holds the first layer's output. -/
theorem layer1_out (hrel0 : ∀ (V : (c : Dev nD) → (b : Ref sig .tc) → Buf (Elt Ideal) ((c : Thread nD τ).loc b)) (c : Dev nD), (dat0 (F := Ideal) V c).arrAt 4 cfg0.N
      = Cert.Spec.refLayer (F := Ideal) (V c (Pipeline.arrRef spec0 0)) (V c (Pipeline.arrRef spec0 1)) (V c (Pipeline.arrRef spec0 2)) (V c (Pipeline.arrRef spec0 3))) :
    W6 m ρ c (Proc.devRef .tc main_v50) = val_main_v58 (F := Ideal) (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14)) := by
  refine (W6_arr m ρ c 4).trans ?_
  have h0 : V5 m ρ c (Pipeline.arrRef spec0 0) = val_main_v46 (F := Ideal) (m ((c : Thread nD τ).loc main_arg0)) (m ((c : Thread nD τ).loc main_arg12)) (m ((c : Thread nD τ).loc main_arg13)) (m ((c : Thread nD τ).loc main_arg14)) := HostA.entry_agg m ρ c
  have h1 : V5 m ρ c (Pipeline.arrRef spec0 1) = val_main_v49 (F := Ideal) (m ((c : Thread nD τ).loc main_arg12)) (m ((c : Thread nD τ).loc main_arg13)) (m ((c : Thread nD τ).loc main_arg14)) := HostA.entry_dinv m ρ c
  have h2 : V5 m ρ c (Pipeline.arrRef spec0 2) = val_main_v6 (F := Ideal) (m ((c : Thread nD τ).loc main_arg1)) := HostA.entry_W m ρ c
  have h3 : V5 m ρ c (Pipeline.arrRef spec0 3) = val_main_v8 (F := Ideal) (m ((c : Thread nD τ).loc main_arg2)) := HostA.entry_b m ρ c
  rw [hrel0 (V5 m ρ) c, h0, h1, h2, h3, layer1]

set_option maxHeartbeats 4000000 in
/-- After the second region its output array holds the second layer's output. -/
theorem layer2_out (hrel0 : ∀ (V : (c : Dev nD) → (b : Ref sig .tc) → Buf (Elt Ideal) ((c : Thread nD τ).loc b)) (c : Dev nD), (dat0 (F := Ideal) V c).arrAt 4 cfg0.N
      = Cert.Spec.refLayer (F := Ideal) (V c (Pipeline.arrRef spec0 0)) (V c (Pipeline.arrRef spec0 1)) (V c (Pipeline.arrRef spec0 2)) (V c (Pipeline.arrRef spec0 3)))
    (hrel1 : ∀ (V : (c : Dev nD) → (b : Ref sig .tc) → Buf (Elt Ideal) ((c : Thread nD τ).loc b)) (c : Dev nD), (dat1 (F := Ideal) V c).arrAt 4 cfg1.N
      = Cert.Spec.refLayer (F := Ideal) (V c (Pipeline.arrRef spec1 0)) (V c (Pipeline.arrRef spec1 1)) (V c (Pipeline.arrRef spec1 2)) (V c (Pipeline.arrRef spec1 3))) :
    W8 m ρ c (Proc.devRef .tc main_v77) = val_main_v112 (F := Ideal) (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14)) := by
  refine (W8_arr m ρ c 4).trans ?_
  have h0 : V7 m ρ c (Pipeline.arrRef spec1 0) = val_main_v100 (F := Ideal) (m ((c : Thread nD τ).loc main_arg0)) (m ((c : Thread nD τ).loc main_arg1)) (m ((c : Thread nD τ).loc main_arg2)) (m ((c : Thread nD τ).loc main_arg12)) (m ((c : Thread nD τ).loc main_arg13)) (m ((c : Thread nD τ).loc main_arg14)) :=
    HostB.entry_agg m ρ c (layer1_out m ρ c hrel0)
  have h1 : V7 m ρ c (Pipeline.arrRef spec1 1) = val_main_v103 (F := Ideal) (m ((c : Thread nD τ).loc main_arg12)) (m ((c : Thread nD τ).loc main_arg13)) (m ((c : Thread nD τ).loc main_arg14)) := HostB.entry_dinv m ρ c
  have h2 : V7 m ρ c (Pipeline.arrRef spec1 2) = val_main_v60 (F := Ideal) (m ((c : Thread nD τ).loc main_arg1)) := HostB.entry_W m ρ c
  have h3 : V7 m ρ c (Pipeline.arrRef spec1 3) = val_main_v62 (F := Ideal) (m ((c : Thread nD τ).loc main_arg2)) := HostB.entry_b m ρ c
  rw [hrel1 (V7 m ρ) c, h0, h1, h2, h3, layer2]

variable (dOut : Vec Ideal S2048x512 .f32 → Vec Ideal S512x20480 .f32 → Vec Ideal S20480 .f32 → S2048x20480.Idx → EReal)

set_option maxHeartbeats 4000000 in
/-- The first result is the reference's subject prediction. -/
theorem result0 (hrel0 : ∀ (V : (c : Dev nD) → (b : Ref sig .tc) → Buf (Elt Ideal) ((c : Thread nD τ).loc b)) (c : Dev nD), (dat0 (F := Ideal) V c).arrAt 4 cfg0.N
      = Cert.Spec.refLayer (F := Ideal) (V c (Pipeline.arrRef spec0 0)) (V c (Pipeline.arrRef spec0 1)) (V c (Pipeline.arrRef spec0 2)) (V c (Pipeline.arrRef spec0 3)))
    (hrel1 : ∀ (V : (c : Dev nD) → (b : Ref sig .tc) → Buf (Elt Ideal) ((c : Thread nD τ).loc b)) (c : Dev nD), (dat1 (F := Ideal) V c).arrAt 4 cfg1.N
      = Cert.Spec.refLayer (F := Ideal) (V c (Pipeline.arrRef spec1 0)) (V c (Pipeline.arrRef spec1 1)) (V c (Pipeline.arrRef spec1 2)) (V c (Pipeline.arrRef spec1 3)))
    (hden2 : ∀ (V : (c : Dev nD) → (b : Ref sig .tc) → Buf (Elt Ideal) ((c : Thread nD τ).loc b)) (c : Dev nD), (dat2 (F := Ideal) V c).arrAt 3 cfg2.N
      = dOut (V c (Pipeline.arrRef spec2 0)) (V c (Pipeline.arrRef spec2 1)) (V c (Pipeline.arrRef spec2 2)))
    (hslice : ∀ (x : Vec Ideal S2048x512 .f32) (W : Vec Ideal S512x20000 .f32) (b : Vec Ideal S20000 .f32) (v v' : Vec Ideal S_ .f32),
      extractStridedSlice S2048x20000 ![0, 0] (dOut x (pad S512x20480 ![0, 0] ![0, 480] ![0, 0] W v pads_S512x20000_S512x20480_000_04800 h_S_)
        (pad S20480 ![0] ![480] ![0] b v' pads_S20000_S20480_04800 h_S_)) slices_S2048x20480_S2048x20000_0_0 = Cert.Spec.refDense (F := Ideal) x W b) :
    W19 m ρ c (Proc.devRef .tc main_v111) = val_main_v145 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) := by
  have h0 : V12 m ρ c (Pipeline.arrRef spec2 0) = val_main_v141 (F := Ideal) (m ((c : Thread nD τ).loc main_arg0)) (m ((c : Thread nD τ).loc main_arg1)) (m ((c : Thread nD τ).loc main_arg2)) (m ((c : Thread nD τ).loc main_arg4)) (m ((c : Thread nD τ).loc main_arg10)) (m ((c : Thread nD τ).loc main_arg11)) (m ((c : Thread nD τ).loc main_arg12)) (m ((c : Thread nD τ).loc main_arg13)) (m ((c : Thread nD τ).loc main_arg14)) :=
    HostC.entry_xsub m ρ c (layer2_out m ρ c hrel0 hrel1)
  have h1 : V12 m ρ c (Pipeline.arrRef spec2 1) = _ := HostC.entry_Wsub m ρ c
  have h2 : V12 m ρ c (Pipeline.arrRef spec2 2) = _ := HostC.entry_bsub m ρ c
  rw [HostD.out_sub, show W13 m ρ c (Proc.devRef .tc main_v110) = _ from W13_arr m ρ c 3, hden2 (V12 m ρ) c, h0, h1, h2, hslice, predict0]

set_option maxHeartbeats 4000000 in
/-- The second result is the reference's object prediction. -/
theorem result1 (hrel0 : ∀ (V : (c : Dev nD) → (b : Ref sig .tc) → Buf (Elt Ideal) ((c : Thread nD τ).loc b)) (c : Dev nD), (dat0 (F := Ideal) V c).arrAt 4 cfg0.N
      = Cert.Spec.refLayer (F := Ideal) (V c (Pipeline.arrRef spec0 0)) (V c (Pipeline.arrRef spec0 1)) (V c (Pipeline.arrRef spec0 2)) (V c (Pipeline.arrRef spec0 3)))
    (hrel1 : ∀ (V : (c : Dev nD) → (b : Ref sig .tc) → Buf (Elt Ideal) ((c : Thread nD τ).loc b)) (c : Dev nD), (dat1 (F := Ideal) V c).arrAt 4 cfg1.N
      = Cert.Spec.refLayer (F := Ideal) (V c (Pipeline.arrRef spec1 0)) (V c (Pipeline.arrRef spec1 1)) (V c (Pipeline.arrRef spec1 2)) (V c (Pipeline.arrRef spec1 3)))
    (hden3 : ∀ (V : (c : Dev nD) → (b : Ref sig .tc) → Buf (Elt Ideal) ((c : Thread nD τ).loc b)) (c : Dev nD), (dat3 (F := Ideal) V c).arrAt 3 cfg3.N
      = dOut (V c (Pipeline.arrRef spec3 0)) (V c (Pipeline.arrRef spec3 1)) (V c (Pipeline.arrRef spec3 2)))
    (hslice : ∀ (x : Vec Ideal S2048x512 .f32) (W : Vec Ideal S512x20000 .f32) (b : Vec Ideal S20000 .f32) (v v' : Vec Ideal S_ .f32),
      extractStridedSlice S2048x20000 ![0, 0] (dOut x (pad S512x20480 ![0, 0] ![0, 480] ![0, 0] W v pads_S512x20000_S512x20480_000_04800 h_S_)
        (pad S20480 ![0] ![480] ![0] b v' pads_S20000_S20480_04800 h_S_)) slices_S2048x20480_S2048x20000_0_0 = Cert.Spec.refDense (F := Ideal) x W b) :
    W19 m ρ c (Proc.devRef .tc main_v115) = val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) := by
  have h0 : V17 m ρ c (Pipeline.arrRef spec3 0) = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg11)) (m ((c : Thread nD τ).loc main_arg12)) (m ((c : Thread nD τ).loc main_arg13)) (m ((c : Thread nD τ).loc main_arg14)) :=
    HostD.entry_xobj m ρ c (layer2_out m ρ c hrel0 hrel1)
  have h1 : V17 m ρ c (Pipeline.arrRef spec3 1) = _ := HostD.entry_Wobj m ρ c
  have h2 : V17 m ρ c (Pipeline.arrRef spec3 2) = _ := HostD.entry_bobj m ρ c
  rw [HostD.out_obj, show W18 m ρ c (Proc.devRef .tc main_v114) = _ from W18_arr m ρ c 3, hden3 (V17 m ρ) c, h0, h1, h2, hslice, predict1]

set_option maxHeartbeats 4000000 in
/-- The kernel program's run: both results at the reference's functions of the arguments, the arguments unchanged. -/
theorem run (hrel0 : ∀ (V : (c : Dev nD) → (b : Ref sig .tc) → Buf (Elt Ideal) ((c : Thread nD τ).loc b)) (c : Dev nD), (dat0 (F := Ideal) V c).arrAt 4 cfg0.N
      = Cert.Spec.refLayer (F := Ideal) (V c (Pipeline.arrRef spec0 0)) (V c (Pipeline.arrRef spec0 1)) (V c (Pipeline.arrRef spec0 2)) (V c (Pipeline.arrRef spec0 3)))
    (hrel1 : ∀ (V : (c : Dev nD) → (b : Ref sig .tc) → Buf (Elt Ideal) ((c : Thread nD τ).loc b)) (c : Dev nD), (dat1 (F := Ideal) V c).arrAt 4 cfg1.N
      = Cert.Spec.refLayer (F := Ideal) (V c (Pipeline.arrRef spec1 0)) (V c (Pipeline.arrRef spec1 1)) (V c (Pipeline.arrRef spec1 2)) (V c (Pipeline.arrRef spec1 3)))
    (hden2 : ∀ (V : (c : Dev nD) → (b : Ref sig .tc) → Buf (Elt Ideal) ((c : Thread nD τ).loc b)) (c : Dev nD), (dat2 (F := Ideal) V c).arrAt 3 cfg2.N
      = dOut (V c (Pipeline.arrRef spec2 0)) (V c (Pipeline.arrRef spec2 1)) (V c (Pipeline.arrRef spec2 2)))
    (hden3 : ∀ (V : (c : Dev nD) → (b : Ref sig .tc) → Buf (Elt Ideal) ((c : Thread nD τ).loc b)) (c : Dev nD), (dat3 (F := Ideal) V c).arrAt 3 cfg3.N
      = dOut (V c (Pipeline.arrRef spec3 0)) (V c (Pipeline.arrRef spec3 1)) (V c (Pipeline.arrRef spec3 2)))
    (hslice : ∀ (x : Vec Ideal S2048x512 .f32) (W : Vec Ideal S512x20000 .f32) (b : Vec Ideal S20000 .f32) (v v' : Vec Ideal S_ .f32),
      extractStridedSlice S2048x20000 ![0, 0] (dOut x (pad S512x20480 ![0, 0] ![0, 480] ![0, 0] W v pads_S512x20000_S512x20480_000_04800 h_S_)
        (pad S20480 ![0] ![480] ![0] b v' pads_S20000_S20480_04800 h_S_)) slices_S2048x20480_S2048x20000_0_0 = Cert.Spec.refDense (F := Ideal) x W b) :
    θ_run defs (onTc (τ := τ) (main (F := Ideal))) ⟨m, fun _ => 0, ρ⟩ (fun r => ∀ c : Dev nD,
      r.2.mem ((c.tc : Thread nD τ).loc main_v111) = val_main_v145 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_v115) = val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result0 m ρ c dOut hrel0 hrel1 hden2 hslice),
      (h c).2.1.trans (result1 m ρ c dOut hrel0 hrel1 hden3 hslice), (h c).2.2⟩) (Cert.KernelIdeal.Run.run_vals m ρ)

end Cert.KernelIdeal.Whole

end
-- ==== Proof.RelLayout.lean ====
/-
  Layout facts shared by the two relation-transform regions: a column broadcast along the features, the
  `[1000, 256] × [256, 256]` matrix product read at an entry, and where a loaded slab of a `[16, …]` buffer sits in it.
-/
import proofs.«133052_j57896159150149_1_alg».proof.Proof.Gen.KernelIdeal
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.RelValue

open Cert.KernelIdeal Idealize.ShloMosaic Idealize.ShloMosaic.ValueIdx
open scoped BigOperators

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's index arithmetic: the left operand is read at the output's row … -/
theorem lhs_block_0 (i : S1000x256.Idx) (q : dot_S1000x256_S256x256_S1000x256_1_0_0_1_n_n.contr.Idx) : (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide),
    dif_pos (show (0 : Fin S1000x256.rank) ∈ dot_S1000x256_S256x256_S1000x256_1_0_0_1_n_n.lhsNonContracting by decide)]
  rfl
/-- … and the summed coordinate; -/
theorem lhs_block_1 (i : S1000x256.Idx) (q : dot_S1000x256_S256x256_S1000x256_1_0_0_1_n_n.contr.Idx) : (dot_S1000x256_S256x256_S1000x256_1_0_0_1_n_n.lhsIdx i q 1).val = (q ⟨0, by decide⟩).val :=
  dot_S1000x256_S256x256_S1000x256_1_0_0_1_n_n.lhsIdx_val_of_single rfl i q
/-- the right operand at the summed coordinate … -/
theorem rhs_block_0 (i : S1000x256.Idx) (q : dot_S1000x256_S256x256_S1000x256_1_0_0_1_n_n.contr.Idx) : (dot_S1000x256_S256x256_S1000x256_1_0_0_1_n_n.rhsIdx i q 0).val = (q ⟨0, by decide⟩).val :=
  dot_S1000x256_S256x256_S1000x256_1_0_0_1_n_n.rhsIdx_val_of_single rfl i q
/-- … and the output's column. -/
theorem rhs_block_1 (i : S1000x256.Idx) (q : dot_S1000x256_S256x256_S1000x256_1_0_0_1_n_n.contr.Idx) : (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide),
    dif_pos (show (1 : Fin S256x256.rank) ∈ dot_S1000x256_S256x256_S1000x256_1_0_0_1_n_n.rhsNonContracting by decide)]
  rfl

/-- The matrix product of a `[1000, 256]` block with a `[256, 256]` matrix into a zero accumulator, read at
    `(p, e)`: the sum over the shared coordinate of the products. -/
theorem matmul_block_apply (x : FVec Ideal S1000x256 .bf16) (y : FVec Ideal S256x256 .bf16) (p : Fin 1000) (e : Fin 256) :
    matmul dot_S1000x256_S256x256_S1000x256_1_0_0_1_n_n none x y (constant S1000x256 .f32 0x00000000#32) (ix2 p e)
      = ∑ k : Fin 256, x (ix2 p k) * y (ix2 k e) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p e) ((contrEquiv1 dot_S1000x256_S256x256_S1000x256_1_0_0_1_n_n 256 rfl rfl).symm k) = ix2 p k :=
    funext fun a => Fin.ext (by
      match a with
      | ⟨0, _⟩ => exact lhs_block_0 _ _
      | ⟨1, _⟩ => exact (lhs_block_1 _ _).trans hk)
  have er : dot_S1000x256_S256x256_S1000x256_1_0_0_1_n_n.rhsIdx (ix2 p e) ((contrEquiv1 dot_S1000x256_S256x256_S1000x256_1_0_0_1_n_n 256 rfl rfl).symm k) = ix2 k e :=
    funext fun a => Fin.ext (by
      match a with
      | ⟨0, _⟩ => exact (rhs_block_0 _ _).trans hk
      | ⟨1, _⟩ => exact rhs_block_1 _ _)
  rw [el, er]

/-- The zero offsets of the one whole-block store, as a constant function. -/
theorem hz2 : (![0, 0] : Fin 2 → Nat) = fun _ => 0 := funext fun a => by fin_cases a <;> rfl

/-- Where slab `o` of a `[16, N, M]` buffer, loaded whole, sits in the buffer. -/
theorem slab_idx {N M : ℕ} (o : ℕ) (inb : ∀ a, (![o, 0, 0] : Fin 3 → ℕ) a + (![1, N, M] : Fin 3 → ℕ) a ≤ (⟨3, ![16, N, M]⟩ : Shape).size a)
    (p : Fin N) (k : Fin M) :
    (Rect.unit (s := ⟨3, ![16, N, M]⟩) ![o, 0, 0] ![1, N, M] inb).idx (ix3 (0 : Fin 1) p k)
      = ix3 (⟨o, by have := inb 0; simp at this; omega⟩ : Fin 16) p k := by
  funext a
  apply Fin.ext
  match a with
  | ⟨0, _⟩ => show o + 1 * 0 = o; omega
  | ⟨1, _⟩ => show 0 + 1 * p.val = p.val; omega
  | ⟨2, _⟩ => show 0 + 1 * k.val = k.val; omega

/-- Where row `o` of the `[16, 256]` bias buffer sits in the buffer. -/
theorem row_idx {M : ℕ} (o : ℕ) (inb : ∀ a, (![o, 0] : Fin 2 → ℕ) a + (![1, M] : Fin 2 → ℕ) a ≤ (⟨2, ![16, M]⟩ : Shape).size a)
    (k : Fin M) :
    (Rect.unit (s := ⟨2, ![16, M]⟩) ![o, 0] ![1, M] inb).idx (ix2 (0 : Fin 1) k)
      = ix2 (⟨o, by have := inb 0; simp at this; omega⟩ : Fin 16) k := by
  funext a
  apply Fin.ext
  match a with
  | ⟨0, _⟩ => show o + 1 * 0 = o; omega
  | ⟨1, _⟩ => show 0 + 1 * k.val = k.val; omega

end Cert.KernelIdeal.RelValue

end
-- ==== Proof.RelSpec.lean ====
/-
  One graph-convolution layer's dense tail, entry by entry.

  For node `n` and output feature `e` the layer's value is the mean over the sixteen relations `r` of
  `∑ d, (agg[r,n,d] · dinv[r,n,0]) · W[r,d,e] + b[r,e]`, the mean written as the product with one sixteenth.
  `relTerm` is one relation's summand and `meanEntry` the mean; both are stated for any number of nodes, so that the
  same words describe a block of nodes and the whole array. This module proves that the reference's composite of
  operations (`Cert.Spec.refLayer`) is that function (`refLayer_eq`), and the regrouping law that turns an accumulator
  updated relation by relation into the sum over the relations (`accumulate_eq_sum`).
-/
import proofs.«133052_j57896159150149_1_alg».proof.Proof.Spec
import Idealize.ShloMosaic.Lib.ValueIdx
import Idealize.ShloMosaic.Lib.Pipeline.Value
import Idealize.ShloMosaic.PureOps.Ideal.Laws

noncomputable section

namespace Cert.RelSpec

open Idealize.ShloMosaic Idealize.ShloMosaic.ValueIdx Cert.ReferenceIdeal Cert.ReferenceIdeal.Gen
open scoped BigOperators

/-! ## The two constants -/

/-- The word `0x3D800000` denotes one sixteenth. -/
theorem ofBits_sixteenth : Ideal.ofBits .f32 0x3D800000#32 = (((1 / 16 : ℝ)) : EReal) := by
  simp [Ideal.ofBits, Ideal.ieee, -EReal.coe_mul]; norm_num

/-- The word `0x41800000` denotes sixteen. -/
theorem ofBits_sixteen : Ideal.ofBits .f32 0x41800000#32 = ((16 : ℝ) : EReal) := by
  simp [Ideal.ofBits, Ideal.ieee, -EReal.coe_mul]; norm_num

/-- Dividing by the one word is multiplying by the other. -/
theorem div_sixteen (x : EReal) :
    Ideal.div x (Ideal.ofBits .f32 0x41800000#32) = x * Ideal.ofBits .f32 0x3D800000#32 := by
  rw [ofBits_sixteen, ofBits_sixteenth, Ideal.div_coe (by norm_num)]

/-! ## The layer, entry by entry -/

/-- Relation `r`'s summand at node `n` and feature `e`: the scaled messages times the relation's matrix, plus its bias. -/
def relTerm {N : ℕ} (agg : (⟨3, ![16, N, 256]⟩ : Shape).Idx → EReal) (dinv : (⟨3, ![16, N, 1]⟩ : Shape).Idx → EReal)
    (W : (⟨3, ![16, 256, 256]⟩ : Shape).Idx → EReal) (b : (⟨2, ![16, 256]⟩ : Shape).Idx → EReal)
    (r : Fin 16) (n : Fin N) (e : Fin 256) : EReal :=
  (∑ d : Fin 256, (agg (ix3 r n d) * dinv (ix3 r n (0 : Fin 1))) * W (ix3 r d e)) + b (ix2 r e)

/-- The mean over the sixteen relations at node `n` and feature `e`. -/
def meanEntry {N : ℕ} (agg : (⟨3, ![16, N, 256]⟩ : Shape).Idx → EReal) (dinv : (⟨3, ![16, N, 1]⟩ : Shape).Idx → EReal)
    (W : (⟨3, ![16, 256, 256]⟩ : Shape).Idx → EReal) (b : (⟨2, ![16, 256]⟩ : Shape).Idx → EReal)
    (n : Fin N) (e : Fin 256) : EReal :=
  (∑ r : Fin 16, relTerm agg dinv W b r n e) * Ideal.ofBits .f32 0x3D800000#32

/-- The whole layer: an array of `N` nodes by 256 features. -/
def layerAt {N : ℕ} (agg : (⟨3, ![16, N, 256]⟩ : Shape).Idx → EReal) (dinv : (⟨3, ![16, N, 1]⟩ : Shape).Idx → EReal)
    (W : (⟨3, ![16, 256, 256]⟩ : Shape).Idx → EReal) (b : (⟨2, ![16, 256]⟩ : Shape).Idx → EReal) :
    (⟨2, ![N, 256]⟩ : Shape).Idx → EReal :=
  fun j => meanEntry agg dinv W b (j 0) (j 1)

theorem layerAt_apply {N : ℕ} (agg : (⟨3, ![16, N, 256]⟩ : Shape).Idx → EReal) (dinv : (⟨3, ![16, N, 1]⟩ : Shape).Idx → EReal)
    (W : (⟨3, ![16, 256, 256]⟩ : Shape).Idx → EReal) (b : (⟨2, ![16, 256]⟩ : Shape).Idx → EReal) (n : Fin N) (e : Fin 256) :
    layerAt agg dinv W b (ix2 n e) = meanEntry agg dinv W b n e := rfl

/-- The mean at a node reads only that node's rows of the messages and of the degree factors, and column `e` of the
    weights and of the biases: arrays that agree there give the same mean. -/
theorem meanEntry_congr {N N' : ℕ} (agg : (⟨3, ![16, N, 256]⟩ : Shape).Idx → EReal) (dinv : (⟨3, ![16, N, 1]⟩ : Shape).Idx → EReal)
    (W : (⟨3, ![16, 256, 256]⟩ : Shape).Idx → EReal) (b : (⟨2, ![16, 256]⟩ : Shape).Idx → EReal)
    (agg' : (⟨3, ![16, N', 256]⟩ : Shape).Idx → EReal) (dinv' : (⟨3, ![16, N', 1]⟩ : Shape).Idx → EReal)
    (W' : (⟨3, ![16, 256, 256]⟩ : Shape).Idx → EReal) (b' : (⟨2, ![16, 256]⟩ : Shape).Idx → EReal)
    (n : Fin N) (n' : Fin N') (e : Fin 256)
    (h0 : ∀ (r : Fin 16) (d : Fin 256), agg (ix3 r n d) = agg' (ix3 r n' d))
    (h1 : ∀ r : Fin 16, dinv (ix3 r n (0 : Fin 1)) = dinv' (ix3 r n' (0 : Fin 1)))
    (h2 : ∀ (r : Fin 16) (d : Fin 256), W (ix3 r d e) = W' (ix3 r d e))
    (h3 : ∀ r : Fin 16, b (ix2 r e) = b' (ix2 r e)) :
    meanEntry agg dinv W b n e = meanEntry agg' dinv' W' b' n' e := by
  unfold meanEntry relTerm
  simp only [h0, h1, h2, h3]

/-! ## An accumulator updated relation by relation is the sum over the relations -/

/-- A sum over sixteen indices, written out. -/
theorem sum_fin16 {M : Type*} [AddCommMonoid M] (f : Fin 16 → M) :
    ∑ r, f r = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- Starting from zero and adding, for each relation in turn, its product and then its bias, leaves the sum over the
    relations of product plus bias: only the order and the bracketing of the additions differ. -/
theorem accumulate_eq_sum {M : Type*} [AddCommMonoid M] (m b : Fin 16 → M) :
    0 + m 0 + b 0 + m 1 + b 1 + m 2 + b 2 + m 3 + b 3 + m 4 + b 4 + m 5 + b 5 + m 6 + b 6 + m 7 + b 7 + m 8 + b 8
        + m 9 + b 9 + m 10 + b 10 + m 11 + b 11 + m 12 + b 12 + m 13 + b 13 + m 14 + b 14 + m 15 + b 15
      = ∑ r, (m r + b r) := by
  rw [sum_fin16, zero_add]
  generalize m 0 = m0; generalize m 1 = m1; generalize m 2 = m2; generalize m 3 = m3
  generalize m 4 = m4; generalize m 5 = m5; generalize m 6 = m6; generalize m 7 = m7
  generalize m 8 = m8; generalize m 9 = m9; generalize m 10 = m10; generalize m 11 = m11
  generalize m 12 = m12; generalize m 13 = m13; generalize m 14 = m14; generalize m 15 = m15
  generalize b 0 = b0; generalize b 1 = b1; generalize b 2 = b2; generalize b 3 = b3
  generalize b 4 = b4; generalize b 5 = b5; generalize b 6 = b6; generalize b 7 = b7
  generalize b 8 = b8; generalize b 9 = b9; generalize b 10 = b10; generalize b 11 = b11
  generalize b 12 = b12; generalize b 13 = b13; generalize b 14 = b14; generalize b 15 = b15
  ac_rfl

/-! ## The reference's operations read at an index -/

theorem lhs_ref_0 (i : S16x20000x256.Idx) (q : dot_S16x20000x256_S16x256x256_S16x20000x256_2_1_1_2_0_0.contr.Idx) : (dot_S16x20000x256_S16x256x256_S16x20000x256_2_1_1_2_0_0.lhsIdx i q 0).val = (i 0).val := by
  unfold DotDims.lhsIdx
  rw [dif_pos (show (0 : Fin S16x20000x256.rank) ∈ dot_S16x20000x256_S16x256x256_S16x20000x256_2_1_1_2_0_0.lhsBatch by decide)]
  rfl
theorem lhs_ref_1 (i : S16x20000x256.Idx) (q : dot_S16x20000x256_S16x256x256_S16x20000x256_2_1_1_2_0_0.contr.Idx) : (dot_S16x20000x256_S16x256x256_S16x20000x256_2_1_1_2_0_0.lhsIdx i q 1).val = (i 1).val := by
  unfold DotDims.lhsIdx
  rw [dif_neg (show ¬(1 : Fin S16x20000x256.rank) ∈ dot_S16x20000x256_S16x256x256_S16x20000x256_2_1_1_2_0_0.lhsBatch by decide),
    dif_pos (show (1 : Fin S16x20000x256.rank) ∈ dot_S16x20000x256_S16x256x256_S16x20000x256_2_1_1_2_0_0.lhsNonContracting by decide)]
  rfl
theorem lhs_ref_2 (i : S16x20000x256.Idx) (q : dot_S16x20000x256_S16x256x256_S16x20000x256_2_1_1_2_0_0.contr.Idx) : (dot_S16x20000x256_S16x256x256_S16x20000x256_2_1_1_2_0_0.lhsIdx i q 2).val = (q ⟨0, by decide⟩).val :=
  dot_S16x20000x256_S16x256x256_S16x20000x256_2_1_1_2_0_0.lhsIdx_val_of_single rfl i q
theorem rhs_ref_0 (i : S16x20000x256.Idx) (q : dot_S16x20000x256_S16x256x256_S16x20000x256_2_1_1_2_0_0.contr.Idx) : (dot_S16x20000x256_S16x256x256_S16x20000x256_2_1_1_2_0_0.rhsIdx i q 0).val = (i 0).val := by
  unfold DotDims.rhsIdx
  rw [dif_pos (show (0 : Fin S16x256x256.rank) ∈ dot_S16x20000x256_S16x256x256_S16x20000x256_2_1_1_2_0_0.rhsBatch by decide)]
  rfl
theorem rhs_ref_1 (i : S16x20000x256.Idx) (q : dot_S16x20000x256_S16x256x256_S16x20000x256_2_1_1_2_0_0.contr.Idx) : (dot_S16x20000x256_S16x256x256_S16x20000x256_2_1_1_2_0_0.rhsIdx i q 1).val = (q ⟨0, by decide⟩).val :=
  dot_S16x20000x256_S16x256x256_S16x20000x256_2_1_1_2_0_0.rhsIdx_val_of_single rfl i q
theorem rhs_ref_2 (i : S16x20000x256.Idx) (q : dot_S16x20000x256_S16x256x256_S16x20000x256_2_1_1_2_0_0.contr.Idx) : (dot_S16x20000x256_S16x256x256_S16x20000x256_2_1_1_2_0_0.rhsIdx i q 2).val = (i 2).val := by
  unfold DotDims.rhsIdx
  rw [dif_neg (show ¬(2 : Fin S16x256x256.rank) ∈ dot_S16x20000x256_S16x256x256_S16x20000x256_2_1_1_2_0_0.rhsBatch by decide),
    dif_pos (show (2 : Fin S16x256x256.rank) ∈ dot_S16x20000x256_S16x256x256_S16x20000x256_2_1_1_2_0_0.rhsNonContracting by decide)]
  rfl

/-- The batched matrix product read at `(r, n, e)`: relation `r`'s row `n` against its matrix's column `e`. -/
theorem dot_ref_apply (A : FVec Ideal S16x20000x256 .f32) (W : FVec Ideal S16x256x256 .f32)
    (r : Fin 16) (n : Fin 20000) (e : Fin 256) :
    Host.dotGeneral (F := Ideal) dot_S16x20000x256_S16x256x256_S16x20000x256_2_1_1_2_0_0 none A W (ix3 r n e) = ∑ d : Fin 256, A (ix3 r n d) * W (ix3 r d e) := by
  simp only [Host.dotGeneral]
  rw [Ideal.dotGeneral_apply, ← Equiv.sum_comp (contrEquiv1 dot_S16x20000x256_S16x256x256_S16x20000x256_2_1_1_2_0_0 256 rfl rfl).symm]
  refine Finset.sum_congr rfl fun k _ => ?_
  have hk := contrEquiv1_symm_val dot_S16x20000x256_S16x256x256_S16x20000x256_2_1_1_2_0_0 256 rfl rfl k
  have el : dot_S16x20000x256_S16x256x256_S16x20000x256_2_1_1_2_0_0.lhsIdx (ix3 r n e) ((contrEquiv1 dot_S16x20000x256_S16x256x256_S16x20000x256_2_1_1_2_0_0 256 rfl rfl).symm k) = ix3 r n k :=
    funext fun a => Fin.ext (by
      match a with
      | ⟨0, _⟩ => exact lhs_ref_0 _ _
      | ⟨1, _⟩ => exact lhs_ref_1 _ _
      | ⟨2, _⟩ => exact (lhs_ref_2 _ _).trans hk)
  have er : dot_S16x20000x256_S16x256x256_S16x20000x256_2_1_1_2_0_0.rhsIdx (ix3 r n e) ((contrEquiv1 dot_S16x20000x256_S16x256x256_S16x20000x256_2_1_1_2_0_0 256 rfl rfl).symm k) = ix3 r k e :=
    funext fun a => Fin.ext (by
      match a with
      | ⟨0, _⟩ => exact rhs_ref_0 _ _
      | ⟨1, _⟩ => exact (rhs_ref_1 _ _).trans hk
      | ⟨2, _⟩ => exact rhs_ref_2 _ _)
  rw [el, er]

/-- The degree factor broadcast along the features, read at `(r, n, d)`. -/
theorem dinv_bcast_apply (dinv : FVec Ideal S16x20000x1 .f32) (r : Fin 16) (n : Fin 20000) (d : Fin 256) :
    broadcastInDim S16x20000x256 ![0, 1, 2] bcast_S16x20000x1_S16x20000x256_0_1_2 dinv (ix3 r n d)
      = dinv (ix3 r n (0 : Fin 1)) :=
  broadcastInDim_apply _ bcast_S16x20000x1_S16x20000x256_0_1_2 dinv (ix3 r n d) (ix3 r n (0 : Fin 1)) (fun a => match a with
    | ⟨0, _⟩ => by show r.val = if (16 : Nat) = 1 then 0 else r.val; rw [if_neg (by decide)]
    | ⟨1, _⟩ => by show n.val = if (20000 : Nat) = 1 then 0 else n.val; rw [if_neg (by decide)]
    | ⟨2, _⟩ => by show 0 = if (1 : Nat) = 1 then 0 else d.val; rw [if_pos rfl])

/-- The bias broadcast along the nodes, read at `(r, n, e)`. -/
theorem bias_bcast_apply (b : FVec Ideal S16x256 .f32) (r : Fin 16) (n : Fin 20000) (e : Fin 256) :
    broadcastInDim S16x20000x256 ![0, 1, 2] bcast_S16x1x256_S16x20000x256_0_1_2
        (broadcastInDim S16x1x256 ![0, 2] bcast_S16x256_S16x1x256_0_2 b) (ix3 r n e)
      = b (ix2 r e) := by
  refine (broadcastInDim_apply _ bcast_S16x1x256_S16x20000x256_0_1_2 _ (ix3 r n e) (ix3 r (0 : Fin 1) e) (fun a => match a with
    | ⟨0, _⟩ => by show r.val = if (16 : Nat) = 1 then 0 else r.val; rw [if_neg (by decide)]
    | ⟨1, _⟩ => by show 0 = if (1 : Nat) = 1 then 0 else n.val; rw [if_pos rfl]
    | ⟨2, _⟩ => by show e.val = if (256 : Nat) = 1 then 0 else e.val; rw [if_neg (by decide)])).trans ?_
  exact broadcastInDim_apply _ bcast_S16x256_S16x1x256_0_2 b (ix3 r (0 : Fin 1) e) (ix2 r e) (fun a => match a with
    | ⟨0, _⟩ => by show r.val = if (16 : Nat) = 1 then 0 else r.val; rw [if_neg (by decide)]
    | ⟨1, _⟩ => by show e.val = if (256 : Nat) = 1 then 0 else e.val; rw [if_neg (by decide)])

/-- The sum over the relation axis from a zero start, read at `(n, e)`. -/
theorem reduce_ref_apply (X : FVec Ideal S16x20000x256 .f32) (n : Fin 20000) (e : Fin 256) :
    Host.reduceAdd (F := Ideal) X (constant (F := Ideal) S_ .f32 0x00000000#32) reducesTo_S16x20000x256_S20000x256_d0 h_S_ (ix2 n e)
      = ∑ r : Fin 16, X (ix3 r n e) := by
  simp only [Host.reduceAdd, Ideal.hostReduceAdd_def]
  rw [Ideal.hostReduceAdd_single reducesTo_S16x20000x256_S20000x256_d0 (by decide)]
  show Ideal.ofBits .f32 0x00000000#32 + _ = _
  rw [Ideal.ofBits_zero_f32, zero_add]
  refine Finset.sum_congr rfl fun k _ => ?_
  exact congrArg X (funext fun a => Fin.ext (by match a with | ⟨0, _⟩ => rfl | ⟨1, _⟩ => rfl | ⟨2, _⟩ => rfl))

/-- The divisor sixteen broadcast over the array, read anywhere. -/
theorem sixteen_bcast_apply (j : S20000x256.Idx) :
    broadcastInDim S20000x256 ![] bcast_S_S20000x256 (constant (F := Ideal) S_ .f32 0x41800000#32) j
      = Ideal.ofBits .f32 0x41800000#32 :=
  broadcastInDim_apply _ bcast_S_S20000x256 _ j (fun a => a.elim0) (fun a => a.elim0)

/-! ## The reference's composite is the layer -/

/-- The reference's operations, read at `(n, e)`, give the mean over the relations. -/
theorem refLayer_apply (agg : FVec Ideal S16x20000x256 .f32) (dinv : FVec Ideal S16x20000x1 .f32)
    (W : FVec Ideal S16x256x256 .f32) (b : FVec Ideal S16x256 .f32) (n : Fin 20000) (e : Fin 256) :
    Cert.Spec.refLayer (F := Ideal) agg dinv W b (ix2 n e) = meanEntry agg dinv W b n e := by
  unfold Cert.Spec.refLayer
  show Ideal.div _ _ = _
  rw [sixteen_bcast_apply, div_sixteen, reduce_ref_apply]
  unfold meanEntry relTerm
  refine congrArg (· * _) (Finset.sum_congr rfl fun r _ => ?_)
  rw [addf_apply, dot_ref_apply, bias_bcast_apply]
  refine congrArg (· + _) (Finset.sum_congr rfl fun d _ => ?_)
  rw [mulf_apply, dinv_bcast_apply]

/-- The reference's composite IS the layer's function. -/
theorem refLayer_eq (agg : FVec Ideal S16x20000x256 .f32) (dinv : FVec Ideal S16x20000x1 .f32)
    (W : FVec Ideal S16x256x256 .f32) (b : FVec Ideal S16x256 .f32) :
    Cert.Spec.refLayer (F := Ideal) agg dinv W b = layerAt agg dinv W b := by
  funext j
  obtain ⟨n, e, rfl⟩ : ∃ (n : Fin 20000) (e : Fin 256), j = ix2 n e := ⟨j 0, j 1, eq_ix2 j⟩
  rw [refLayer_apply, layerAt_apply]

end Cert.RelSpec

end
-- ==== Proof.RelPayload0.lean ====
/-
  Region 0's body at one entry of its output block.

  The body loads, for each of the sixteen relations, one slab of the scattered messages, of the degree factors, of the
  weights and of the biases; it starts from zero and adds, relation by relation, the product of the scaled messages with
  the relation's matrix and then the relation's bias; it ends by multiplying with one sixteenth. Read at row `p` and
  feature `e` of the block that is the mean over the relations (`Cert.RelSpec.meanEntry`) of the four loaded blocks.
-/
import proofs.«133052_j57896159150149_1_alg».proof.Proof.Gen.KernelIdeal.Frame
import proofs.«133052_j57896159150149_1_alg».proof.Proof.RelLayout
import proofs.«133052_j57896159150149_1_alg».proof.Proof.RelSpec

noncomputable section

namespace Cert.KernelIdeal.RelValue

open Cert.KernelIdeal Cert.KernelIdeal.Gen Idealize.ShloMosaic Idealize.ShloMosaic.ValueIdx Cert.RelSpec
open scoped BigOperators

/-- The body's one store, read at `(p, e)`: the mean over the relations of the loaded blocks. -/
theorem out0_4_apply (x0 : FVec Ideal S16x1000x256 .f32) (x1 : FVec Ideal S16x1000x1 .f32) (x2 : FVec Ideal S16x256x256 .f32)
    (x3 : FVec Ideal S16x256 .f32) (p : Fin 1000) (e : Fin 256) :
    out0_4 (F := Ideal) x0 x1 x2 x3 (ix2 p e) = meanEntry x0 x1 x2 x3 p e := by
  unfold out0_4
  rw [View.canon_unit_zero hz2]
  simp only [k0_pay14, k0_pay13, k0_pay12, k0_pay11, k0_pay10, k0_pay9, k0_pay8, k0_pay7, k0_pay6, k0_pay5, k0_pay4, k0_pay3,
    k0_pay2, k0_pay1]
  simp only [addf_apply, matmul_block_apply, truncf_apply, mulf_apply, shapeCast_1ab_ab_apply, broadcastTo_a1_ab_apply,
    shapeCast_shapeCast, broadcastTo_1b_ab_apply, broadcast_apply, View.ld, Ideal.ofBits_def, Ideal.ofBits_zero_f32,
    r0_0, r0_1, r0_2, r0_3, r0_4, r0_5, r0_6, r0_7, r0_8, r0_9, r0_10, r0_11,
    r0_12, r0_13, r0_14, r0_15, r0_16, r0_17, r0_18, r0_19, r0_20, r0_21, r0_22, r0_23,
    r0_24, r0_25, r0_26, r0_27, r0_28, r0_29, r0_30, r0_31, r0_32, r0_33, r0_34, r0_35,
    r0_36, r0_37, r0_38, r0_39, r0_40, r0_41, r0_42, r0_43, r0_44, r0_45, r0_46, r0_47,
    r0_48, r0_49, r0_50, r0_51, r0_52, r0_53, r0_54, r0_55, r0_56, r0_57, r0_58, r0_59,
    r0_60, r0_61, r0_62, r0_63,
    slab_idx, row_idx]
  unfold meanEntry relTerm
  refine congrArg (· * _) ?_
  exact accumulate_eq_sum (fun r => ∑ d : Fin 256, x0 (ix3 r p d) * x1 (ix3 r p (0 : Fin 1)) * x2 (ix3 r d e))
    (fun r => x3 (ix2 r e))

end Cert.KernelIdeal.RelValue

end
-- ==== Proof.RelBlocks0.lean ====
/-
  Region 0: from what each grid point writes back to the whole output array.

  Grid point `t` handles the block of nodes `1000·t … 1000·t + 999`: it reads those rows of the scattered messages and of
  the degree factors (all sixteen relations), the whole weights and biases, and writes back the block of the layer's
  output. Each input block is read off its array where the window says (`read0_0` … `read0_3`); read through its
  window, what the point writes back is that block of the layer's function of the four whole arrays (`flushed0_eq`);
  the twenty blocks cover the array (`cover0`); so the array after the region is the layer's function, which is the
  reference's composite (`final0`).
-/
import proofs.«133052_j57896159150149_1_alg».proof.Proof.Gen.KernelIdeal.Frame
import proofs.«133052_j57896159150149_1_alg».proof.Proof.RelPayload0
import Idealize.ShloMosaic.Lib.Pipeline.Value

set_option maxRecDepth 16384

noncomputable section

namespace Cert.KernelIdeal.RelValue

open Cert.KernelIdeal Cert.KernelIdeal.Gen Idealize.ShloMosaic Idealize.ShloMosaic.TcCoe Idealize.SL.Sem
open Idealize.ShloMosaic.ValueIdx Cert.RelSpec
open Idealize.ShloMosaic.Pipeline (Dat)

variable (V : (c : Dev nD) → (b : Ref sig .tc) → Buf (Elt Ideal) ((c : Thread nD τ).loc b))

/-- The index maps over the grid: the messages', the degree factors' and the output's blocks move along the node axis
    with the grid point; the weights and the biases are one block. -/
theorem index_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The messages' block at point `t`: rows `1000·t + p` of every relation. -/
theorem read0_0 (c : Dev nD) (t : Fin cfg0.N) (r : Fin 16) (p : Fin 1000) (d : Fin 256) (n : Fin 20000)
    (hn : n.val = t.val * 1000 + p.val) :
    iblk0 V c 0 t (ix3 r p d) = (V c (Pipeline.arrRef spec0 0)) (ix3 r n d) := by
  obtain ⟨e0, e1, e2, -⟩ := index_facts0 t
  show (V c (Pipeline.arrRef spec0 0)) (((cfg0.win 0).blk t).view.emb (ix3 r p d)) = (V c (Pipeline.arrRef spec0 0)) (ix3 r n d)
  refine congrArg _ (funext fun a => Fin.ext ?_)
  match a with
  | ⟨0, _⟩ => show win0_0.index t (0 : Fin 3) * 16 + 1 * r.val = r.val; rw [e0]; omega
  | ⟨1, _⟩ => show win0_0.index t (1 : Fin 3) * 1000 + 1 * p.val = n.val; rw [e1, hn]; omega
  | ⟨2, _⟩ => show win0_0.index t (2 : Fin 3) * 256 + 1 * d.val = d.val; rw [e2]; omega

/-- The degree factors' block at point `t`: the same rows. -/
theorem read0_1 (c : Dev nD) (t : Fin cfg0.N) (r : Fin 16) (p : Fin 1000) (n : Fin 20000)
    (hn : n.val = t.val * 1000 + p.val) :
    iblk0 V c 1 t (ix3 r p (0 : Fin 1)) = (V c (Pipeline.arrRef spec0 1)) (ix3 r n (0 : Fin 1)) := by
  obtain ⟨-, -, -, e0, e1, e2, -⟩ := index_facts0 t
  show (V c (Pipeline.arrRef spec0 1)) (((cfg0.win 1).blk t).view.emb (ix3 r p (0 : Fin 1))) = (V c (Pipeline.arrRef spec0 1)) (ix3 r n (0 : Fin 1))
  refine congrArg _ (funext fun a => Fin.ext ?_)
  match a with
  | ⟨0, _⟩ => show win0_1.index t (0 : Fin 3) * 16 + 1 * r.val = r.val; rw [e0]; omega
  | ⟨1, _⟩ => show win0_1.index t (1 : Fin 3) * 1000 + 1 * p.val = n.val; rw [e1, hn]; omega
  | ⟨2, _⟩ => show win0_1.index t (2 : Fin 3) * 1 + 1 * 0 = 0; rw [e2]

/-- The weights' one block is the whole array. -/
theorem read0_2 (c : Dev nD) (t : Fin cfg0.N) (r : Fin 16) (d : Fin 256) (e : Fin 256) :
    iblk0 V c 2 t (ix3 r d e) = (V c (Pipeline.arrRef spec0 2)) (ix3 r d e) := by
  obtain ⟨-, -, -, -, -, -, e0, e1, e2, -⟩ := index_facts0 t
  show (V c (Pipeline.arrRef spec0 2)) (((cfg0.win 2).blk t).view.emb (ix3 r d e)) = (V c (Pipeline.arrRef spec0 2)) (ix3 r d e)
  refine congrArg _ (funext fun a => Fin.ext ?_)
  match a with
  | ⟨0, _⟩ => show win0_2.index t (0 : Fin 3) * 16 + 1 * r.val = r.val; rw [e0]; omega
  | ⟨1, _⟩ => show win0_2.index t (1 : Fin 3) * 256 + 1 * d.val = d.val; rw [e1]; omega
  | ⟨2, _⟩ => show win0_2.index t (2 : Fin 3) * 256 + 1 * e.val = e.val; rw [e2]; omega

/-- The biases' one block is the whole array. -/
theorem read0_3 (c : Dev nD) (t : Fin cfg0.N) (r : Fin 16) (e : Fin 256) :
    iblk0 V c 3 t (ix2 r e) = (V c (Pipeline.arrRef spec0 3)) (ix2 r e) := by
  obtain ⟨-, -, -, -, -, -, -, -, -, e0, e1, -⟩ := index_facts0 t
  show (V c (Pipeline.arrRef spec0 3)) (((cfg0.win 3).blk t).view.emb (ix2 r e)) = (V c (Pipeline.arrRef spec0 3)) (ix2 r e)
  refine congrArg _ (funext fun a => Fin.ext ?_)
  match a with
  | ⟨0, _⟩ => show win0_3.index t (0 : Fin 2) * 16 + 1 * r.val = r.val; rw [e0]; omega
  | ⟨1, _⟩ => show win0_3.index t (1 : Fin 2) * 256 + 1 * e.val = e.val; rw [e1]; omega

/-- Where entry `(p, e)` of the output's block at point `t` sits in the output array. -/
theorem emb0_4 (t : Fin cfg0.N) (p : Fin 1000) (e : Fin 256) (n : Fin 20000) (hn : n.val = t.val * 1000 + p.val) :
    ((cfg0.win 4).blk t).view.emb (ix2 p e) = ix2 n e := by
  obtain ⟨-, -, -, -, -, -, -, -, -, -, -, e0, e1⟩ := index_facts0 t
  funext a
  apply Fin.ext
  match a with
  | ⟨0, _⟩ => show win0_4.index t (0 : Fin 2) * 1000 + 1 * p.val = n.val; rw [e0, hn]; omega
  | ⟨1, _⟩ => show win0_4.index t (1 : Fin 2) * 256 + 1 * e.val = e.val; rw [e1]; omega

/-- WHAT POINT `t` WRITES BACK is block `t` of the layer's function of the four arrays as the region finds them. -/
theorem flushed0_eq (c : Dev nD) (t : Fin cfg0.N) :
    (dat0 (F := Ideal) V c).flushed 4 t = ((cfg0.win 4).blk t).view.read (Elt Ideal)
      (layerAt (N := 20000) (V c (Pipeline.arrRef spec0 0)) (V c (Pipeline.arrRef spec0 1))
        (V c (Pipeline.arrRef spec0 2)) (V c (Pipeline.arrRef spec0 3))) := by
  show (cfg0.win 4).cut (grid0.coords t) ((dat0 V c).after 4 t) = _
  rw [after0_4]
  have hN : cfg0.N = 20 := N_0
  have ht : t.val < 20 := by have := t.isLt; omega
  funext y
  obtain ⟨p, e, rfl⟩ : ∃ (p : Fin 1000) (e : Fin 256), y = ix2 p e := ⟨y 0, y 1, eq_ix2 y⟩
  have hp : p.val < 1000 := p.isLt
  show out0_4 (iblk0 V c 0 t) (iblk0 V c 1 t) (iblk0 V c 2 t) (iblk0 V c 3 t) (ix2 p e)
    = layerAt (N := 20000) (V c (Pipeline.arrRef spec0 0)) (V c (Pipeline.arrRef spec0 1))
        (V c (Pipeline.arrRef spec0 2)) (V c (Pipeline.arrRef spec0 3)) (((cfg0.win 4).blk t).view.emb (ix2 p e))
  refine (out0_4_apply _ _ _ _ p e).trans ?_
  rw [emb0_4 t p e ⟨t.val * 1000 + p.val, by omega⟩ rfl, layerAt_apply]
  exact meanEntry_congr (N := 1000) (N' := 20000) _ _ _ _ _ _ _ _ p _ e
    (fun r d => read0_0 V c t r p d _ rfl) (fun r => read0_1 V c t r p _ rfl)
    (fun r d => read0_2 V c t r d e) (fun r => read0_3 V c t r e)

/-- An index of the output array is in point `t`'s block iff each coordinate is in the block's range on its axis. -/
theorem mem_blk0 (t : Fin cfg0.N) (i : S20000x256.Idx) :
    i ∈ ((cfg0.win 4).blk t).view.set ↔ ∀ a : Fin 2, win0_4.index t a * S1000x256.size a ≤ (i a).val
      ∧ (i a).val < win0_4.index t a * S1000x256.size a + S1000x256.size a := by
  show i ∈ ((View.whole (Pipeline.arrRef spec0 4)).slice (win0_4.rect t)).set ↔ _
  rw [View.set_slice_whole, Rect.mem_set_unit]
  exact Iff.rfl

/-- Every index of the output array is in some point's block: node `n` in the block of point `n / 1000`. -/
theorem cover0 (i : S20000x256.Idx) :
    ∃ t : Fin cfg0.N, (cfg0.win 4).flush t = true ∧ i ∈ ((cfg0.win 4).blk t).view.set := by
  have hN : cfg0.N = 20 := N_0
  have h0 : (i 0).val < 20000 := (i 0).isLt
  have h1 : (i 1).val < 256 := (i 1).isLt
  have ht : (i 0).val / 1000 < cfg0.N := by omega
  obtain ⟨-, -, -, -, -, -, -, -, -, -, -, e40, e41⟩ := index_facts0 ⟨(i 0).val / 1000, ht⟩
  refine ⟨⟨(i 0).val / 1000, ht⟩, flush0_4 _, ?_⟩
  rw [mem_blk0]
  intro a
  match a with
  | ⟨0, _⟩ =>
    show win0_4.index ⟨(i 0).val / 1000, ht⟩ (0 : Fin 2) * 1000 ≤ (i 0).val
      ∧ (i 0).val < win0_4.index ⟨(i 0).val / 1000, ht⟩ (0 : Fin 2) * 1000 + 1000
    rw [e40]
    show (i 0).val / 1000 * 1000 ≤ (i 0).val ∧ (i 0).val < (i 0).val / 1000 * 1000 + 1000
    omega
  | ⟨1, _⟩ =>
    show win0_4.index ⟨(i 0).val / 1000, ht⟩ (1 : Fin 2) * 256 ≤ (i 1).val
      ∧ (i 1).val < win0_4.index ⟨(i 0).val / 1000, ht⟩ (1 : Fin 2) * 256 + 256
    rw [e41]
    omega

/-- THE ARRAY after region 0 is the layer's function of the four arrays the region found. -/
theorem layer0 (c : Dev nD) :
    (dat0 (F := Ideal) V c).arrAt 4 cfg0.N
      = layerAt (N := 20000) (V c (Pipeline.arrRef spec0 0)) (V c (Pipeline.arrRef spec0 1))
          (V c (Pipeline.arrRef spec0 2)) (V c (Pipeline.arrRef spec0 3)) :=
  (dat0 V c).arrAt_eq_of_cover 4 _ (fun t _ => flushed0_eq V c t) cover0

/-- … which is the reference's composite of them. -/
theorem final0 (c : Dev nD) :
    (dat0 (F := Ideal) V c).arrAt 4 cfg0.N
      = Cert.Spec.refLayer (F := Ideal) (V c (Pipeline.arrRef spec0 0)) (V c (Pipeline.arrRef spec0 1))
          (V c (Pipeline.arrRef spec0 2)) (V c (Pipeline.arrRef spec0 3)) :=
  (layer0 V c).trans (refLayer_eq _ _ _ _).symm

end Cert.KernelIdeal.RelValue

end
-- ==== Proof.RelPayload1.lean ====
/-
  Region 1's body at one entry of its output block.

  The body loads, for each of the sixteen relations, one slab of the scattered messages, of the degree factors, of the
  weights and of the biases; it starts from zero and adds, relation by relation, the product of the scaled messages with
  the relation's matrix and then the relation's bias; it ends by multiplying with one sixteenth. Read at row `p` and
  feature `e` of the block that is the mean over the relations (`Cert.RelSpec.meanEntry`) of the four loaded blocks.
-/
import proofs.«133052_j57896159150149_1_alg».proof.Proof.Gen.KernelIdeal.Frame
import proofs.«133052_j57896159150149_1_alg».proof.Proof.RelLayout
import proofs.«133052_j57896159150149_1_alg».proof.Proof.RelSpec

noncomputable section

namespace Cert.KernelIdeal.RelValue

open Cert.KernelIdeal Cert.KernelIdeal.Gen Idealize.ShloMosaic Idealize.ShloMosaic.ValueIdx Cert.RelSpec
open scoped BigOperators

/-- The body's one store, read at `(p, e)`: the mean over the relations of the loaded blocks. -/
theorem out1_4_apply (x0 : FVec Ideal S16x1000x256 .f32) (x1 : FVec Ideal S16x1000x1 .f32) (x2 : FVec Ideal S16x256x256 .f32)
    (x3 : FVec Ideal S16x256 .f32) (p : Fin 1000) (e : Fin 256) :
    out1_4 (F := Ideal) x0 x1 x2 x3 (ix2 p e) = meanEntry x0 x1 x2 x3 p e := by
  unfold out1_4
  rw [View.canon_unit_zero hz2]
  simp only [k1_pay14, k1_pay13, k1_pay12, k1_pay11, k1_pay10, k1_pay9, k1_pay8, k1_pay7, k1_pay6, k1_pay5, k1_pay4, k1_pay3,
    k1_pay2, k1_pay1]
  simp only [addf_apply, matmul_block_apply, truncf_apply, mulf_apply, shapeCast_1ab_ab_apply, broadcastTo_a1_ab_apply,
    shapeCast_shapeCast, broadcastTo_1b_ab_apply, broadcast_apply, View.ld, Ideal.ofBits_def, Ideal.ofBits_zero_f32,
    r1_0, r1_1, r1_2, r1_3, r1_4, r1_5, r1_6, r1_7, r1_8, r1_9, r1_10, r1_11,
    r1_12, r1_13, r1_14, r1_15, r1_16, r1_17, r1_18, r1_19, r1_20, r1_21, r1_22, r1_23,
    r1_24, r1_25, r1_26, r1_27, r1_28, r1_29, r1_30, r1_31, r1_32, r1_33, r1_34, r1_35,
    r1_36, r1_37, r1_38, r1_39, r1_40, r1_41, r1_42, r1_43, r1_44, r1_45, r1_46, r1_47,
    r1_48, r1_49, r1_50, r1_51, r1_52, r1_53, r1_54, r1_55, r1_56, r1_57, r1_58, r1_59,
    r1_60, r1_61, r1_62, r1_63,
    slab_idx, row_idx]
  unfold meanEntry relTerm
  refine congrArg (· * _) ?_
  exact accumulate_eq_sum (fun r => ∑ d : Fin 256, x0 (ix3 r p d) * x1 (ix3 r p (0 : Fin 1)) * x2 (ix3 r d e))
    (fun r => x3 (ix2 r e))

end Cert.KernelIdeal.RelValue

end
-- ==== Proof.RelBlocks1.lean ====
/-
  Region 1: from what each grid point writes back to the whole output array.

  Grid point `t` handles the block of nodes `1000·t … 1000·t + 999`: it reads those rows of the scattered messages and of
  the degree factors (all sixteen relations), the whole weights and biases, and writes back the block of the layer's
  output. Each input block is read off its array where the window says (`read1_0` … `read1_3`); read through its
  window, what the point writes back is that block of the layer's function of the four whole arrays (`flushed1_eq`);
  the twenty blocks cover the array (`cover1`); so the array after the region is the layer's function, which is the
  reference's composite (`final1`).
-/
import proofs.«133052_j57896159150149_1_alg».proof.Proof.Gen.KernelIdeal.Frame
import proofs.«133052_j57896159150149_1_alg».proof.Proof.RelPayload1
import Idealize.ShloMosaic.Lib.Pipeline.Value

set_option maxRecDepth 16384

noncomputable section

namespace Cert.KernelIdeal.RelValue

open Cert.KernelIdeal Cert.KernelIdeal.Gen Idealize.ShloMosaic Idealize.ShloMosaic.TcCoe Idealize.SL.Sem
open Idealize.ShloMosaic.ValueIdx Cert.RelSpec
open Idealize.ShloMosaic.Pipeline (Dat)

variable (V : (c : Dev nD) → (b : Ref sig .tc) → Buf (Elt Ideal) ((c : Thread nD τ).loc b))

/-- The index maps over the grid: the messages', the degree factors' and the output's blocks move along the node axis
    with the grid point; the weights and the biases are one block. -/
theorem index_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The messages' block at point `t`: rows `1000·t + p` of every relation. -/
theorem read1_0 (c : Dev nD) (t : Fin cfg1.N) (r : Fin 16) (p : Fin 1000) (d : Fin 256) (n : Fin 20000)
    (hn : n.val = t.val * 1000 + p.val) :
    iblk1 V c 0 t (ix3 r p d) = (V c (Pipeline.arrRef spec1 0)) (ix3 r n d) := by
  obtain ⟨e0, e1, e2, -⟩ := index_facts1 t
  show (V c (Pipeline.arrRef spec1 0)) (((cfg1.win 0).blk t).view.emb (ix3 r p d)) = (V c (Pipeline.arrRef spec1 0)) (ix3 r n d)
  refine congrArg _ (funext fun a => Fin.ext ?_)
  match a with
  | ⟨0, _⟩ => show win1_0.index t (0 : Fin 3) * 16 + 1 * r.val = r.val; rw [e0]; omega
  | ⟨1, _⟩ => show win1_0.index t (1 : Fin 3) * 1000 + 1 * p.val = n.val; rw [e1, hn]; omega
  | ⟨2, _⟩ => show win1_0.index t (2 : Fin 3) * 256 + 1 * d.val = d.val; rw [e2]; omega

/-- The degree factors' block at point `t`: the same rows. -/
theorem read1_1 (c : Dev nD) (t : Fin cfg1.N) (r : Fin 16) (p : Fin 1000) (n : Fin 20000)
    (hn : n.val = t.val * 1000 + p.val) :
    iblk1 V c 1 t (ix3 r p (0 : Fin 1)) = (V c (Pipeline.arrRef spec1 1)) (ix3 r n (0 : Fin 1)) := by
  obtain ⟨-, -, -, e0, e1, e2, -⟩ := index_facts1 t
  show (V c (Pipeline.arrRef spec1 1)) (((cfg1.win 1).blk t).view.emb (ix3 r p (0 : Fin 1))) = (V c (Pipeline.arrRef spec1 1)) (ix3 r n (0 : Fin 1))
  refine congrArg _ (funext fun a => Fin.ext ?_)
  match a with
  | ⟨0, _⟩ => show win1_1.index t (0 : Fin 3) * 16 + 1 * r.val = r.val; rw [e0]; omega
  | ⟨1, _⟩ => show win1_1.index t (1 : Fin 3) * 1000 + 1 * p.val = n.val; rw [e1, hn]; omega
  | ⟨2, _⟩ => show win1_1.index t (2 : Fin 3) * 1 + 1 * 0 = 0; rw [e2]

/-- The weights' one block is the whole array. -/
theorem read1_2 (c : Dev nD) (t : Fin cfg1.N) (r : Fin 16) (d : Fin 256) (e : Fin 256) :
    iblk1 V c 2 t (ix3 r d e) = (V c (Pipeline.arrRef spec1 2)) (ix3 r d e) := by
  obtain ⟨-, -, -, -, -, -, e0, e1, e2, -⟩ := index_facts1 t
  show (V c (Pipeline.arrRef spec1 2)) (((cfg1.win 2).blk t).view.emb (ix3 r d e)) = (V c (Pipeline.arrRef spec1 2)) (ix3 r d e)
  refine congrArg _ (funext fun a => Fin.ext ?_)
  match a with
  | ⟨0, _⟩ => show win1_2.index t (0 : Fin 3) * 16 + 1 * r.val = r.val; rw [e0]; omega
  | ⟨1, _⟩ => show win1_2.index t (1 : Fin 3) * 256 + 1 * d.val = d.val; rw [e1]; omega
  | ⟨2, _⟩ => show win1_2.index t (2 : Fin 3) * 256 + 1 * e.val = e.val; rw [e2]; omega

/-- The biases' one block is the whole array. -/
theorem read1_3 (c : Dev nD) (t : Fin cfg1.N) (r : Fin 16) (e : Fin 256) :
    iblk1 V c 3 t (ix2 r e) = (V c (Pipeline.arrRef spec1 3)) (ix2 r e) := by
  obtain ⟨-, -, -, -, -, -, -, -, -, e0, e1, -⟩ := index_facts1 t
  show (V c (Pipeline.arrRef spec1 3)) (((cfg1.win 3).blk t).view.emb (ix2 r e)) = (V c (Pipeline.arrRef spec1 3)) (ix2 r e)
  refine congrArg _ (funext fun a => Fin.ext ?_)
  match a with
  | ⟨0, _⟩ => show win1_3.index t (0 : Fin 2) * 16 + 1 * r.val = r.val; rw [e0]; omega
  | ⟨1, _⟩ => show win1_3.index t (1 : Fin 2) * 256 + 1 * e.val = e.val; rw [e1]; omega

/-- Where entry `(p, e)` of the output's block at point `t` sits in the output array. -/
theorem emb1_4 (t : Fin cfg1.N) (p : Fin 1000) (e : Fin 256) (n : Fin 20000) (hn : n.val = t.val * 1000 + p.val) :
    ((cfg1.win 4).blk t).view.emb (ix2 p e) = ix2 n e := by
  obtain ⟨-, -, -, -, -, -, -, -, -, -, -, e0, e1⟩ := index_facts1 t
  funext a
  apply Fin.ext
  match a with
  | ⟨0, _⟩ => show win1_4.index t (0 : Fin 2) * 1000 + 1 * p.val = n.val; rw [e0, hn]; omega
  | ⟨1, _⟩ => show win1_4.index t (1 : Fin 2) * 256 + 1 * e.val = e.val; rw [e1]; omega

/-- WHAT POINT `t` WRITES BACK is block `t` of the layer's function of the four arrays as the region finds them. -/
theorem flushed1_eq (c : Dev nD) (t : Fin cfg1.N) :
    (dat1 (F := Ideal) V c).flushed 4 t = ((cfg1.win 4).blk t).view.read (Elt Ideal)
      (layerAt (N := 20000) (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  have hN : cfg1.N = 20 := N_1
  have ht : t.val < 20 := by have := t.isLt; omega
  funext y
  obtain ⟨p, e, rfl⟩ : ∃ (p : Fin 1000) (e : Fin 256), y = ix2 p e := ⟨y 0, y 1, eq_ix2 y⟩
  have hp : p.val < 1000 := p.isLt
  show out1_4 (iblk1 V c 0 t) (iblk1 V c 1 t) (iblk1 V c 2 t) (iblk1 V c 3 t) (ix2 p e)
    = layerAt (N := 20000) (V c (Pipeline.arrRef spec1 0)) (V c (Pipeline.arrRef spec1 1))
        (V c (Pipeline.arrRef spec1 2)) (V c (Pipeline.arrRef spec1 3)) (((cfg1.win 4).blk t).view.emb (ix2 p e))
  refine (out1_4_apply _ _ _ _ p e).trans ?_
  rw [emb1_4 t p e ⟨t.val * 1000 + p.val, by omega⟩ rfl, layerAt_apply]
  exact meanEntry_congr (N := 1000) (N' := 20000) _ _ _ _ _ _ _ _ p _ e
    (fun r d => read1_0 V c t r p d _ rfl) (fun r => read1_1 V c t r p _ rfl)
    (fun r d => read1_2 V c t r d e) (fun r => read1_3 V c t r e)

/-- An index of the output array is in point `t`'s block iff each coordinate is in the block's range on its axis. -/
theorem mem_blk1 (t : Fin cfg1.N) (i : S20000x256.Idx) :
    i ∈ ((cfg1.win 4).blk t).view.set ↔ ∀ a : Fin 2, win1_4.index t a * S1000x256.size a ≤ (i a).val
      ∧ (i a).val < win1_4.index t a * S1000x256.size a + S1000x256.size a := by
  show i ∈ ((View.whole (Pipeline.arrRef spec1 4)).slice (win1_4.rect t)).set ↔ _
  rw [View.set_slice_whole, Rect.mem_set_unit]
  exact Iff.rfl

/-- Every index of the output array is in some point's block: node `n` in the block of point `n / 1000`. -/
theorem cover1 (i : S20000x256.Idx) :
    ∃ t : Fin cfg1.N, (cfg1.win 4).flush t = true ∧ i ∈ ((cfg1.win 4).blk t).view.set := by
  have hN : cfg1.N = 20 := N_1
  have h0 : (i 0).val < 20000 := (i 0).isLt
  have h1 : (i 1).val < 256 := (i 1).isLt
  have ht : (i 0).val / 1000 < cfg1.N := by omega
  obtain ⟨-, -, -, -, -, -, -, -, -, -, -, e40, e41⟩ := index_facts1 ⟨(i 0).val / 1000, ht⟩
  refine ⟨⟨(i 0).val / 1000, ht⟩, flush1_4 _, ?_⟩
  rw [mem_blk1]
  intro a
  match a with
  | ⟨0, _⟩ =>
    show win1_4.index ⟨(i 0).val / 1000, ht⟩ (0 : Fin 2) * 1000 ≤ (i 0).val
      ∧ (i 0).val < win1_4.index ⟨(i 0).val / 1000, ht⟩ (0 : Fin 2) * 1000 + 1000
    rw [e40]
    show (i 0).val / 1000 * 1000 ≤ (i 0).val ∧ (i 0).val < (i 0).val / 1000 * 1000 + 1000
    omega
  | ⟨1, _⟩ =>
    show win1_4.index ⟨(i 0).val / 1000, ht⟩ (1 : Fin 2) * 256 ≤ (i 1).val
      ∧ (i 1).val < win1_4.index ⟨(i 0).val / 1000, ht⟩ (1 : Fin 2) * 256 + 256
    rw [e41]
    omega

/-- THE ARRAY after region 1 is the layer's function of the four arrays the region found. -/
theorem layer1 (c : Dev nD) :
    (dat1 (F := Ideal) V c).arrAt 4 cfg1.N
      = layerAt (N := 20000) (V c (Pipeline.arrRef spec1 0)) (V c (Pipeline.arrRef spec1 1))
          (V c (Pipeline.arrRef spec1 2)) (V c (Pipeline.arrRef spec1 3)) :=
  (dat1 V c).arrAt_eq_of_cover 4 _ (fun t _ => flushed1_eq V c t) cover1

/-- … which is the reference's composite of them. -/
theorem final1 (c : Dev nD) :
    (dat1 (F := Ideal) V c).arrAt 4 cfg1.N
      = Cert.Spec.refLayer (F := Ideal) (V c (Pipeline.arrRef spec1 0)) (V c (Pipeline.arrRef spec1 1))
          (V c (Pipeline.arrRef spec1 2)) (V c (Pipeline.arrRef spec1 3)) :=
  (layer1 V c).trans (refLayer_eq _ _ _ _).symm

end Cert.KernelIdeal.RelValue

end
-- ==== Proof.RelFinal.lean ====
/-
  The two relation-transform regions, side by side: after each, the output array is the reference's layer composite of
  the four arrays the region found (`final0`, `final1`, proved in the two region modules).
-/
import proofs.«133052_j57896159150149_1_alg».proof.Proof.RelBlocks0
import proofs.«133052_j57896159150149_1_alg».proof.Proof.RelBlocks1
-- ==== Proof.DenseOut.lean ====
/-
  The classifier stage as one function of its operands, index by index:
  `denseOut x W b (i, j) = (∑ k, x[i,k] · W[k,j]) + b[j]` on the padded output (20480 columns).
-/
import proofs.«133052_j57896159150149_1_alg».proof.Proof.Gen.KernelIdeal
import Idealize.ShloMosaic.Lib.ValueIdx

noncomputable section

open scoped BigOperators

namespace Cert.KernelIdeal.DenseValue

open Idealize.ShloMosaic Idealize.ShloMosaic.ValueIdx

/-- One entry of the classifier's output: row `p` of `x` against column `q` of `W`, plus the bias at `q`. -/
def denseEntry (x : Vec Ideal S2048x512 .f32) (W : Vec Ideal S512x20480 .f32) (b : Vec Ideal S20480 .f32)
    (p : Fin 2048) (q : Fin 20480) : EReal :=
  (∑ k : Fin 512, x (ix2 p k) * W (ix2 k q)) + b (ix1 q)

/-- The classifier's padded output as one function of its three operands. -/
def denseOut (x : Vec Ideal S2048x512 .f32) (W : Vec Ideal S512x20480 .f32) (b : Vec Ideal S20480 .f32) :
    S2048x20480.Idx → EReal :=
  fun i => denseEntry x W b (i 0) (i 1)

theorem denseOut_ix2 (x : Vec Ideal S2048x512 .f32) (W : Vec Ideal S512x20480 .f32) (b : Vec Ideal S20480 .f32)
    (p : Fin 2048) (q : Fin 20480) : denseOut x W b (ix2 p q) = denseEntry x W b p q := rfl

end Cert.KernelIdeal.DenseValue

end
-- ==== Proof.DenseSpec.lean ====
/-
  The reference's classifier `refDense` read at an entry, and the padded classifier `denseOut` cut back to
  its first 20000 columns: at right-padded weights and bias those columns are `refDense` at the unpadded
  ones, because a column below 20000 only ever reads unpadded entries — the padding value never matters.
-/
import proofs.«133052_j57896159150149_1_alg».proof.Proof.Spec
import proofs.«133052_j57896159150149_1_alg».proof.Proof.DenseOut
import Idealize.ShloMosaic.Lib.KernelVsHost
import Idealize.ShloMosaic.Lib.ValueLayout

noncomputable section

open scoped BigOperators

namespace Cert.KernelIdeal.DenseValue

open Idealize.ShloMosaic Idealize.ShloMosaic.ValueIdx

/-! The operand coordinates of the reference's matrix product: output entry `(i₀, i₁)` and contraction
    coordinate `c` read the left operand at `(i₀, c)` and the right one at `(c, i₁)`. -/

theorem refDot_lhs0 (i : Cert.ReferenceIdeal.S2048x20000.Idx) (c : Cert.ReferenceIdeal.dot_S2048x512_S512x20000_S2048x20000_1_0_0_1_n_n.contr.Idx) :
    (Cert.ReferenceIdeal.dot_S2048x512_S512x20000_S2048x20000_1_0_0_1_n_n.lhsIdx i c 0).val = (i 0).val := by
  unfold DotDims.lhsIdx
  rw [dif_neg (show ¬(0 : Fin Cert.ReferenceIdeal.S2048x512.rank) ∈ Cert.ReferenceIdeal.dot_S2048x512_S512x20000_S2048x20000_1_0_0_1_n_n.lhsBatch by decide),
    dif_pos (show (0 : Fin Cert.ReferenceIdeal.S2048x512.rank) ∈ Cert.ReferenceIdeal.dot_S2048x512_S512x20000_S2048x20000_1_0_0_1_n_n.lhsNonContracting by decide)]
  rfl
theorem refDot_lhs1 (i : Cert.ReferenceIdeal.S2048x20000.Idx) (c : Cert.ReferenceIdeal.dot_S2048x512_S512x20000_S2048x20000_1_0_0_1_n_n.contr.Idx) :
    (Cert.ReferenceIdeal.dot_S2048x512_S512x20000_S2048x20000_1_0_0_1_n_n.lhsIdx i c 1).val = (c ⟨0, by decide⟩).val :=
  Cert.ReferenceIdeal.dot_S2048x512_S512x20000_S2048x20000_1_0_0_1_n_n.lhsIdx_val_of_single rfl i c
theorem refDot_rhs0 (i : Cert.ReferenceIdeal.S2048x20000.Idx) (c : Cert.ReferenceIdeal.dot_S2048x512_S512x20000_S2048x20000_1_0_0_1_n_n.contr.Idx) :
    (Cert.ReferenceIdeal.dot_S2048x512_S512x20000_S2048x20000_1_0_0_1_n_n.rhsIdx i c 0).val = (c ⟨0, by decide⟩).val :=
  Cert.ReferenceIdeal.dot_S2048x512_S512x20000_S2048x20000_1_0_0_1_n_n.rhsIdx_val_of_single rfl i c
theorem refDot_rhs1 (i : Cert.ReferenceIdeal.S2048x20000.Idx) (c : Cert.ReferenceIdeal.dot_S2048x512_S512x20000_S2048x20000_1_0_0_1_n_n.contr.Idx) :
    (Cert.ReferenceIdeal.dot_S2048x512_S512x20000_S2048x20000_1_0_0_1_n_n.rhsIdx i c 1).val = (i 1).val := by
  unfold DotDims.rhsIdx
  rw [dif_neg (show ¬(1 : Fin Cert.ReferenceIdeal.S512x20000.rank) ∈ Cert.ReferenceIdeal.dot_S2048x512_S512x20000_S2048x20000_1_0_0_1_n_n.rhsBatch by decide),
    dif_pos (show (1 : Fin Cert.ReferenceIdeal.S512x20000.rank) ∈ Cert.ReferenceIdeal.dot_S2048x512_S512x20000_S2048x20000_1_0_0_1_n_n.rhsNonContracting by decide)]
  rfl

/-- The reference's matrix product read at an entry: the sum over the 512 contracted coordinates. -/
theorem refDot_apply (x : Vec Ideal S2048x512 .f32) (W : Vec Ideal S512x20000 .f32) (p : Fin 2048) (q : Fin 20000) :
    Host.dotGeneral (F := Ideal) (φ₁ := .f32) (φ₂ := .f32) Cert.ReferenceIdeal.dot_S2048x512_S512x20000_S2048x20000_1_0_0_1_n_n none x W (ix2 p q)
      = ∑ k : Fin 512, x (ix2 p k) * W (ix2 k q) := by
  simp only [Host.dotGeneral]
  rw [Ideal.dotGeneral_apply, ← Equiv.sum_comp (contrEquiv1 Cert.ReferenceIdeal.dot_S2048x512_S512x20000_S2048x20000_1_0_0_1_n_n 512 rfl rfl).symm]
  refine Finset.sum_congr rfl fun k _ => ?_
  have hk := contrEquiv1_symm_val Cert.ReferenceIdeal.dot_S2048x512_S512x20000_S2048x20000_1_0_0_1_n_n 512 rfl rfl k
  have el : Cert.ReferenceIdeal.dot_S2048x512_S512x20000_S2048x20000_1_0_0_1_n_n.lhsIdx (ix2 p q) ((contrEquiv1 Cert.ReferenceIdeal.dot_S2048x512_S512x20000_S2048x20000_1_0_0_1_n_n 512 rfl rfl).symm k) = ix2 p k :=
    funext fun a => Fin.ext (by
      match a with
      | ⟨0, _⟩ => exact refDot_lhs0 _ _
      | ⟨1, _⟩ => exact (refDot_lhs1 _ _).trans hk)
  have er : Cert.ReferenceIdeal.dot_S2048x512_S512x20000_S2048x20000_1_0_0_1_n_n.rhsIdx (ix2 p q) ((contrEquiv1 Cert.ReferenceIdeal.dot_S2048x512_S512x20000_S2048x20000_1_0_0_1_n_n 512 rfl rfl).symm k) = ix2 k q :=
    funext fun a => Fin.ext (by
      match a with
      | ⟨0, _⟩ => exact (refDot_rhs0 _ _).trans hk
      | ⟨1, _⟩ => exact refDot_rhs1 _ _)
  rw [el, er]

/-- The reference's bias row, broadcast over the 2048 rows, read at an entry. -/
theorem refBias_apply (b : Vec Ideal S20000 .f32)
    (h1 : Cert.ReferenceIdeal.S20000.BroadcastsInDim Cert.ReferenceIdeal.S1x20000 ![1])
    (h2 : Cert.ReferenceIdeal.S1x20000.BroadcastsInDim Cert.ReferenceIdeal.S2048x20000 ![0, 1])
    (p : Fin 2048) (q : Fin 20000) :
    broadcastInDim Cert.ReferenceIdeal.S2048x20000 ![0, 1] h2
      (broadcastInDim Cert.ReferenceIdeal.S1x20000 ![1] h1 b) (ix2 p q) = b (ix1 q) := by
  refine (broadcastInDim_apply _ h2 _ (ix2 p q) (ix2 (0 : Fin 1) q) (fun a => ?_)).trans ?_
  · match a with
    | ⟨0, _⟩ => show 0 = if (1 : Nat) = 1 then 0 else p.val; rw [if_pos rfl]
    | ⟨1, _⟩ => show q.val = if (20000 : Nat) = 1 then 0 else q.val; rw [if_neg (by decide)]
  · refine broadcastInDim_apply _ h1 b (ix2 (0 : Fin 1) q) (ix1 q) (fun a => ?_)
    match a with
    | ⟨0, _⟩ => show q.val = if (20000 : Nat) = 1 then 0 else q.val; rw [if_neg (by decide)]

/-- The reference's classifier read at an entry. -/
theorem refDense_apply (x : Vec Ideal S2048x512 .f32) (W : Vec Ideal S512x20000 .f32) (b : Vec Ideal S20000 .f32)
    (p : Fin 2048) (q : Fin 20000) :
    Cert.Spec.refDense (F := Ideal) x W b (ix2 p q) = (∑ k : Fin 512, x (ix2 p k) * W (ix2 k q)) + b (ix1 q) := by
  unfold Cert.Spec.refDense
  rw [addf_apply, refDot_apply, refBias_apply]

/-- The weights padded on the right with 480 columns, read at a column below 20000. -/
theorem padW_apply (W : Vec Ideal S512x20000 .f32) (v : Vec Ideal S_ .f32)
    (hp : S512x20000.Pads ![0, 0] ![0, 480] ![0, 0] S512x20480) (hu : 0 < S_.numel)
    (k : Fin 512) (q : Fin 20000) (q' : Fin 20480) (hq : q'.val = q.val) :
    pad S512x20480 ![0, 0] ![0, 480] ![0, 0] W v hp hu (ix2 k q') = W (ix2 k q) := by
  refine pad_apply_of_inside _ _ _ W v hp hu (ix2 k q') (ix2 k q) (fun a => ?_)
  match a with
  | ⟨0, _⟩ => show k.val = 0 + k.val * (0 + 1); omega
  | ⟨1, _⟩ => show q'.val = 0 + q.val * (0 + 1); omega

/-- The bias padded on the right with 480 entries, read below 20000. -/
theorem padB_apply (b : Vec Ideal S20000 .f32) (v : Vec Ideal S_ .f32)
    (hp : S20000.Pads ![0] ![480] ![0] S20480) (hu : 0 < S_.numel)
    (q : Fin 20000) (q' : Fin 20480) (hq : q'.val = q.val) :
    pad S20480 ![0] ![480] ![0] b v hp hu (ix1 q') = b (ix1 q) := by
  refine pad_apply_of_inside _ _ _ b v hp hu (ix1 q') (ix1 q) (fun a => ?_)
  match a with
  | ⟨0, _⟩ => show q'.val = 0 + q.val * (0 + 1); omega

/-- The first 20000 columns of the padded classifier are the reference's classifier at the unpadded
    weights and bias, whatever value fills the padding.  (The shape facts are taken as hypotheses, so the
    statement applies to the program's own evidence however it is spelt.) -/
theorem sliced_eq (x : Vec Ideal S2048x512 .f32) (W : Vec Ideal S512x20000 .f32) (b : Vec Ideal S20000 .f32)
    (v v' : Vec Ideal S_ .f32)
    (hpW : S512x20000.Pads ![0, 0] ![0, 480] ![0, 0] S512x20480) (hpB : S20000.Pads ![0] ![480] ![0] S20480)
    (hu hu' : 0 < S_.numel) (hs : S2048x20480.Slices ![0, 0] S2048x20000) :
    extractStridedSlice S2048x20000 ![0, 0]
        (denseOut x (pad S512x20480 ![0, 0] ![0, 480] ![0, 0] W v hpW hu) (pad S20480 ![0] ![480] ![0] b v' hpB hu')) hs
      = Cert.Spec.refDense (F := Ideal) x W b := by
  funext i
  obtain ⟨p, q, rfl⟩ : ∃ (p : Fin 2048) (q : Fin 20000), i = ix2 p q := ⟨i 0, i 1, eq_ix2 i⟩
  have hq : q.val < 20480 := by have := q.isLt; omega
  rw [slice2_axis1_apply 0 _ hs p q ⟨q.val, hq⟩ (by simp), denseOut_ix2, refDense_apply]
  unfold denseEntry
  rw [padB_apply b v' hpB hu' q ⟨q.val, hq⟩ rfl]
  refine congrArg (· + b (ix1 q)) (Finset.sum_congr rfl fun k _ => ?_)
  rw [padW_apply W v hpW hu k q ⟨q.val, hq⟩ rfl]

end Cert.KernelIdeal.DenseValue

end
-- ==== Proof.DensePayload2.lean ====
/-
  The body of the classifier kernel of region 2, read at an entry of its output block.

  The body loads the whole `x` block [2048,512], the weights block [512,1024] and the bias block [1024],
  multiplies the first two as matrices into a zero accumulator and adds the bias row to every row.  At the
  ideal values the format changes are the identity and the matrix product is the exact sum, so entry
  `(p, q)` of what it stores is `(∑ k, x[p,k] · w[k,q]) + b[q]`.
-/
import proofs.«133052_j57896159150149_1_alg».proof.Proof.Gen.KernelIdeal.Skeleton
import Idealize.ShloMosaic.Lib.KernelVsHost
import Idealize.ShloMosaic.Lib.ValueLayout

noncomputable section

open scoped BigOperators

namespace Cert.KernelIdeal.DenseValue

open Idealize.ShloMosaic Idealize.ShloMosaic.ValueIdx Cert.KernelIdeal.Facts₀

/-! The operand coordinates of the block's matrix product: output entry `(i₀, i₁)` and contraction
    coordinate `c` read the left operand at `(i₀, c)` and the right one at `(c, i₁)`. -/

theorem blockDot_lhs0 (i : S2048x1024.Idx) (c : dot_S2048x512_S512x1024_S2048x1024_1_0_0_1_n_n.contr.Idx) :
    (dot_S2048x512_S512x1024_S2048x1024_1_0_0_1_n_n.lhsIdx i c 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl
theorem blockDot_lhs1 (i : S2048x1024.Idx) (c : dot_S2048x512_S512x1024_S2048x1024_1_0_0_1_n_n.contr.Idx) :
    (dot_S2048x512_S512x1024_S2048x1024_1_0_0_1_n_n.lhsIdx i c 1).val = (c ⟨0, by decide⟩).val :=
  dot_S2048x512_S512x1024_S2048x1024_1_0_0_1_n_n.lhsIdx_val_of_single rfl i c
theorem blockDot_rhs0 (i : S2048x1024.Idx) (c : dot_S2048x512_S512x1024_S2048x1024_1_0_0_1_n_n.contr.Idx) :
    (dot_S2048x512_S512x1024_S2048x1024_1_0_0_1_n_n.rhsIdx i c 0).val = (c ⟨0, by decide⟩).val :=
  dot_S2048x512_S512x1024_S2048x1024_1_0_0_1_n_n.rhsIdx_val_of_single rfl i c
theorem blockDot_rhs1 (i : S2048x1024.Idx) (c : dot_S2048x512_S512x1024_S2048x1024_1_0_0_1_n_n.contr.Idx) :
    (dot_S2048x512_S512x1024_S2048x1024_1_0_0_1_n_n.rhsIdx i c 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- The block's matrix product into the zero accumulator, read at an entry: the sum over the 512
    contracted coordinates. -/
theorem blockDot_apply (l : FVec Ideal S2048x512 .bf16) (r : FVec Ideal S512x1024 .bf16) (p : Fin 2048) (q : Fin 1024) :
    matmul (F := Ideal) dot_S2048x512_S512x1024_S2048x1024_1_0_0_1_n_n none l r (constant S2048x1024 .f32 0x00000000#32) (ix2 p q)
      = ∑ k : Fin 512, l (ix2 p k) * r (ix2 k q) := by
  simp only [matmul]
  rw [Ideal.matmul_constant_zero_apply, ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p q) ((contrEquiv1 dot_S2048x512_S512x1024_S2048x1024_1_0_0_1_n_n 512 rfl rfl).symm k) = ix2 p k :=
    funext fun a => Fin.ext (by
      match a with
      | ⟨0, _⟩ => exact blockDot_lhs0 _ _
      | ⟨1, _⟩ => exact (blockDot_lhs1 _ _).trans hk)
  have er : dot_S2048x512_S512x1024_S2048x1024_1_0_0_1_n_n.rhsIdx (ix2 p q) ((contrEquiv1 dot_S2048x512_S512x1024_S2048x1024_1_0_0_1_n_n 512 rfl rfl).symm k) = ix2 k q :=
    funext fun a => Fin.ext (by
      match a with
      | ⟨0, _⟩ => exact (blockDot_rhs0 _ _).trans hk
      | ⟨1, _⟩ => exact blockDot_rhs1 _ _)
  rw [el, er]

/-- The bias block laid along every row of the output block, read at an entry. -/
theorem blockBias_apply (b : Vec Ideal S1024 .f32) (p : Fin 2048) (q : Fin 1024) :
    broadcastTo S2048x1024 (shapeCast S1x1024 (shapeCast S1024 b shapeCasts_S1024_S1024) shapeCasts_S1024_S1x1024)
      broadcasts_S1x1024_S2048x1024 (ix2 p q) = b (ix1 q) := by
  rw [shapeCast_self, broadcastTo_1b_ab_apply, shapeCast_a_1a_apply]

/-- What the body stores, at entry `(p, q)` of the output block. -/
theorem densePayload2_apply (x0 : Vec Ideal S2048x512 .f32) (x1 : Vec Ideal S512x1024 .f32) (x2 : Vec Ideal S1024 .f32)
    (p : Fin 2048) (q : Fin 1024) :
    Gen.k2_pay1 (F := Ideal) x0 x1 x2 (ix2 p q) = (∑ k : Fin 512, x0 (ix2 p k) * x1 (ix2 k q)) + x2 (ix1 q) := by
  unfold Gen.k2_pay1
  rw [addf_apply, blockDot_apply, blockBias_apply]
  simp only [shapeCast_self, truncf_apply]

end Cert.KernelIdeal.DenseValue

end
-- ==== Proof.DenseBlocks2.lean ====
/-
  From blocks to the array, for the classifier kernel of region 2.

  The grid has 20 points; point `t` reads the whole `x` [2048,512], columns `1024·t … 1024·t + 1023` of the
  padded weights and of the padded bias, and writes the same columns of the output.  So what point `t` writes
  back is block `t` of the one function `denseOut` of the three input arrays, and since the 20 column blocks
  cover the output, the output array after the region is `denseOut` of the input arrays as the region finds them.
-/
import proofs.«133052_j57896159150149_1_alg».proof.Proof.Gen.KernelIdeal.Frame
import proofs.«133052_j57896159150149_1_alg».proof.Proof.DenseOut
import proofs.«133052_j57896159150149_1_alg».proof.Proof.DensePayload2
import Idealize.ShloMosaic.Lib.Pipeline.Value

noncomputable section

open scoped BigOperators

namespace Cert.KernelIdeal.DenseValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl
theorem zeroOffsets1 : (![0] : Fin 1 → Nat) = fun _ => 0 := funext fun a => by fin_cases a <;> rfl

/-- The windows' block indices at point `t`, decided over the 20 points: `x` stays at block (0,0); the
    weights, the bias and the output move along their column axis with `t`. -/
theorem blockIndex2 : ∀ t : Fin cfg2.N,
    win2_0.index t (0 : Fin 2) = 0 ∧ win2_0.index t (1 : Fin 2) = 0
    ∧ win2_1.index t (0 : Fin 2) = 0 ∧ win2_1.index t (1 : Fin 2) = t.val
    ∧ win2_2.index t (0 : Fin 1) = t.val
    ∧ win2_3.index t (0 : Fin 2) = 0 ∧ win2_3.index t (1 : Fin 2) = t.val :=
  (by decide +kernel : ∀ t : Fin grid2.N, _)

/-- The `x` block at point `t` is the whole array. -/
theorem xBlock2_apply (c : Dev nD) (t : Fin cfg2.N) (p : Fin 2048) (k : Fin 512) :
    (Gen.iblk2 V c 0 t : Vec Ideal S2048x512 .f32) (ix2 p k)
      = (V c (Pipeline.arrRef spec2 0) : Vec Ideal S2048x512 .f32) (ix2 p k) := by
  obtain ⟨e0, e1, -, -, -, -, -⟩ := blockIndex2 t
  show V c (Pipeline.arrRef spec2 0) (((cfg2.win 0).blk t).view.emb (ix2 p k)) = V c (Pipeline.arrRef spec2 0) (ix2 p k)
  refine congrArg _ (funext fun a => Fin.ext ?_)
  match a with
  | ⟨0, _⟩ => show win2_0.index t (0 : Fin 2) * 2048 + 1 * p.val = p.val; omega
  | ⟨1, _⟩ => show win2_0.index t (1 : Fin 2) * 512 + 1 * k.val = k.val; omega

/-- The weights block at point `t` is columns `1024·t …` of the padded weights. -/
theorem wBlock2_apply (c : Dev nD) (t : Fin cfg2.N) (k : Fin 512) (q : Fin 1024) (q' : Fin 20480)
    (hq : q'.val = t.val * 1024 + q.val) :
    (Gen.iblk2 V c 1 t : Vec Ideal S512x1024 .f32) (ix2 k q)
      = (V c (Pipeline.arrRef spec2 1) : Vec Ideal S512x20480 .f32) (ix2 k q') := by
  obtain ⟨-, -, e0, e1, -, -, -⟩ := blockIndex2 t
  show V c (Pipeline.arrRef spec2 1) (((cfg2.win 1).blk t).view.emb (ix2 k q)) = V c (Pipeline.arrRef spec2 1) (ix2 k q')
  refine congrArg _ (funext fun a => Fin.ext ?_)
  match a with
  | ⟨0, _⟩ => show win2_1.index t (0 : Fin 2) * 512 + 1 * k.val = k.val; omega
  | ⟨1, _⟩ => show win2_1.index t (1 : Fin 2) * 1024 + 1 * q.val = q'.val; omega

/-- The bias block at point `t` is entries `1024·t …` of the padded bias. -/
theorem bBlock2_apply (c : Dev nD) (t : Fin cfg2.N) (q : Fin 1024) (q' : Fin 20480)
    (hq : q'.val = t.val * 1024 + q.val) :
    (Gen.iblk2 V c 2 t : Vec Ideal S1024 .f32) (ix1 q)
      = (V c (Pipeline.arrRef spec2 2) : Vec Ideal S20480 .f32) (ix1 q') := by
  obtain ⟨-, -, -, -, e0, -, -⟩ := blockIndex2 t
  show V c (Pipeline.arrRef spec2 2) (((cfg2.win 2).blk t).view.emb (ix1 q)) = V c (Pipeline.arrRef spec2 2) (ix1 q')
  refine congrArg _ (funext fun a => Fin.ext ?_)
  match a with
  | ⟨0, _⟩ => show win2_2.index t (0 : Fin 1) * 1024 + 1 * q.val = q'.val; omega

/-- Entry `(p, q)` of the output block at point `t` is entry `(p, 1024·t + q)` of the output array. -/
theorem outBlock2_emb (t : Fin cfg2.N) (p : Fin 2048) (q : Fin 1024) (q' : Fin 20480)
    (hq : q'.val = t.val * 1024 + q.val) :
    ((cfg2.win 3).blk t).view.emb (ix2 p q) = (ix2 p q' : S2048x20480.Idx) := by
  obtain ⟨-, -, -, -, -, e0, e1⟩ := blockIndex2 t
  refine funext fun a => Fin.ext ?_
  match a with
  | ⟨0, _⟩ => show win2_3.index t (0 : Fin 2) * 2048 + 1 * p.val = p.val; omega
  | ⟨1, _⟩ => show win2_3.index t (1 : Fin 2) * 1024 + 1 * q.val = q'.val; omega

/-- What point `t` writes back is block `t` of `denseOut` of the input arrays as the region finds them. -/
theorem flushed2_eq (c : Dev nD) (t : Fin cfg2.N) :
    (Gen.dat2 (F := Ideal) V c).flushed 3 t = ((cfg2.win 3).blk t).view.read (Elt Ideal)
      (denseOut (V c (Pipeline.arrRef spec2 0)) (V c (Pipeline.arrRef spec2 1)) (V c (Pipeline.arrRef spec2 2))) := by
  show (cfg2.win 3).cut (grid2.coords t) ((Gen.dat2 (F := Ideal) V c).after 3 t) = _
  rw [Gen.after2_3]
  unfold Gen.out2_3
  rw [View.canon_unit_zero zeroOffsets2]
  simp only [View.ld_unit_zero (S := S2048x512) zeroOffsets2, View.ld_unit_zero (S := S512x1024) zeroOffsets2,
    View.ld_unit_zero (S := S1024) zeroOffsets1]
  funext j
  obtain ⟨p, q, rfl⟩ : ∃ (p : Fin 2048) (q : Fin 1024), j = ix2 p q := ⟨j 0, j 1, eq_ix2 j⟩
  have hN : cfg2.N = 20 := Gen.N_2
  have ht : t.val < 20 := hN ▸ t.isLt
  have hq' : t.val * 1024 + q.val < 20480 := by have := q.isLt; omega
  show Gen.k2_pay1 (F := Ideal) (Gen.iblk2 V c 0 t) (Gen.iblk2 V c 1 t) (Gen.iblk2 V c 2 t) (ix2 p q)
    = denseOut (V c (Pipeline.arrRef spec2 0)) (V c (Pipeline.arrRef spec2 1)) (V c (Pipeline.arrRef spec2 2))
        (((cfg2.win 3).blk t).view.emb (ix2 p q))
  rw [outBlock2_emb t p q ⟨t.val * 1024 + q.val, hq'⟩ rfl, denseOut_ix2]
  refine (densePayload2_apply (Gen.iblk2 V c 0 t) (Gen.iblk2 V c 1 t) (Gen.iblk2 V c 2 t) p q).trans ?_
  unfold denseEntry
  rw [bBlock2_apply V c t q ⟨t.val * 1024 + q.val, hq'⟩ rfl]
  refine congrArg (· + _) (Finset.sum_congr rfl fun k _ => ?_)
  rw [xBlock2_apply V c t p k, wBlock2_apply V c t k q ⟨t.val * 1024 + q.val, hq'⟩ rfl]

/-- An index of the output array is in point `t`'s block iff each coordinate is in the block's range. -/
theorem mem_outBlock2 (t : Fin cfg2.N) (i : S2048x20480.Idx) :
    i ∈ ((cfg2.win 3).blk t).view.set ↔ ∀ a : Fin 2, win2_3.index t a * S2048x1024.size a ≤ (i a).val
      ∧ (i a).val < win2_3.index t a * S2048x1024.size a + S2048x1024.size a := by
  show i ∈ ((View.whole main_v110).slice (win2_3.rect t)).set ↔ _
  rw [View.set_slice_whole, Rect.mem_set_unit]
  exact Iff.rfl

/-- Every index of the output array lies in some point's block: column `j` in that of point `j / 1024`. -/
theorem outBlocks2_cover (i : S2048x20480.Idx) :
    ∃ t : Fin cfg2.N, (cfg2.win 3).flush t = true ∧ i ∈ ((cfg2.win 3).blk t).view.set := by
  have hN : cfg2.N = 20 := Gen.N_2
  have hi0 : (i 0).val < 2048 := (i 0).isLt
  have hi1 : (i 1).val < 20480 := (i 1).isLt
  let t : Fin cfg2.N := ⟨(i 1).val / 1024, by rw [hN]; omega⟩
  obtain ⟨-, -, -, -, -, e0, e1⟩ := blockIndex2 t
  have e1' : win2_3.index t (1 : Fin 2) = (i 1).val / 1024 := e1
  refine ⟨t, Gen.flush2_3 t, ?_⟩
  rw [mem_outBlock2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 1024 ≤ (i 1).val ∧ (i 1).val < win2_3.index t (1 : Fin 2) * 1024 + 1024; omega

/-- The output array after the region is `denseOut` of the three input arrays as the region finds them. -/
theorem final2 (c : Dev nD) :
    (Gen.dat2 (F := Ideal) V c).arrAt 3 cfg2.N
      = denseOut (V c (Pipeline.arrRef spec2 0)) (V c (Pipeline.arrRef spec2 1)) (V c (Pipeline.arrRef spec2 2)) :=
  (Gen.dat2 (F := Ideal) V c).arrAt_eq_of_cover 3 _ (fun t _ => flushed2_eq V c t) outBlocks2_cover

end Cert.KernelIdeal.DenseValue

end
-- ==== Proof.DensePayload3.lean ====
/-
  The body of the classifier kernel of region 3, read at an entry of its output block.

  The body loads the whole `x` block [2048,512], the weights block [512,1024] and the bias block [1024],
  multiplies the first two as matrices into a zero accumulator and adds the bias row to every row (the same
  operations as region 2's body, whose two reading lemmas are reused).  At the
  ideal values the format changes are the identity and the matrix product is the exact sum, so entry
  `(p, q)` of what it stores is `(∑ k, x[p,k] · w[k,q]) + b[q]`.
-/
import proofs.«133052_j57896159150149_1_alg».proof.Proof.Gen.KernelIdeal.Skeleton
import proofs.«133052_j57896159150149_1_alg».proof.Proof.DensePayload2
import Idealize.ShloMosaic.Lib.KernelVsHost
import Idealize.ShloMosaic.Lib.ValueLayout

noncomputable section

open scoped BigOperators

namespace Cert.KernelIdeal.DenseValue

open Idealize.ShloMosaic Idealize.ShloMosaic.ValueIdx Cert.KernelIdeal.Facts₀

/-- What the body stores, at entry `(p, q)` of the output block. -/
theorem densePayload3_apply (x0 : Vec Ideal S2048x512 .f32) (x1 : Vec Ideal S512x1024 .f32) (x2 : Vec Ideal S1024 .f32)
    (p : Fin 2048) (q : Fin 1024) :
    Gen.k3_pay1 (F := Ideal) x0 x1 x2 (ix2 p q) = (∑ k : Fin 512, x0 (ix2 p k) * x1 (ix2 k q)) + x2 (ix1 q) := by
  unfold Gen.k3_pay1
  rw [addf_apply, blockDot_apply, blockBias_apply]
  simp only [shapeCast_self, truncf_apply]

end Cert.KernelIdeal.DenseValue

end
-- ==== Proof.DenseBlocks3.lean ====
/-
  From blocks to the array, for the classifier kernel of region 3.

  The grid has 20 points; point `t` reads the whole `x` [2048,512], columns `1024·t … 1024·t + 1023` of the
  padded weights and of the padded bias, and writes the same columns of the output.  So what point `t` writes
  back is block `t` of the one function `denseOut` of the three input arrays, and since the 20 column blocks
  cover the output, the output array after the region is `denseOut` of the input arrays as the region finds them.
-/
import proofs.«133052_j57896159150149_1_alg».proof.Proof.Gen.KernelIdeal.Frame
import proofs.«133052_j57896159150149_1_alg».proof.Proof.DenseOut
import proofs.«133052_j57896159150149_1_alg».proof.Proof.DensePayload3
import proofs.«133052_j57896159150149_1_alg».proof.Proof.DenseBlocks2
import Idealize.ShloMosaic.Lib.Pipeline.Value

noncomputable section

open scoped BigOperators

namespace Cert.KernelIdeal.DenseValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The windows' block indices at point `t`, decided over the 20 points: `x` stays at block (0,0); the
    weights, the bias and the output move along their column axis with `t`. -/
theorem blockIndex3 : ∀ t : Fin cfg3.N,
    win3_0.index t (0 : Fin 2) = 0 ∧ win3_0.index t (1 : Fin 2) = 0
    ∧ win3_1.index t (0 : Fin 2) = 0 ∧ win3_1.index t (1 : Fin 2) = t.val
    ∧ win3_2.index t (0 : Fin 1) = t.val
    ∧ win3_3.index t (0 : Fin 2) = 0 ∧ win3_3.index t (1 : Fin 2) = t.val :=
  (by decide +kernel : ∀ t : Fin grid3.N, _)

/-- The `x` block at point `t` is the whole array. -/
theorem xBlock3_apply (c : Dev nD) (t : Fin cfg3.N) (p : Fin 2048) (k : Fin 512) :
    (Gen.iblk3 V c 0 t : Vec Ideal S2048x512 .f32) (ix2 p k)
      = (V c (Pipeline.arrRef spec3 0) : Vec Ideal S2048x512 .f32) (ix2 p k) := by
  obtain ⟨e0, e1, -, -, -, -, -⟩ := blockIndex3 t
  show V c (Pipeline.arrRef spec3 0) (((cfg3.win 0).blk t).view.emb (ix2 p k)) = V c (Pipeline.arrRef spec3 0) (ix2 p k)
  refine congrArg _ (funext fun a => Fin.ext ?_)
  match a with
  | ⟨0, _⟩ => show win3_0.index t (0 : Fin 2) * 2048 + 1 * p.val = p.val; omega
  | ⟨1, _⟩ => show win3_0.index t (1 : Fin 2) * 512 + 1 * k.val = k.val; omega

/-- The weights block at point `t` is columns `1024·t …` of the padded weights. -/
theorem wBlock3_apply (c : Dev nD) (t : Fin cfg3.N) (k : Fin 512) (q : Fin 1024) (q' : Fin 20480)
    (hq : q'.val = t.val * 1024 + q.val) :
    (Gen.iblk3 V c 1 t : Vec Ideal S512x1024 .f32) (ix2 k q)
      = (V c (Pipeline.arrRef spec3 1) : Vec Ideal S512x20480 .f32) (ix2 k q') := by
  obtain ⟨-, -, e0, e1, -, -, -⟩ := blockIndex3 t
  show V c (Pipeline.arrRef spec3 1) (((cfg3.win 1).blk t).view.emb (ix2 k q)) = V c (Pipeline.arrRef spec3 1) (ix2 k q')
  refine congrArg _ (funext fun a => Fin.ext ?_)
  match a with
  | ⟨0, _⟩ => show win3_1.index t (0 : Fin 2) * 512 + 1 * k.val = k.val; omega
  | ⟨1, _⟩ => show win3_1.index t (1 : Fin 2) * 1024 + 1 * q.val = q'.val; omega

/-- The bias block at point `t` is entries `1024·t …` of the padded bias. -/
theorem bBlock3_apply (c : Dev nD) (t : Fin cfg3.N) (q : Fin 1024) (q' : Fin 20480)
    (hq : q'.val = t.val * 1024 + q.val) :
    (Gen.iblk3 V c 2 t : Vec Ideal S1024 .f32) (ix1 q)
      = (V c (Pipeline.arrRef spec3 2) : Vec Ideal S20480 .f32) (ix1 q') := by
  obtain ⟨-, -, -, -, e0, -, -⟩ := blockIndex3 t
  show V c (Pipeline.arrRef spec3 2) (((cfg3.win 2).blk t).view.emb (ix1 q)) = V c (Pipeline.arrRef spec3 2) (ix1 q')
  refine congrArg _ (funext fun a => Fin.ext ?_)
  match a with
  | ⟨0, _⟩ => show win3_2.index t (0 : Fin 1) * 1024 + 1 * q.val = q'.val; omega

/-- Entry `(p, q)` of the output block at point `t` is entry `(p, 1024·t + q)` of the output array. -/
theorem outBlock3_emb (t : Fin cfg3.N) (p : Fin 2048) (q : Fin 1024) (q' : Fin 20480)
    (hq : q'.val = t.val * 1024 + q.val) :
    ((cfg3.win 3).blk t).view.emb (ix2 p q) = (ix2 p q' : S2048x20480.Idx) := by
  obtain ⟨-, -, -, -, -, e0, e1⟩ := blockIndex3 t
  refine funext fun a => Fin.ext ?_
  match a with
  | ⟨0, _⟩ => show win3_3.index t (0 : Fin 2) * 2048 + 1 * p.val = p.val; omega
  | ⟨1, _⟩ => show win3_3.index t (1 : Fin 2) * 1024 + 1 * q.val = q'.val; omega

/-- What point `t` writes back is block `t` of `denseOut` of the input arrays as the region finds them. -/
theorem flushed3_eq (c : Dev nD) (t : Fin cfg3.N) :
    (Gen.dat3 (F := Ideal) V c).flushed 3 t = ((cfg3.win 3).blk t).view.read (Elt Ideal)
      (denseOut (V c (Pipeline.arrRef spec3 0)) (V c (Pipeline.arrRef spec3 1)) (V c (Pipeline.arrRef spec3 2))) := by
  show (cfg3.win 3).cut (grid3.coords t) ((Gen.dat3 (F := Ideal) V c).after 3 t) = _
  rw [Gen.after3_3]
  unfold Gen.out3_3
  rw [View.canon_unit_zero zeroOffsets2]
  simp only [View.ld_unit_zero (S := S2048x512) zeroOffsets2, View.ld_unit_zero (S := S512x1024) zeroOffsets2,
    View.ld_unit_zero (S := S1024) zeroOffsets1]
  funext j
  obtain ⟨p, q, rfl⟩ : ∃ (p : Fin 2048) (q : Fin 1024), j = ix2 p q := ⟨j 0, j 1, eq_ix2 j⟩
  have hN : cfg3.N = 20 := Gen.N_3
  have ht : t.val < 20 := hN ▸ t.isLt
  have hq' : t.val * 1024 + q.val < 20480 := by have := q.isLt; omega
  show Gen.k3_pay1 (F := Ideal) (Gen.iblk3 V c 0 t) (Gen.iblk3 V c 1 t) (Gen.iblk3 V c 2 t) (ix2 p q)
    = denseOut (V c (Pipeline.arrRef spec3 0)) (V c (Pipeline.arrRef spec3 1)) (V c (Pipeline.arrRef spec3 2))
        (((cfg3.win 3).blk t).view.emb (ix2 p q))
  rw [outBlock3_emb t p q ⟨t.val * 1024 + q.val, hq'⟩ rfl, denseOut_ix2]
  refine (densePayload3_apply (Gen.iblk3 V c 0 t) (Gen.iblk3 V c 1 t) (Gen.iblk3 V c 2 t) p q).trans ?_
  unfold denseEntry
  rw [bBlock3_apply V c t q ⟨t.val * 1024 + q.val, hq'⟩ rfl]
  refine congrArg (· + _) (Finset.sum_congr rfl fun k _ => ?_)
  rw [xBlock3_apply V c t p k, wBlock3_apply V c t k q ⟨t.val * 1024 + q.val, hq'⟩ rfl]

/-- An index of the output array is in point `t`'s block iff each coordinate is in the block's range. -/
theorem mem_outBlock3 (t : Fin cfg3.N) (i : S2048x20480.Idx) :
    i ∈ ((cfg3.win 3).blk t).view.set ↔ ∀ a : Fin 2, win3_3.index t a * S2048x1024.size a ≤ (i a).val
      ∧ (i a).val < win3_3.index t a * S2048x1024.size a + S2048x1024.size a := by
  show i ∈ ((View.whole main_v114).slice (win3_3.rect t)).set ↔ _
  rw [View.set_slice_whole, Rect.mem_set_unit]
  exact Iff.rfl

/-- Every index of the output array lies in some point's block: column `j` in that of point `j / 1024`. -/
theorem outBlocks3_cover (i : S2048x20480.Idx) :
    ∃ t : Fin cfg3.N, (cfg3.win 3).flush t = true ∧ i ∈ ((cfg3.win 3).blk t).view.set := by
  have hN : cfg3.N = 20 := Gen.N_3
  have hi0 : (i 0).val < 2048 := (i 0).isLt
  have hi1 : (i 1).val < 20480 := (i 1).isLt
  let t : Fin cfg3.N := ⟨(i 1).val / 1024, by rw [hN]; omega⟩
  obtain ⟨-, -, -, -, -, e0, e1⟩ := blockIndex3 t
  have e1' : win3_3.index t (1 : Fin 2) = (i 1).val / 1024 := e1
  refine ⟨t, Gen.flush3_3 t, ?_⟩
  rw [mem_outBlock3]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 1024 ≤ (i 1).val ∧ (i 1).val < win3_3.index t (1 : Fin 2) * 1024 + 1024; omega

/-- The output array after the region is `denseOut` of the three input arrays as the region finds them. -/
theorem final3 (c : Dev nD) :
    (Gen.dat3 (F := Ideal) V c).arrAt 3 cfg3.N
      = denseOut (V c (Pipeline.arrRef spec3 0)) (V c (Pipeline.arrRef spec3 1)) (V c (Pipeline.arrRef spec3 2)) :=
  (Gen.dat3 (F := Ideal) V c).arrAt_eq_of_cover 3 _ (fun t _ => flushed3_eq V c t) outBlocks3_cover

end Cert.KernelIdeal.DenseValue

end
-- ==== Proof.DenseFinal.lean ====
/-
  The classifier stage of both classifier regions, collected: the output array after region 2 (`final2`) and
  after region 3 (`final3`) is `denseOut` of the region's three input arrays, and the first 20000 columns
  of `denseOut` at right-padded weights and bias are the reference's classifier (`sliced_eq`).
-/
import proofs.«133052_j57896159150149_1_alg».proof.Proof.DenseSpec
import proofs.«133052_j57896159150149_1_alg».proof.Proof.DenseBlocks2
import proofs.«133052_j57896159150149_1_alg».proof.Proof.DenseBlocks3
-- ==== Proof.lean ====
/-
  The certificate of a two-layer relational graph convolution with two classifier heads.

  The kernel program leaves the edge gathers and scatter-adds to the host and runs four Pallas regions: twice the
  per-relation dense transform with bias and mean over the sixteen relations, tiled over blocks of a thousand nodes,
  and twice the classifier product with bias, tiled over blocks of 1024 output columns of weights padded on the right.
  The reference does all of it with whole-array operations.

  Read over the extended reals the two programs compute the same function of the arguments. Four observations carry
  the proof. A change of float format is the identity there, and a matrix product is the plain sum of products, so a
  region's block of rows (or columns) is the corresponding block of the whole-array product. The kernel adds the
  sixteen relations' terms one after the other starting from zero and multiplies by 1/16, the reference sums them
  and divides by 16: the same by commutativity and associativity of addition, and because 1/16 is a dyadic rational.
  The kernel raises the clipped out-degrees to the power −1/2 before gathering them by source segment, the reference
  after: a gather only re-indexes. The padded classifier columns are sliced away again, so their contents never
  reach a result. No step divides, cancels or distributes, so the finiteness of the inputs is never used.

  The frames of the two printed kernel programs are the generated ones; the reference's frame is its generated run
  with the results dropped; the idealization rewrote nothing, so there is nothing to preserve.
-/
import proofs.«133052_j57896159150149_1_alg».proof.Defs
import proofs.«133052_j57896159150149_1_alg».proof.Proof.Gen.Kernel
import proofs.«133052_j57896159150149_1_alg».proof.Proof.Gen.Kernel.Frame
import proofs.«133052_j57896159150149_1_alg».proof.Proof.Gen.KernelIdeal
import proofs.«133052_j57896159150149_1_alg».proof.Proof.Gen.KernelIdeal.Frame
import proofs.«133052_j57896159150149_1_alg».proof.Proof.Gen.ReferenceIdeal
import proofs.«133052_j57896159150149_1_alg».proof.Proof.Gen.Pre_finite_inputs
import proofs.«133052_j57896159150149_1_alg».proof.Proof.Gen.ReferenceIdeal.Run
import proofs.«133052_j57896159150149_1_alg».proof.Proof.Gen.ReferenceIdeal.Read
import proofs.«133052_j57896159150149_1_alg».proof.Proof.KValue
import proofs.«133052_j57896159150149_1_alg».proof.Proof.RelFinal
import proofs.«133052_j57896159150149_1_alg».proof.Proof.DenseFinal
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the reference's two predictions of the (agreeing) arguments. -/
theorem algebraic : Cert.algebraic_KernelIdeal_ReferenceIdeal := by
  intro m ρ m' ρ' _ hagree
  refine ⟨_, _, Cert.KernelIdeal.Whole.run m ρ Cert.KernelIdeal.DenseValue.denseOut Cert.KernelIdeal.RelValue.final0
    Cert.KernelIdeal.RelValue.final1 Cert.KernelIdeal.DenseValue.final2 Cert.KernelIdeal.DenseValue.final3
    (fun x W b v v' => Cert.KernelIdeal.DenseValue.sliced_eq x W b v v' _ _ _ _ _), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v145_eq, h0, h1, h2, h4, h5, h6, h10, h11, h12, h13, h14]
  · obtain ⟨h0, h1, h2, h3, h4, h5, h6, h7, h8, h9, h10, h11, h12, h13, h14⟩ := hagree c
    rw [Cert.ReferenceIdeal.Read.val_main_v150_eq, h0, h1, h2, h3, h7, h8, h9, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
